-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v339) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S128x128x128x4 : Shape := ⟨4, ![128, 128, 128, 4]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S128x128x128x4 : S_.BroadcastsInDim S128x128x128x4 (![] : Fin 0 → Fin S128x128x128x4.rank)
  reducesTo_S128x128x128x4_S_d0_1_2_3 : S128x128x128x4.ReducesTo [0, 1, 2, 3] S_

variable [Facts]

def fn {F : FTy → Type} [FloatOps F] (main_arg0 : FVec F S2000000x3 .f32) (main_arg1 : FVec F S128x128x128x4 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S128x128x128x4 .f32 := Host.absf main_arg1
  let main_cst_0 : FVec F S_ .f32 := constant S_ .f32 0x7F800000#32
  let main_v5 : FVec F S128x128x128x4 .f32 := broadcastInDim S128x128x128x4 ![] bcast_S_S128x128x128x4 main_cst_0
  let main_v6 : IVec S128x128x128x4 1 := cmpf .olt main_v4 main_v5
  let main_c_1 : IVec S_ 1 := constantI S_ 1 1#1
  let main_v7 : IVec S_ 1 := (fun x v => Host.reduce IntOp.andi x v reducesTo_S128x128x128x4_S_d0_1_2_3 h_S_) main_v6 main_c_1
  let main_v8 : IVec S_ 1 := andi main_v3 main_v7
  main_v8
-- ==== Kernel.lean ====
abbrev S2000000x3 : Shape := ⟨2, ![2000000, 3]⟩
abbrev S128x128x128x4 : Shape := ⟨4, ![128, 128, 128, 4]⟩
abbrev S_ : Shape := ⟨0, ![]⟩
abbrev S2000128x3 : Shape := ⟨2, ![2000128, 3]⟩
abbrev S4x128x128x128 : Shape := ⟨4, ![4, 128, 128, 128]⟩
abbrev S512x128x128 : Shape := ⟨3, ![512, 128, 128]⟩
abbrev S512x16384 : Shape := ⟨2, ![512, 16384]⟩
abbrev S2000128x4 : Shape := ⟨2, ![2000128, 4]⟩
abbrev S256x3 : Shape := ⟨2, ![256, 3]⟩
abbrev S256x4 : Shape := ⟨2, ![256, 4]⟩
abbrev S256x128 : Shape := ⟨2, ![256, 128]⟩
abbrev S256x1 : Shape := ⟨2, ![256, 1]⟩
abbrev S256x128x1 : Shape := ⟨3, ![256, 128, 1]⟩
abbrev S256x1x128 : Shape := ⟨3, ![256, 1, 128]⟩
abbrev S256x128x128 : Shape := ⟨3, ![256, 128, 128]⟩
abbrev S256x16384 : Shape := ⟨2, ![256, 16384]⟩
abbrev S256x512 : Shape := ⟨2, ![256, 512]⟩
abbrev S256x4x128 : Shape := ⟨3, ![256, 4, 128]⟩
abbrev S2000000x4 : Shape := ⟨2, ![2000000, 4]⟩

abbrev nBuf : Space → Nat
  | .hbm => 11
  | .vmem => 5
  | .smem => 0
  | _ => 0

abbrev bufTy : (tb : Table) → Fin (tcTables nBuf tb) → BufTy
  | .hbm, ⟨0, _⟩ => ⟨S2000000x3, .f32⟩
  | .hbm, ⟨1, _⟩ => ⟨S128x128x128x4, .f32⟩
  | .hbm, ⟨2, _⟩ => ⟨S_, .i32⟩
  | .hbm, ⟨3, _⟩ => ⟨S_, .f32⟩
  | .hbm, ⟨4, _⟩ => ⟨S2000128x3, .f32⟩
  | .hbm, ⟨5, _⟩ => ⟨S4x128x128x128, .f32⟩
  | .hbm, ⟨6, _⟩ => ⟨S512x128x128, .f32⟩
  | .hbm, ⟨7, _⟩ => ⟨S512x16384, .f32⟩
  | .hbm, ⟨8, _⟩ => ⟨S512x16384, .bf16⟩
  | .hbm, ⟨9, _⟩ => ⟨S2000128x4, .f32⟩
  | .hbm, ⟨10, _⟩ => ⟨S2000000x4, .f32⟩
  | .local _ .vmem, ⟨0, _⟩ => ⟨S256x3, .f32⟩
  | .local _ .vmem, ⟨1, _⟩ => ⟨S256x3, .f32⟩
  | .local _ .vmem, ⟨2, _⟩ => ⟨S512x16384, .bf16⟩
  | .local _ .vmem, ⟨3, _⟩ => ⟨S256x4, .f32⟩
  | .local _ .vmem, ⟨4, _⟩ => ⟨S256x4, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7813], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S2000000x3_S2000128x3_01280_000 : S2000000x3.Pads (![0, 0] : Fin 2 → Nat) ![128, 0] ![0, 0] S2000128x3
  h_S_ : 0 < S_.numel
  transposes_S128x128x128x4_S4x128x128x128_3_0_1_2 : S128x128x128x4.Transposes [3, 0, 1, 2] S4x128x128x128
  shapeCasts_S4x128x128x128_S512x128x128 : S4x128x128x128.ShapeCasts S512x128x128
  shapeCasts_S512x128x128_S512x16384 : S512x128x128.ShapeCasts S512x16384
  bitsLt_bf16_f32 : FTy.bits .bf16 < FTy.bits .f32
  inb_S256x3_S256x3_0_0 : ∀ a, (![0, 0] : Fin 2 → Nat) a + S256x3.size a ≤ S256x3.size a
  h_S256x3 : 0 < S256x3.numel
  shapeCasts_S256x3_S256x3 : S256x3.ShapeCasts S256x3
  iota_S256x128_d1_w32 : S256x128.Iotas .tc 32 [1]
  slices_S256x3_o0_0_S256x1 : S256x3.Slices ![0, 0] S256x1
  broadcasts_S256x1_S256x128 : S256x1.Broadcasts S256x128
  shapeCasts_S256x1_S256x1 : S256x1.ShapeCasts S256x1
  slices_S256x3_o0_1_S256x1 : S256x3.Slices ![0, 1] S256x1
  slices_S256x3_o0_2_S256x1 : S256x3.Slices ![0, 2] S256x1
  shapeCasts_S256x128_S256x128x1 : S256x128.ShapeCasts S256x128x1
  shapeCasts_S256x128_S256x1x128 : S256x128.ShapeCasts S256x1x128
  broadcasts_S256x128x1_S256x128x128 : S256x128x1.Broadcasts S256x128x128
  broadcasts_S256x1x128_S256x128x128 : S256x1x128.Broadcasts S256x128x128
  shapeCasts_S256x128x128_S256x16384 : S256x128x128.ShapeCasts S256x16384
  inb_S512x16384_S512x16384_0_0 : ∀ a, (![0, 0] : Fin 2 → Nat) a + S512x16384.size a ≤ S512x16384.size a
  h_S512x16384 : 0 < S512x16384.numel
  shapeCasts_S512x16384_S512x16384 : S512x16384.ShapeCasts S512x16384
  shapeCasts_S256x512_S256x4x128 : S256x512.ShapeCasts S256x4x128
  broadcasts_S256x1x128_S256x4x128 : S256x1x128.Broadcasts S256x4x128
  reduces_S256x4x128_S256x4 : S256x4x128.Reduces [2] S256x4
  inb_S256x4_S256x4_0_0 : ∀ a, (![0, 0] : Fin 2 → Nat) a + S256x4.size a ≤ S256x4.size a
  h_S256x4 : 0 < S256x4.numel
  slices_S2000128x4_S2000000x4_0_0 : S2000128x4.Slices ![0, 0] S2000000x4
  dot_S256x16384_S512x16384_S256x512_1_1_0_0_n_n_wf : DotDims.WF S256x16384 S512x16384 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S2000128x3.size a
  hwx0_0 : ∀ i : grid0.Coords, EltTy.bits .f32 = 32 ∨ (Rect.block (s := S2000128x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16384.size a ≤ S512x16384.size a
  hwx0_1 : ∀ i : grid0.Coords, EltTy.bits .bf16 = 32 ∨ (Rect.block (s := S512x16384) S512x16384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S2000128x4.size a
  hwx0_2 : ∀ i : grid0.Coords, EltTy.bits .f32 = 32 ∨ (Rect.block (s := S2000128x4) S256x4.size (cc0_transform_2 i) (hinb0_2 i)).WholeWords (EltTy.packing .f32)

variable [Facts₀]

def dot_S256x16384_S512x16384_S256x512_1_1_0_0_n_n : DotDims S256x16384 S512x16384 S256x512 where
  lhsContracting := [1]
  rhsContracting := [1]
  lhsNonContracting := [0]
  rhsNonContracting := [0]
  lhsBatch := []
  rhsBatch := []
  wf := dot_S256x16384_S512x16384_S256x512_1_1_0_0_n_n_wf

abbrev win0_0 : Pipeline.Window sig grid0 :=
  Pipeline.Window.ofSpec (Memref.whole main_v0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S128x128x128x4 : Shape := ⟨4, ![128, 128, 128, 4]⟩
abbrev S_ : Shape := ⟨0, ![]⟩
abbrev S2000000x4 : Shape := ⟨2, ![2000000, 4]⟩
abbrev S2000000x1 : Shape := ⟨2, ![2000000, 1]⟩
abbrev S2000000 : Shape := ⟨1, ![2000000]⟩

abbrev nBuf : Space → Nat
  | .hbm => 413
  | .vmem => 0
  | .smem => 0
  | _ => 0

abbrev hbmTy0_0 (i : Nat) : BufTy := match i % 128 with
  | 0 => ⟨S2000000x3, .f32⟩
  | 1 => ⟨S128x128x128x4, .f32⟩
  | 2 => ⟨S_, .f32⟩
  | 3 => ⟨S2000000x3, .f32⟩
  | 4 => ⟨S2000000x3, .f32⟩
  | 5 => ⟨S_, .f32⟩
  | 6 => ⟨S_, .i32⟩
  | 7 => ⟨S_, .f32⟩
  | 8 => ⟨S2000000x3, .f32⟩
  | 9 => ⟨S2000000x3, .f32⟩
  | 10 => ⟨S_, .f32⟩
  | 11 => ⟨S2000000x3, .f32⟩
  | 12 => ⟨S2000000x3, .f32⟩
  | 13 => ⟨S2000000x3, .f32⟩
  | 14 => ⟨S2000000x3, .i32⟩
  | 15 => ⟨S_, .i32⟩
  | 16 => ⟨S2000000x3, .i32⟩
  | 17 => ⟨S2000000x3, .i32⟩
  | 18 => ⟨S_, .i32⟩
  | 19 => ⟨S2000000x3, .i32⟩
  | 20 => ⟨S2000000x3, .i32⟩
  | 21 => ⟨S2000000x3, .f32⟩
  | 22 => ⟨S2000000x3, .f32⟩
  | 23 => ⟨S_, .f32⟩
  | 24 => ⟨S2000000x4, .f32⟩
  | 25 => ⟨S2000000x1, .i32⟩
  | 26 => ⟨S2000000, .i32⟩
  | 27 => ⟨S2000000x1, .i32⟩
  | 28 => ⟨S2000000, .i32⟩
  | 29 => ⟨S2000000x1, .i32⟩
  | 30 => ⟨S2000000, .i32⟩
  | 31 => ⟨S2000000x1, .f32⟩
  | 32 => ⟨S2000000, .f32⟩
  | 33 => ⟨S_, .f32⟩
  | 34 => ⟨S2000000, .f32⟩
  | 35 => ⟨S2000000, .f32⟩
  | 36 => ⟨S2000000x1, .f32⟩
  | 37 => ⟨S2000000, .f32⟩
  | 38 => ⟨S_, .f32⟩
  | 39 => ⟨S2000000, .f32⟩
  | 40 => ⟨S2000000, .f32⟩
  | 41 => ⟨S2000000x1, .f32⟩
  | 42 => ⟨S2000000, .f32⟩
  | 43 => ⟨S_, .f32⟩
  | 44 => ⟨S2000000, .f32⟩
  | 45 => ⟨S2000000, .f32⟩
  | 46 => ⟨S2000000, .f32⟩
  | 47 => ⟨S2000000, .f32⟩
  | 48 => ⟨S2000000x1, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S2000000x1, .i32⟩
  | 72 => ⟨S2000000x1, .i32⟩
  | 73 => ⟨S2000000x3, .i32⟩
  | 74 => ⟨S2000000x4, .f32⟩
  | 75 => ⟨S2000000x4, .f32⟩
  | 76 => ⟨S2000000x4, .f32⟩
  | 77 => ⟨S2000000x4, .f32⟩
  | 78 => ⟨S2000000x1, .i32⟩
  | 79 => ⟨S2000000, .i32⟩
  | 80 => ⟨S2000000x1, .i32⟩
  | 81 => ⟨S2000000, .i32⟩
  | 82 => ⟨S2000000x1, .i32⟩
  | 83 => ⟨S2000000, .i32⟩
  | 84 => ⟨S2000000x1, .f32⟩
  | 85 => ⟨S2000000, .f32⟩
  | 86 => ⟨S_, .f32⟩
  | 87 => ⟨S2000000, .f32⟩
  | 88 => ⟨S2000000, .f32⟩
  | 89 => ⟨S2000000x1, .f32⟩
  | 90 => ⟨S2000000, .f32⟩
  | 91 => ⟨S_, .f32⟩
  | 92 => ⟨S2000000, .f32⟩
  | 93 => ⟨S2000000, .f32⟩
  | 94 => ⟨S2000000x1, .f32⟩
  | 95 => ⟨S2000000, .f32⟩
  | 96 => ⟨S2000000, .f32⟩
  | 97 => ⟨S2000000, .f32⟩
  | 98 => ⟨S2000000x1, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S_, .i32⟩
  | 107 => ⟨S2000000, .i32⟩
  | 108 => ⟨S2000000, .i1⟩
  | 109 => ⟨S_, .i32⟩
  | 110 => ⟨S2000000, .i32⟩
  | 111 => ⟨S2000000, .i32⟩
  | 112 => ⟨S2000000, .i32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x1, .i32⟩
  | 122 => ⟨S2000000x1, .i32⟩
  | 123 => ⟨S2000000x3, .i32⟩
  | 124 => ⟨S2000000x4, .f32⟩
  | 125 => ⟨S2000000x4, .f32⟩
  | 126 => ⟨S2000000x4, .f32⟩
  | 127 => ⟨S2000000x4, .f32⟩
  | _ => ⟨S2000000x3, .f32⟩

abbrev hbmTy0_1 (i : Nat) : BufTy := match i % 128 with
  | 0 => ⟨S2000000x1, .i32⟩
  | 1 => ⟨S2000000, .i32⟩
  | 2 => ⟨S2000000x1, .i32⟩
  | 3 => ⟨S2000000, .i32⟩
  | 4 => ⟨S2000000x1, .i32⟩
  | 5 => ⟨S2000000, .i32⟩
  | 6 => ⟨S2000000x1, .f32⟩
  | 7 => ⟨S2000000, .f32⟩
  | 8 => ⟨S_, .f32⟩
  | 9 => ⟨S2000000, .f32⟩
  | 10 => ⟨S2000000, .f32⟩
  | 11 => ⟨S2000000x1, .f32⟩
  | 12 => ⟨S2000000, .f32⟩
  | 13 => ⟨S2000000x1, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S2000000, .f32⟩
  | 20 => ⟨S2000000x1, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000x1, .i32⟩
  | 44 => ⟨S2000000x1, .i32⟩
  | 45 => ⟨S2000000x3, .i32⟩
  | 46 => ⟨S2000000x4, .f32⟩
  | 47 => ⟨S2000000x4, .f32⟩
  | 48 => ⟨S2000000x4, .f32⟩
  | 49 => ⟨S2000000x4, .f32⟩
  | 50 => ⟨S2000000x1, .i32⟩
  | 51 => ⟨S2000000, .i32⟩
  | 52 => ⟨S2000000x1, .i32⟩
  | 53 => ⟨S2000000, .i32⟩
  | 54 => ⟨S2000000x1, .i32⟩
  | 55 => ⟨S2000000, .i32⟩
  | 56 => ⟨S2000000x1, .f32⟩
  | 57 => ⟨S2000000, .f32⟩
  | 58 => ⟨S_, .f32⟩
  | 59 => ⟨S2000000, .f32⟩
  | 60 => ⟨S2000000, .f32⟩
  | 61 => ⟨S2000000x1, .f32⟩
  | 62 => ⟨S2000000, .f32⟩
  | 63 => ⟨S2000000x1, .f32⟩
  | 64 => ⟨S2000000, .f32⟩
  | 65 => ⟨S2000000, .f32⟩
  | 66 => ⟨S2000000, .f32⟩
  | 67 => ⟨S2000000x1, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i32⟩
  | 81 => ⟨S2000000, .i32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x1, .i32⟩
  | 91 => ⟨S2000000x1, .i32⟩
  | 92 => ⟨S2000000x3, .i32⟩
  | 93 => ⟨S2000000x4, .f32⟩
  | 94 => ⟨S2000000x4, .f32⟩
  | 95 => ⟨S2000000x4, .f32⟩
  | 96 => ⟨S2000000x4, .f32⟩
  | 97 => ⟨S2000000x1, .i32⟩
  | 98 => ⟨S2000000, .i32⟩
  | 99 => ⟨S2000000x1, .i32⟩
  | 100 => ⟨S2000000, .i32⟩
  | 101 => ⟨S2000000x1, .i32⟩
  | 102 => ⟨S2000000, .i32⟩
  | 103 => ⟨S2000000x1, .f32⟩
  | 104 => ⟨S2000000, .f32⟩
  | 105 => ⟨S2000000x1, .f32⟩
  | 106 => ⟨S2000000, .f32⟩
  | 107 => ⟨S_, .f32⟩
  | 108 => ⟨S2000000, .f32⟩
  | 109 => ⟨S2000000, .f32⟩
  | 110 => ⟨S2000000x1, .f32⟩
  | 111 => ⟨S2000000, .f32⟩
  | 112 => ⟨S_, .f32⟩
  | 113 => ⟨S2000000, .f32⟩
  | 114 => ⟨S2000000, .f32⟩
  | 115 => ⟨S2000000, .f32⟩
  | 116 => ⟨S2000000, .f32⟩
  | 117 => ⟨S2000000x1, .f32⟩
  | 118 => ⟨S_, .i32⟩
  | 119 => ⟨S2000000, .i32⟩
  | 120 => ⟨S2000000, .i1⟩
  | 121 => ⟨S_, .i32⟩
  | 122 => ⟨S2000000, .i32⟩
  | 123 => ⟨S2000000, .i32⟩
  | 124 => ⟨S2000000, .i32⟩
  | 125 => ⟨S_, .i32⟩
  | 126 => ⟨S2000000, .i32⟩
  | 127 => ⟨S2000000, .i1⟩
  | _ => ⟨S2000000x3, .f32⟩

abbrev hbmTy0_2 (i : Nat) : BufTy := match i % 128 with
  | 0 => ⟨S_, .i32⟩
  | 1 => ⟨S2000000, .i32⟩
  | 2 => ⟨S2000000, .i32⟩
  | 3 => ⟨S2000000, .i32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S2000000x1, .i32⟩
  | 12 => ⟨S2000000x1, .i32⟩
  | 13 => ⟨S2000000x1, .i32⟩
  | 14 => ⟨S2000000x3, .i32⟩
  | 15 => ⟨S2000000x4, .f32⟩
  | 16 => ⟨S2000000x4, .f32⟩
  | 17 => ⟨S2000000x4, .f32⟩
  | 18 => ⟨S2000000x4, .f32⟩
  | 19 => ⟨S2000000x1, .i32⟩
  | 20 => ⟨S2000000, .i32⟩
  | 21 => ⟨S2000000x1, .i32⟩
  | 22 => ⟨S2000000, .i32⟩
  | 23 => ⟨S2000000x1, .i32⟩
  | 24 => ⟨S2000000, .i32⟩
  | 25 => ⟨S2000000x1, .f32⟩
  | 26 => ⟨S2000000, .f32⟩
  | 27 => ⟨S2000000x1, .f32⟩
  | 28 => ⟨S2000000, .f32⟩
  | 29 => ⟨S_, .f32⟩
  | 30 => ⟨S2000000, .f32⟩
  | 31 => ⟨S2000000, .f32⟩
  | 32 => ⟨S2000000x1, .f32⟩
  | 33 => ⟨S2000000, .f32⟩
  | 34 => ⟨S2000000, .f32⟩
  | 35 => ⟨S2000000, .f32⟩
  | 36 => ⟨S2000000x1, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x1, .i32⟩
  | 60 => ⟨S2000000x1, .i32⟩
  | 61 => ⟨S2000000x3, .i32⟩
  | 62 => ⟨S2000000x4, .f32⟩
  | 63 => ⟨S2000000x4, .f32⟩
  | 64 => ⟨S2000000x4, .f32⟩
  | 65 => ⟨S2000000x4, .f32⟩
  | 66 => ⟨S2000000x1, .i32⟩
  | 67 => ⟨S2000000, .i32⟩
  | 68 => ⟨S2000000x1, .i32⟩
  | 69 => ⟨S2000000, .i32⟩
  | 70 => ⟨S2000000x1, .i32⟩
  | 71 => ⟨S2000000, .i32⟩
  | 72 => ⟨S2000000x1, .f32⟩
  | 73 => ⟨S2000000, .f32⟩
  | 74 => ⟨S2000000x1, .f32⟩
  | 75 => ⟨S2000000, .f32⟩
  | 76 => ⟨S2000000x1, .f32⟩
  | 77 => ⟨S2000000, .f32⟩
  | 78 => ⟨S_, .f32⟩
  | 79 => ⟨S2000000, .f32⟩
  | 80 => ⟨S2000000, .f32⟩
  | 81 => ⟨S2000000, .f32⟩
  | 82 => ⟨S2000000, .f32⟩
  | 83 => ⟨S2000000x1, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x1, .i32⟩
  | 107 => ⟨S2000000x1, .i32⟩
  | 108 => ⟨S2000000x3, .i32⟩
  | 109 => ⟨S2000000x4, .f32⟩
  | 110 => ⟨S2000000x4, .f32⟩
  | 111 => ⟨S2000000x4, .f32⟩
  | 112 => ⟨S2000000x4, .f32⟩
  | 113 => ⟨S2000000x1, .i32⟩
  | 114 => ⟨S2000000, .i32⟩
  | 115 => ⟨S2000000x1, .i32⟩
  | 116 => ⟨S2000000, .i32⟩
  | 117 => ⟨S2000000x1, .i32⟩
  | 118 => ⟨S2000000, .i32⟩
  | 119 => ⟨S2000000x1, .f32⟩
  | 120 => ⟨S2000000, .f32⟩
  | 121 => ⟨S2000000x1, .f32⟩
  | 122 => ⟨S2000000, .f32⟩
  | 123 => ⟨S2000000x1, .f32⟩
  | 124 => ⟨S2000000, .f32⟩
  | 125 => ⟨S2000000, .f32⟩
  | 126 => ⟨S2000000, .f32⟩
  | 127 => ⟨S2000000x1, .f32⟩
  | _ => ⟨S2000000x3, .f32⟩

abbrev hbmTy0_3 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x1, .i32⟩
  | 23 => ⟨S2000000x1, .i32⟩
  | 24 => ⟨S2000000x3, .i32⟩
  | 25 => ⟨S2000000x4, .f32⟩
  | 26 => ⟨S2000000x4, .f32⟩
  | 27 => ⟨S2000000x4, .f32⟩
  | 28 => ⟨S2000000x4, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_15 : Ref sig .tc := ⟨.hbm, 99, rfl⟩
abbrev main_v75 : Ref sig .tc := ⟨.hbm, 100, rfl⟩
abbrev main_v76 : Ref sig .tc := ⟨.hbm, 101, rfl⟩
abbrev main_c_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_17 : Ref sig .tc := ⟨.hbm, 106, rfl⟩
abbrev main_v80 : Ref sig .tc := ⟨.hbm, 107, rfl⟩
abbrev main_v81 : Ref sig .tc := ⟨.hbm, 108, rfl⟩
abbrev main_c_18 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_19 : Ref sig .tc := ⟨.hbm, 113, rfl⟩
abbrev main_v85 : Ref sig .tc := ⟨.hbm, 114, rfl⟩
abbrev main_v86 : Ref sig .tc := ⟨.hbm, 115, rfl⟩
abbrev main_c_20 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_21 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_22 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_23 : Ref sig .tc := ⟨.hbm, 149, rfl⟩
abbrev main_v117 : Ref sig .tc := ⟨.hbm, 150, rfl⟩
abbrev main_v118 : Ref sig .tc := ⟨.hbm, 151, rfl⟩
abbrev main_c_24 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_25 : Ref sig .tc := ⟨.hbm, 156, rfl⟩
abbrev main_v122 : Ref sig .tc := ⟨.hbm, 157, rfl⟩
abbrev main_v123 : Ref sig .tc := ⟨.hbm, 158, rfl⟩
abbrev main_c_26 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_c_27 : Ref sig .tc := ⟨.hbm, 163, rfl⟩
abbrev main_v127 : Ref sig .tc := ⟨.hbm, 164, rfl⟩
abbrev main_v128 : Ref sig .tc := ⟨.hbm, 165, rfl⟩
abbrev main_c_28 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_29 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_c_30 : Ref sig .tc := ⟨.hbm, 196, rfl⟩
abbrev main_v157 : Ref sig .tc := ⟨.hbm, 197, rfl⟩
abbrev main_v158 : Ref sig .tc := ⟨.hbm, 198, rfl⟩
abbrev main_c_31 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c_32 : Ref sig .tc := ⟨.hbm, 203, rfl⟩
abbrev main_v162 : Ref sig .tc := ⟨.hbm, 204, rfl⟩
abbrev main_v163 : Ref sig .tc := ⟨.hbm, 205, rfl⟩
abbrev main_c_33 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_c_34 : Ref sig .tc := ⟨.hbm, 210, rfl⟩
abbrev main_v167 : Ref sig .tc := ⟨.hbm, 211, rfl⟩
abbrev main_v168 : Ref sig .tc := ⟨.hbm, 212, rfl⟩
abbrev main_c_35 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_cst_36 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_cst_37 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_c_38 : Ref sig .tc := ⟨.hbm, 246, rfl⟩
abbrev main_v199 : Ref sig .tc := ⟨.hbm, 247, rfl⟩
abbrev main_v200 : Ref sig .tc := ⟨.hbm, 248, rfl⟩
abbrev main_c_39 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_c_40 : Ref sig .tc := ⟨.hbm, 253, rfl⟩
abbrev main_v204 : Ref sig .tc := ⟨.hbm, 254, rfl⟩
abbrev main_v205 : Ref sig .tc := ⟨.hbm, 255, rfl⟩
abbrev main_c_41 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_c_42 : Ref sig .tc := ⟨.hbm, 260, rfl⟩
abbrev main_v209 : Ref sig .tc := ⟨.hbm, 261, rfl⟩
abbrev main_v210 : Ref sig .tc := ⟨.hbm, 262, rfl⟩
abbrev main_c_43 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_cst_44 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_c_45 : Ref sig .tc := ⟨.hbm, 293, rfl⟩
abbrev main_v239 : Ref sig .tc := ⟨.hbm, 294, rfl⟩
abbrev main_v240 : Ref sig .tc := ⟨.hbm, 295, rfl⟩
abbrev main_c_46 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_c_47 : Ref sig .tc := ⟨.hbm, 300, rfl⟩
abbrev main_v244 : Ref sig .tc := ⟨.hbm, 301, rfl⟩
abbrev main_v245 : Ref sig .tc := ⟨.hbm, 302, rfl⟩
abbrev main_c_48 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_c_49 : Ref sig .tc := ⟨.hbm, 307, rfl⟩
abbrev main_v249 : Ref sig .tc := ⟨.hbm, 308, rfl⟩
abbrev main_v250 : Ref sig .tc := ⟨.hbm, 309, rfl⟩
abbrev main_c_50 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_cst_51 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_c_52 : Ref sig .tc := ⟨.hbm, 340, rfl⟩
abbrev main_v279 : Ref sig .tc := ⟨.hbm, 341, rfl⟩
abbrev main_v280 : Ref sig .tc := ⟨.hbm, 342, rfl⟩
abbrev main_c_53 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_c_54 : Ref sig .tc := ⟨.hbm, 347, rfl⟩
abbrev main_v284 : Ref sig .tc := ⟨.hbm, 348, rfl⟩
abbrev main_v285 : Ref sig .tc := ⟨.hbm, 349, rfl⟩
abbrev main_c_55 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_c_56 : Ref sig .tc := ⟨.hbm, 354, rfl⟩
abbrev main_v289 : Ref sig .tc := ⟨.hbm, 355, rfl⟩
abbrev main_v290 : Ref sig .tc := ⟨.hbm, 356, rfl⟩
abbrev main_c_57 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_c_58 : Ref sig .tc := ⟨.hbm, 384, rfl⟩
abbrev main_v317 : Ref sig .tc := ⟨.hbm, 385, rfl⟩
abbrev main_v318 : Ref sig .tc := ⟨.hbm, 386, rfl⟩
abbrev main_c_59 : Ref sig .tc := ⟨.hbm, 387, rfl⟩
abbrev main_v319 : Ref sig .tc := ⟨.hbm, 388, rfl⟩
abbrev main_v320 : Ref sig .tc := ⟨.hbm, 389, rfl⟩
abbrev main_v321 : Ref sig .tc := ⟨.hbm, 390, rfl⟩
abbrev main_c_60 : Ref sig .tc := ⟨.hbm, 391, rfl⟩
abbrev main_v322 : Ref sig .tc := ⟨.hbm, 392, rfl⟩
abbrev main_v323 : Ref sig .tc := ⟨.hbm, 393, rfl⟩
abbrev main_c_61 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_c_62 : Ref sig .tc := ⟨.hbm, 398, rfl⟩
abbrev main_v327 : Ref sig .tc := ⟨.hbm, 399, rfl⟩
abbrev main_v328 : Ref sig .tc := ⟨.hbm, 400, rfl⟩
abbrev main_c_63 : Ref sig .tc := ⟨.hbm, 401, rfl⟩
abbrev main_v329 : Ref sig .tc := ⟨.hbm, 402, rfl⟩
abbrev main_v330 : Ref sig .tc := ⟨.hbm, 403, rfl⟩
abbrev main_v331 : Ref sig .tc := ⟨.hbm, 404, rfl⟩
abbrev main_v332 : Ref sig .tc := ⟨.hbm, 405, rfl⟩
abbrev main_v333 : Ref sig .tc := ⟨.hbm, 406, rfl⟩
abbrev main_v334 : Ref sig .tc := ⟨.hbm, 407, rfl⟩
abbrev main_v335 : Ref sig .tc := ⟨.hbm, 408, rfl⟩
abbrev main_v336 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩

abbrev nD : Nat := 1
abbrev τ : Topo := Topo.v7x

variable {F : FTy → Type} [FloatOps F]

class Facts₀ : Prop where
  bcast_S_S2000000x3 : S_.BroadcastsInDim S2000000x3 (![] : Fin 0 → Fin S2000000x3.rank)
  bcast_S_S2000000x4 : S_.BroadcastsInDim S2000000x4 (![] : Fin 0 → Fin S2000000x4.rank)
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x3_d1 : Shape.Concatenates [S2000000x1, S2000000x1, S2000000x1] S2000000x3 1
  bcast_S2000000x1_S2000000x4_0_1 : S2000000x1.BroadcastsInDim S2000000x4 (![0, 1] : Fin 2 → Fin S2000000x4.rank)
  gather_S128x128x128x4_S2000000x3_S2000000x4_1_012_n_n_012_1_1114_wf : GatherDims.WF S128x128x128x4 S2000000x3 S2000000x4 [1] [0, 1, 2] [] [0, 1, 2] [] 1 ![1, 1, 1, 4]

variable [Facts₀]

def gather_S128x128x128x4_S2000000x3_S2000000x4_1_012_n_n_012_1_1114 : GatherDims S128x128x128x4 S2000000x3 S2000000x4 where
  offsetDims := [1]
  collapsedSliceDims := [0, 1, 2]
  operandBatchingDims := []
  startIndicesBatchingDims := []
  startIndexMap := [0, 1, 2]
  indexVectorDim := 1
  sliceSizes := ![1, 1, 1, 4]
  wf := gather_S128x128x128x4_S2000000x3_S2000000x4_1_012_n_n_012_1_1114_wf

class Facts : Prop extends Facts₀ where

variable [Facts]
-- ==== Proof.Spec.lean ====
/-
  Trilinear interpolation on a 128 × 128 × 128 lattice of 4-vectors, as one function of the
  query array `x : [2000000, 3]` and the lattice `g : [128, 128, 128, 4]`, on the extended reals.

  Per query row `n` and axis `a` the coordinate `v = x(n, a)` is scaled by 128 and clipped to
  `[0, 127]` (`pos`), its integer part is the lower corner (`lo`), the upper corner is the next
  lattice point, clamped to 127 (`hi`), and the fractional part (`frac`) is the upper corner's
  weight, `1 - frac` the lower corner's.  The value at `(n, c)` is the sum over the eight corners
  `(dx, dy, dz)` of the product of the three axis weights with the lattice entry at the corner,
  accumulated from zero with the x-corner outermost and the z-corner innermost.
  The corner's coordinate is read as a signed 32-bit integer, a negative one wrapped by 128, and
  clamped into `[0, 127]`: on clipped coordinates neither changes it.
-/
import Idealize.ShloMosaic.PureOps.Ideal
import Idealize.ShloMosaic.Lib.ValueIdx

noncomputable section

namespace Cert.Trilinear

open Idealize.ShloMosaic Idealize.ShloMosaic.ValueIdx

/-- The words of 128, 0 and 1 in binary32. -/
def w128 : EReal := Ideal.ofBits .f32 0x43000000#32
def w0 : EReal := Ideal.ofBits .f32 0x00000000#32
def w1 : EReal := Ideal.ofBits .f32 0x3F800000#32

/-- The coordinate scaled to lattice units and clipped to `[0, 127]`. -/
def pos (v : EReal) : EReal := min (((127#32 : BitVec 32).toInt : ℝ) : EReal) (max w0 (v * w128))

/-- The lower corner: the integer part of the clipped coordinate. -/
def lo (v : EReal) : BitVec 32 := Ideal.fptosi 32 (Ideal.liftRound Int.floor (pos v))

/-- The upper corner: the next lattice point, clamped to the last one. -/
def hi (v : EReal) : BitVec 32 := IntOp.minsi (IntOp.addi (lo v) 1#32) 127#32

/-- The fractional part: the upper corner's weight. -/
def frac (v : EReal) : EReal := pos v - (((lo v).toInt : ℝ) : EReal)

/-- Corner `d` along one axis (`false` the lower one): its lattice coordinate and its weight. -/
def cidx (d : Bool) (v : EReal) : BitVec 32 := match d with | false => lo v | true => hi v
def cwgt (d : Bool) (v : EReal) : EReal := match d with | false => w1 - frac v | true => frac v

/-- A negative index wraps once by the axis length. -/
def wrap (b : BitVec 32) : BitVec 32 := Scalar.select (IntOp.cmpi .slt b 0#32) (IntOp.addi b 128#32) b

/-- A start index read signed and clamped into `[0, 127]`. -/
def clampIdx (b : BitVec 32) : Fin 128 := ⟨min b.toInt.toNat 127, by omega⟩

/-- One corner's term at `(n, c)`: weight product times lattice entry. -/
def term (x : (⟨2, ![2000000, 3]⟩ : Shape).Idx → EReal) (g : (⟨4, ![128, 128, 128, 4]⟩ : Shape).Idx → EReal)
    (n : Fin 2000000) (c : Fin 4) (dx dy dz : Bool) : EReal :=
  ((cwgt dx (x (ix2 n 0)) * cwgt dy (x (ix2 n 1))) * cwgt dz (x (ix2 n 2))) *
    g (ix4 (clampIdx (wrap (cidx dx (x (ix2 n 0))))) (clampIdx (wrap (cidx dy (x (ix2 n 1)))))
      (clampIdx (wrap (cidx dz (x (ix2 n 2))))) c)

/-- The interpolated value at `(n, c)`: the eight corners accumulated from zero. -/
def valueAt (x : (⟨2, ![2000000, 3]⟩ : Shape).Idx → EReal) (g : (⟨4, ![128, 128, 128, 4]⟩ : Shape).Idx → EReal)
    (n : Fin 2000000) (c : Fin 4) : EReal :=
  ((((((((w0 + term x g n c false false false) + term x g n c false false true)
    + term x g n c false true false) + term x g n c false true true)
    + term x g n c true false false) + term x g n c true false true)
    + term x g n c true true false) + term x g n c true true true)

/-- The whole result array `[2000000, 4]`. -/
def value (x : (⟨2, ![2000000, 3]⟩ : Shape).Idx → EReal) (g : (⟨4, ![128, 128, 128, 4]⟩ : Shape).Idx → EReal) :
    (⟨2, ![2000000, 4]⟩ : Shape).Idx → EReal :=
  fun i => valueAt x g (i 0) (i 1)

theorem value_ix2 (x : (⟨2, ![2000000, 3]⟩ : Shape).Idx → EReal) (g : (⟨4, ![128, 128, 128, 4]⟩ : Shape).Idx → EReal)
    (n : Fin 2000000) (c : Fin 4) : value x g (ix2 n c) = valueAt x g n c := rfl

end Cert.Trilinear

end
-- ==== Proof.KerSpec.lean ====
/-
  The interpolation as the sum of products it is computed by when the gather is replaced by
  two-hot weights: along each axis a row of 128 weights that vanishes except at the lower corner
  (weight `1 - frac`) and at the upper corner (weight `frac`) — the two ADDED, so that when the
  corners coincide at the last lattice point the weights sum to one —, the y- and z-rows multiplied
  into a `128 × 128` table laid out as one row of 16384, contracted against the lattice, and the
  x-row contracted last.
-/
import proofs.«113492_j84670985273547_2_alg».proof.Proof.Spec

noncomputable section

namespace Cert.Trilinear

open Idealize.ShloMosaic Idealize.ShloMosaic.ValueIdx

/-- The row of 128 weights of one coordinate `v`, at lattice position `j`. -/
def twoHot (v : EReal) (j : Fin 128) : EReal :=
  Scalar.select (IntOp.cmpi .eq (BitVec.ofNat 32 j.val) (lo v)) (w1 - frac v) w0
    + Scalar.select (IntOp.cmpi .eq (BitVec.ofNat 32 j.val) (hi v)) (frac v) w0

/-- Position `k = y * 128 + z` of a flattened `128 × 128` table: its two coordinates. -/
def kHi (k : Fin 16384) : Fin 128 := ⟨k.val / 128, by have := k.isLt; omega⟩
def kLo (k : Fin 16384) : Fin 128 := ⟨k.val % 128, Nat.mod_lt _ (by decide)⟩

/-- Row `c * 128 + j` of the lattice re-laid as `[4 * 128, 128 * 128]`. -/
def rowOf (c : Fin 4) (j : Fin 128) : Fin 512 := ⟨c.val * 128 + j.val, by have := c.isLt; have := j.isLt; omega⟩

/-- One block of 256 query rows `x0 : [256, 3]` against the re-laid lattice `g2 : [512, 16384]`, at `(p, c)`. -/
def blockAt (x0 : (⟨2, ![256, 3]⟩ : Shape).Idx → EReal) (g2 : (⟨2, ![512, 16384]⟩ : Shape).Idx → EReal)
    (p : Fin 256) (c : Fin 4) : EReal :=
  ∑ j : Fin 128, (∑ k : Fin 16384, (twoHot (x0 (ix2 p 1)) (kHi k) * twoHot (x0 (ix2 p 2)) (kLo k)) * g2 (ix2 (rowOf c j) k))
    * twoHot (x0 (ix2 p 0)) j

/-- The same over the whole arrays: query row `n` of `x` against the lattice `g`, at `(n, c)`. -/
def sumAt (x : (⟨2, ![2000000, 3]⟩ : Shape).Idx → EReal) (g : (⟨4, ![128, 128, 128, 4]⟩ : Shape).Idx → EReal)
    (n : Fin 2000000) (c : Fin 4) : EReal :=
  ∑ j : Fin 128, (∑ k : Fin 16384, (twoHot (x (ix2 n 1)) (kHi k) * twoHot (x (ix2 n 2)) (kLo k)) * g (ix4 j (kHi k) (kLo k) c))
    * twoHot (x (ix2 n 0)) j

end Cert.Trilinear

end
-- ==== Proof.Relayout.lean ====
/-
  The three re-layings around the block computation, read at coordinates.

  * The lattice `g : [128, 128, 128, 4]` (axes x, y, z, c) is transposed to `[4, 128, 128, 128]` (c, x, y, z),
    its two leading axes merged to `[512, 128, 128]` (row `c * 128 + x`) and its two trailing axes merged to
    `[512, 16384]` (column `y * 128 + z`): entry `(c * 128 + x, k)` is `g (x, k / 128, k % 128, c)`.
  * The query array `[2000000, 3]` padded by 128 rows at the end: a row below 2000000 is the query row.
  * The result `[2000128, 4]` cut back to its first 2000000 rows.
-/
import proofs.«113492_j84670985273547_2_alg».proof.Proof.KerSpec
import Idealize.ShloMosaic.Lib.Pipeline.Value
import Idealize.ShloMosaic.Lib.KernelVsHost

noncomputable section

namespace Cert.Trilinear

open Idealize.ShloMosaic Idealize.ShloMosaic.ValueIdx

variable {α : Type}

/-- The lattice transposed and flattened twice, at row `c * 128 + x` and column `k`. -/
theorem relaid_apply (g : (⟨4, ![128, 128, 128, 4]⟩ : Shape).Idx → α)
    (h1 : (⟨4, ![128, 128, 128, 4]⟩ : Shape).Transposes [3, 0, 1, 2] ⟨4, ![4, 128, 128, 128]⟩)
    (h2 : (⟨4, ![4, 128, 128, 128]⟩ : Shape).ShapeCasts ⟨3, ![512, 128, 128]⟩)
    (h3 : (⟨3, ![512, 128, 128]⟩ : Shape).ShapeCasts ⟨2, ![512, 16384]⟩)
    (c : Fin 4) (j : Fin 128) (k : Fin 16384) :
    shapeCast ⟨2, ![512, 16384]⟩ (shapeCast ⟨3, ![512, 128, 128]⟩ (transpose ⟨4, ![4, 128, 128, 128]⟩ [3, 0, 1, 2] g h1) h2) h3
        (ix2 (rowOf c j) k)
      = g (ix4 j (kHi k) (kLo k) c) := by
  have hk := k.isLt
  have hc := c.isLt
  have hj := j.isLt
  rw [shapeCast_apply _ h3 (ix2 (rowOf c j) k) (ix3 (rowOf c j) (kHi k) (kLo k)) (by
      rw [Shape.rowMajor_val_three, Shape.rowMajor_val_two]
      show ((c.val * 128 + j.val) * 128 + k.val / 128) * 128 + k.val % 128 = (c.val * 128 + j.val) * 16384 + k.val
      omega),
    shapeCast_apply _ h2 (ix3 (rowOf c j) (kHi k) (kLo k)) (ix4 c j (kHi k) (kLo k)) (by
      rw [Shape.rowMajor_val_four, Shape.rowMajor_val_three]
      show ((c.val * 128 + j.val) * 128 + k.val / 128) * 128 + k.val % 128
        = ((c.val * 128 + j.val) * 128 + k.val / 128) * 128 + k.val % 128
      rfl)]
  exact transpose_apply [3, 0, 1, 2] g h1 (ix4 c j (kHi k) (kLo k)) (ix4 j (kHi k) (kLo k) c) (fun b => by
    match b with
    | ⟨0, _⟩ => rfl
    | ⟨1, _⟩ => rfl
    | ⟨2, _⟩ => rfl
    | ⟨3, _⟩ => rfl)

/-- A row of the padded query array below the padding is the query row. -/
theorem padded_apply (x : (⟨2, ![2000000, 3]⟩ : Shape).Idx → α) {u : Shape} (v : u.Idx → α)
    (h : (⟨2, ![2000000, 3]⟩ : Shape).Pads (![0, 0] : Fin 2 → Nat) ![128, 0] ![0, 0] ⟨2, ![2000128, 3]⟩) (hu : 0 < u.numel)
    (N : Fin 2000128) (n : Fin 2000000) (hN : N.val = n.val) (a : Fin 3) :
    pad ⟨2, ![2000128, 3]⟩ ![0, 0] ![128, 0] ![0, 0] x v h hu (ix2 N a) = x (ix2 n a) :=
  pad_apply_of_inside _ _ _ x v h hu (ix2 N a) (ix2 n a) (fun b => by
    match b with
    | ⟨0, _⟩ => show N.val = 0 + n.val * (0 + 1); omega
    | ⟨1, _⟩ => show a.val = 0 + a.val * (0 + 1); omega)

/-- The first 2000000 rows of a `[2000128, 4]` array. -/
theorem cut_apply (y : (⟨2, ![2000128, 4]⟩ : Shape).Idx → α)
    (h : (⟨2, ![2000128, 4]⟩ : Shape).Slices ![0, 0] ⟨2, ![2000000, 4]⟩) (n : Fin 2000000) (c : Fin 4) :
    extractStridedSlice ⟨2, ![2000000, 4]⟩ ![0, 0] y h (ix2 n c) = y (ix2 ⟨n.val, by have := n.isLt; omega⟩ c) :=
  extractStridedSlice_apply _ y h (ix2 n c) _ (fun b => by
    match b with
    | ⟨0, _⟩ => show n.val = 0 + n.val; omega
    | ⟨1, _⟩ => show c.val = 0 + c.val; omega)

end Cert.Trilinear

end
-- ==== Proof.KernelValue.lean ====
/-
  The result array of the tiled computation as one function of the two argument arrays.

  Grid point `t` of 7813 reads rows `256 t … 256 t + 255` of the padded query array and the whole re-laid lattice, and
  writes rows `256 t … 256 t + 255` of the `[2000128, 4]` result: the blocks tile the result, each entry `(N, c)` is the
  two-hot sum of products of query row `N`, and the first 2000000 rows — the rows of the unpadded query array — are
  what the program returns.
-/
import proofs.«113492_j84670985273547_2_alg».proof.Proof.Gen.KernelIdeal.Frame
import proofs.«113492_j84670985273547_2_alg».proof.Proof.Relayout
import Idealize.ShloMosaic.Lib.Pipeline.Value
import Idealize.ShloMosaic.Lib.StableHlo.Run

set_option maxRecDepth 16384

noncomputable section

namespace Cert.Trilinear.Ker

open Idealize.ShloMosaic Idealize.ShloMosaic.TcCoe Idealize.ShloMosaic.ValueIdx Idealize.SL.Sem
open Idealize.ShloMosaic.Pipeline (Dat)
open Cert.KernelIdeal Cert.KernelIdeal.Gen Cert.Trilinear

/-- Row `N` of the padded query array against the re-laid lattice, at output column `c`. -/
def rowAt (xp : S2000128x3.Idx → EReal) (g2 : S512x16384.Idx → EReal) (N : Fin 2000128) (c : Fin 4) : EReal :=
  ∑ j : Fin 128, (∑ k : Fin 16384, (twoHot (xp (ix2 N 1)) (kHi k) * twoHot (xp (ix2 N 2)) (kLo k)) * g2 (ix2 (rowOf c j) k))
    * twoHot (xp (ix2 N 0)) j

/-- The whole `[2000128, 4]` result. -/
def whole (xp : S2000128x3.Idx → EReal) (g2 : S512x16384.Idx → EReal) : S2000128x4.Idx → EReal :=
  fun i => rowAt xp g2 (i 0) (i 1)

/-- The index maps over the grid: the query and result windows move one block of rows per point, the lattice stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ) (ρ : Dev nD → PrngReg)
variable (hbody : ∀ (x0 : Vec Ideal S256x3 .f32) (x1 : Vec Ideal S512x16384 .bf16) (p : Fin 256) (c : Fin 4),
  out0_2 (F := Ideal) x0 x1 (ix2 p c) = blockAt x0 x1 p c)

include hbody in
/-- What point `t` writes back is block `t` of the whole result. -/
theorem flushed_eq (c : Dev nD) (t : Fin cfg0.N) :
    (dats m 0 c).flushed 2 t = ((cfg0.win 2).blk t).view.read (Elt Ideal) (whole (V m c main_v0) (V m c main_v4)) := by
  show (cfg0.win 2).cut (grid0.coords t) ((dats m 0 c).after 2 t) = _
  rw [after0_2]
  obtain ⟨e0, e1, e2, e3, e4, e5⟩ := idx_facts t
  have ht : t.val < 7813 := lt_of_lt_of_eq t.isLt N_0
  funext y
  obtain ⟨p, q, rfl⟩ : ∃ (p : Fin 256) (q : Fin 4), y = ix2 p q := ⟨y 0, y 1, eq_ix2 (n0 := 256) (n1 := 4) y⟩
  have hp := p.isLt
  have hq := q.isLt
  let N : Fin 2000128 := ⟨t.val * 256 + p.val, by omega⟩
  have hemb : ((cfg0.win 2).blk t).view.emb (ix2 p q) = ix2 N q := by
    funext a; apply Fin.ext
    match a with
    | ⟨0, _⟩ => show win0_2.index t (0 : Fin 2) * 256 + 1 * p.val = t.val * 256 + p.val; omega
    | ⟨1, _⟩ => show win0_2.index t (1 : Fin 2) * 4 + 1 * q.val = q.val; omega
  have hx : ∀ a : Fin 3, iblk m c 0 t (ix2 p a) = V m c main_v0 (ix2 N a) := fun a => by
    show V m c main_v0 (((cfg0.win 0).blk t).view.emb (ix2 p a)) = V m c main_v0 (ix2 N a)
    refine congrArg _ ?_
    funext b; apply Fin.ext
    match b with
    | ⟨0, _⟩ => show win0_0.index t (0 : Fin 2) * 256 + 1 * p.val = t.val * 256 + p.val; omega
    | ⟨1, _⟩ => show win0_0.index t (1 : Fin 2) * 3 + 1 * a.val = a.val; omega
  have hg : ∀ (r : Fin 512) (k : Fin 16384), iblk m c 1 t (ix2 r k) = V m c main_v4 (ix2 r k) := fun r k => by
    show V m c main_v4 (((cfg0.win 1).blk t).view.emb (ix2 r k)) = V m c main_v4 (ix2 r k)
    refine congrArg _ ?_
    funext b; apply Fin.ext
    match b with
    | ⟨0, _⟩ => show win0_1.index t (0 : Fin 2) * 512 + 1 * r.val = r.val; omega
    | ⟨1, _⟩ => show win0_1.index t (1 : Fin 2) * 16384 + 1 * k.val = k.val; omega
  refine (hbody (iblk m c 0 t) (iblk m c 1 t) p q).trans ?_
  show _ = whole (V m c main_v0) (V m c main_v4) (((cfg0.win 2).blk t).view.emb (ix2 p q))
  rw [hemb]
  show blockAt (iblk m c 0 t) (iblk m c 1 t) p q = rowAt (V m c main_v0) (V m c main_v4) N q
  unfold blockAt rowAt
  simp only [hx, hg]

/-- An index of the result lies in point `t`'s block iff each coordinate lies in the block's range on its axis. -/
theorem mem_blk (t : Fin cfg0.N) (i : S2000128x4.Idx) :
    i ∈ ((cfg0.win 2).blk t).view.set ↔ ∀ a : Fin 2, win0_2.index t a * S256x4.size a ≤ (i a).val
      ∧ (i a).val < win0_2.index t a * S256x4.size a + S256x4.size a := by
  show i ∈ ((View.whole main_v5).slice (win0_2.rect t)).set ↔ _
  rw [View.set_slice_whole, Rect.mem_set_unit]
  exact Iff.rfl

/-- Row `r` of the result is written by point `r / 256`: the blocks cover the result. -/
theorem cover (i : S2000128x4.Idx) :
    ∃ t : Fin cfg0.N, (cfg0.win 2).flush t = true ∧ i ∈ ((cfg0.win 2).blk t).view.set := by
  have hi0 : (i 0).val < 2000128 := (i 0).isLt
  have hi1 : (i 1).val < 4 := (i 1).isLt
  have hlt : (i 0).val / 256 < cfg0.N := lt_of_lt_of_eq (by omega : (i 0).val / 256 < 7813) N_0.symm
  obtain ⟨e0, e1, e2, e3, e4, e5⟩ := idx_facts ⟨(i 0).val / 256, hlt⟩
  have e4' : win0_2.index ⟨(i 0).val / 256, hlt⟩ (0 : Fin 2) = (i 0).val / 256 := e4
  refine ⟨⟨(i 0).val / 256, hlt⟩, flush0_2 _, ?_⟩
  rw [mem_blk]
  intro a
  match a with
  | ⟨0, _⟩ =>
    show win0_2.index ⟨(i 0).val / 256, hlt⟩ (0 : Fin 2) * 256 ≤ (i 0).val
      ∧ (i 0).val < win0_2.index ⟨(i 0).val / 256, hlt⟩ (0 : Fin 2) * 256 + 256
    omega
  | ⟨1, _⟩ =>
    show win0_2.index ⟨(i 0).val / 256, hlt⟩ (1 : Fin 2) * 4 ≤ (i 1).val
      ∧ (i 1).val < win0_2.index ⟨(i 0).val / 256, hlt⟩ (1 : Fin 2) * 4 + 4
    omega

include hbody in
/-- The result array after the run is the whole function of the two staged arrays. -/
theorem final (c : Dev nD) : (dats m 0 c).arrAt 2 cfg0.N = whole (V m c main_v0) (V m c main_v4) :=
  (dats m 0 c).arrAt_eq_of_cover 2 _ (fun t _ => flushed_eq m hbody c t) cover

end Cert.Trilinear.Ker

end
-- ==== Proof.KernelRun.lean ====
/-
  The kernel program's run read back: the returned array `[2000000, 4]` holds, at `(n, c)`, the two-hot sum of products
  of query row `n` against the lattice.

  The staged arrays are the query array padded by 128 zero rows and the lattice transposed and flattened; the returned
  array is the first 2000000 rows of the tiled result, and those rows read unpadded query rows only.
-/
import proofs.«113492_j84670985273547_2_alg».proof.Proof.KernelValue

set_option maxRecDepth 16384

noncomputable section

namespace Cert.Trilinear.Ker

open Idealize.ShloMosaic Idealize.ShloMosaic.TcCoe Idealize.ShloMosaic.ValueIdx Idealize.SL.Sem
open Idealize.ShloMosaic.Pipeline (Dat)
open Cert.KernelIdeal Cert.KernelIdeal.Gen Cert.Trilinear

variable (m : (ℓ : Loc nD τ sig) → Buf (Elt Ideal) ℓ) (ρ : Dev nD → PrngReg)
variable (hbody : ∀ (x0 : Vec Ideal S256x3 .f32) (x1 : Vec Ideal S512x16384 .bf16) (p : Fin 256) (c : Fin 4),
  out0_2 (F := Ideal) x0 x1 (ix2 p c) = blockAt x0 x1 p c)

/-- The staged query array: the argument padded at the end of its rows. -/
theorem staged_query (c : Dev nD) : (V m c main_v0 : S2000128x3.Idx → EReal)
    = pad S2000128x3 ![0, 0] ![128, 0] ![0, 0] (m ((c : Thread nD τ).loc main_arg0))
        (sitofp (F := Ideal) .f32 (constantI S_ 32 0#32)) pads_S2000000x3_S2000128x3_01280_000 h_S_ := by
  dsimp only [Gen.V, Gen.V0]
  simp only [Gen.hostOps0, Gen.hostOps0_1, Gen.hostOps0_2, List.flatten_cons, List.flatten_nil, List.append_nil,
    List.cons_append, List.nil_append]
  after_results
  rfl

/-- The staged lattice: the argument transposed to `(c, x, y, z)` and flattened to `[512, 16384]`. -/
theorem staged_lattice (c : Dev nD) : (V m c main_v4 : S512x16384.Idx → EReal)
    = (truncf (F := Ideal) .bf16 (shapeCast S512x16384 (shapeCast S512x128x128
        (transpose S4x128x128x128 [3, 0, 1, 2] (m ((c : Thread nD τ).loc main_arg1) : S128x128x128x4.Idx → EReal)
          transposes_S128x128x128x4_S4x128x128x128_3_0_1_2)
        shapeCasts_S4x128x128x128_S512x128x128) shapeCasts_S512x128x128_S512x16384 : FVec Ideal S512x16384 .f32)
        bitsLt_bf16_f32 : S512x16384.Idx → EReal) := by
  dsimp only [Gen.V, Gen.V0]
  simp only [Gen.hostOps0, Gen.hostOps0_1, Gen.hostOps0_2, List.flatten_cons, List.flatten_nil, List.append_nil,
    List.cons_append, List.nil_append]
  after_results
  rfl

/-- A staged query row below the padding is the argument's row. -/
theorem staged_query_apply (c : Dev nD) (N : Fin 2000128) (n : Fin 2000000) (hN : N.val = n.val) (a : Fin 3) :
    V m c main_v0 (ix2 N a) = m ((c : Thread nD τ).loc main_arg0) (ix2 n a) := by
  rw [staged_query]
  exact padded_apply _ _ _ _ N n hN a

/-- The staged lattice at row `q * 128 + j`, column `k`, is the lattice at `(j, k / 128, k % 128, q)`. -/
theorem staged_lattice_apply (c : Dev nD) (q : Fin 4) (j : Fin 128) (k : Fin 16384) :
    V m c main_v4 (ix2 (rowOf q j) k) = m ((c : Thread nD τ).loc main_arg1) (ix4 j (kHi k) (kLo k) q) := by
  rw [staged_lattice]
  exact relaid_apply _ _ _ _ q j k

include hbody in
/-- The returned array is the first 2000000 rows of the tiled result. -/
theorem returned (c : Dev nD) : Pipeline.afterTail₀ cfgs (dats m) 0 (V0 m) [hostOps1] c main_v6
    = extractStridedSlice S2000000x4 ![0, 0] (whole (V m c main_v0) (V m c main_v4)) slices_S2000128x4_S2000000x4_0_0 := by
  unfold Pipeline.afterTail₀
  show StableHlo.after hostOps1 _ (Proc.devRef .tc main_v6) = _
  after_results
  rw [(Pipeline.withArrays_arr spec0 launch0.win.arr_inj c _ _ 2).trans (final m hbody c)]

include hbody in
/-- The returned array at `(n, q)`. -/
theorem returned_apply (c : Dev nD) (n : Fin 2000000) (q : Fin 4) :
    Pipeline.afterTail₀ cfgs (dats m) 0 (V0 m) [hostOps1] c main_v6 (ix2 n q)
      = sumAt (m ((c : Thread nD τ).loc main_arg0)) (m ((c : Thread nD τ).loc main_arg1)) n q := by
  rw [returned m hbody c, cut_apply]
  show rowAt (V m c main_v0) (V m c main_v4) ⟨n.val, _⟩ q = _
  unfold rowAt sumAt
  simp only [staged_query_apply m c ⟨n.val, by have := n.isLt; omega⟩ n rfl, staged_lattice_apply m c]

end Cert.Trilinear.Ker

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.Finite.lean ====
/-
  Under the precondition every entry of both argument arrays is a real number: the precondition is the conjunction,
  over the two arrays, of "every entry's absolute value is below +∞", each a reduction by `and` of the entrywise test.
-/
import proofs.«113492_j84670985273547_2_alg».proof.Pre_finite_inputs
import proofs.«113492_j84670985273547_2_alg».proof.Proof.LibFiniteTest
import Idealize.ShloMosaic.Lib.ReduceAll
import Idealize.ShloMosaic.Lib.Affine

noncomputable section

namespace Cert.Trilinear

open Idealize.ShloMosaic Idealize.ShloMosaic.ValueIdx Cert.Pre_finite_inputs

/-- Both arrays hold real numbers wherever the precondition's function is all ones. -/
theorem real_of_pre [Cert.Pre_finite_inputs.Facts] (x : FVec Ideal S2000000x3 .f32) (g : FVec Ideal S128x128x128x4 .f32)
    (h : Cert.Pre_finite_inputs.fn (F := Ideal) x g = fun _ => 1#1) :
    (∀ i, ∃ r : ℝ, x i = (r : EReal)) ∧ (∀ i, ∃ r : ℝ, g i = (r : EReal)) := by
  have h0 := congrFun h ix0
  dsimp only [Cert.Pre_finite_inputs.fn] at h0
  obtain ⟨hx, hg⟩ := IntOp.andi_eq_one.mp h0
  haveI : Subsingleton S_.Idx := FiniteTest.subsingleton_scalarIdx
  exact ⟨fun i => FiniteTest.real_of_test x _ i (Host.reduce_andi_all _ _ _ _ ix0 hx i),
    fun i => FiniteTest.real_of_test g _ i (Host.reduce_andi_all _ _ _ _ ix0 hg i)⟩

end Cert.Trilinear

end
-- ==== Proof.KernelClaim.lean ====
/-
  The kernel program's run with its result stated as the interpolation: under the precondition both argument arrays
  hold real numbers, and on real data the two-hot sum of products at `(n, c)` is the eight-corner sum.
-/
import proofs.«113492_j84670985273547_2_alg».proof.Defs
import proofs.«113492_j84670985273547_2_alg».proof.Proof.KernelRun
import proofs.«113492_j84670985273547_2_alg».proof.Proof.Finite

set_option maxRecDepth 16384

noncomputable section

namespace Cert.Trilinear.Ker

open Idealize.ShloMosaic Idealize.ShloMosaic.TcCoe Idealize.ShloMosaic.ValueIdx Idealize.SL.Sem
open Cert.KernelIdeal Cert.KernelIdeal.Gen Cert.Trilinear

/-- Every weakly fair execution of the kernel program from a memory satisfying the precondition ends with the returned
    array at the interpolation of the two argument arrays, and the argument arrays unchanged. -/
theorem run_value [Cert.Pre_finite_inputs.Facts]
    (hbody : ∀ (x0 : Vec Ideal S256x3 .f32) (x1 : Vec Ideal S512x16384 .bf16) (p : Fin 256) (c : Fin 4),
      out0_2 (F := Ideal) x0 x1 (ix2 p c) = blockAt x0 x1 p c)
    (halg : ∀ (x : (⟨2, ![2000000, 3]⟩ : Shape).Idx → EReal) (g : (⟨4, ![128, 128, 128, 4]⟩ : Shape).Idx → EReal),
      (∀ i, ∃ r : ℝ, x i = (r : EReal)) → (∀ i, ∃ r : ℝ, g i = (r : EReal)) →
      ∀ (n : Fin 2000000) (c : Fin 4), sumAt x g n c = valueAt x g n c)
    (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v6)
        = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v6 (Pipeline.mem_restRefs_of main_v6 (by decide) (by decide))).trans ?_
    obtain ⟨hx, hg⟩ := real_of_pre _ _ (hpre c)
    funext i
    obtain ⟨n, q, rfl⟩ : ∃ (n : Fin 2000000) (q : Fin 4), i = ix2 n q := ⟨i 0, i 1, eq_ix2 (n0 := 2000000) (n1 := 4) i⟩
    rw [returned_apply m hbody c n q]
    exact halg _ _ hx hg n q
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.Trilinear.Ker

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.BodyRows.lean ====
/-
  The per-axis quantities of the interpolation body, read at an index.

  From the block of query rows `x0 : [256, 3]` the body computes, entry by entry, the clipped lattice coordinate
  (`pos`), its integer part (`lo`), the next lattice point clamped to the last (`hi`) and the fractional part
  (`frac`). Along each axis `a` it then lays out a row of 128 weights per query row: lane `j` compared with the
  lower corner selects `1 - frac`, compared with the upper corner selects `frac`, and the two selections are added.
  Read at `(p, j)` that row is `twoHot (x0 (p, a)) j`.
-/
import proofs.«113492_j84670985273547_2_alg».proof.Proof.Gen.KernelIdeal.Skeleton
import proofs.«113492_j84670985273547_2_alg».proof.Proof.KerSpec
import proofs.«113492_j84670985273547_2_alg».proof.Proof.LibColumn
import Idealize.ShloMosaic.Lib.ValueIdx
import Idealize.ShloMosaic.Lib.ValueLayout
import Idealize.ShloMosaic.Lib.Pipeline.Value

noncomputable section

namespace Cert.Trilinear.Body

open Idealize.ShloMosaic Idealize.ShloMosaic.ValueIdx Cert.KernelIdeal Cert.KernelIdeal.Gen

/-! ## The coordinate, its corners and its fraction, entry by entry -/

/-- The binary32 word `0x42FE0000` denotes 127, the last lattice coordinate. -/
theorem ofBits_127 : Ideal.ofBits .f32 0x42FE0000#32 = (((127#32 : BitVec 32).toInt : ℝ) : EReal) := by
  simp [Ideal.ofBits, Ideal.ieee, -EReal.coe_mul]; norm_num

/-- The clipped coordinate: scale by 128, then clip to `[0, 127]`. -/
theorem pay2_apply (x0 : Vec Ideal S256x3 .f32) (i : S256x3.Idx) :
    k0_pay2 (F := Ideal) x0 i = Cert.Trilinear.pos (x0 i) := by
  unfold k0_pay2 Cert.Trilinear.pos
  rw [shapeCast_self]
  show min (Ideal.ofBits .f32 0x42FE0000#32) (max (Ideal.ofBits .f32 0x00000000#32) (x0 i * Ideal.ofBits .f32 0x43000000#32)) = _
  rw [ofBits_127]
  rfl

/-- The lower corner: the floor of the clipped coordinate as a 32-bit integer. -/
theorem pay3_apply (x0 : Vec Ideal S256x3 .f32) (i : S256x3.Idx) :
    k0_pay3 (F := Ideal) x0 i = Cert.Trilinear.lo (x0 i) := by
  unfold k0_pay3 Cert.Trilinear.lo
  rw [← pay2_apply]
  rfl

/-- The upper corner: the lower corner plus one, clamped to 127. -/
theorem pay4_apply (x0 : Vec Ideal S256x3 .f32) (i : S256x3.Idx) :
    k0_pay4 (F := Ideal) x0 i = Cert.Trilinear.hi (x0 i) := by
  unfold k0_pay4 Cert.Trilinear.hi
  rw [← pay3_apply]
  rfl

/-- The fraction: the clipped coordinate minus its integer part. -/
theorem pay5_apply (x0 : Vec Ideal S256x3 .f32) (i : S256x3.Idx) :
    k0_pay5 (F := Ideal) x0 i = Cert.Trilinear.frac (x0 i) := by
  unfold k0_pay5 Cert.Trilinear.frac
  rw [← pay3_apply, ← pay2_apply]
  rfl

/-! ## A weight row -/

/-- An integer comparison of two arrays is the comparison of their entries. -/
theorem cmpi_apply {s : Shape} {w : ℕ} (pr : CmpIPredicate) (a b : IVec s w) (i : s.Idx) :
    cmpi pr a b i = IntOp.cmpi pr (a i) (b i) := rfl

/-- The lane index along axis 1 of a `[256, 128]` array, at `(p, j)`, is `j`. -/
theorem lane_apply (p : Fin 256) (j : Fin 128) :
    iota .tc S256x128 32 [1] iota_S256x128_d1_w32 (ix2 p j) = BitVec.ofNat 32 j.val :=
  iota_single_apply .tc S256x128 32 1 iota_S256x128_d1_w32 (ix2 p j)

/-- The row of 128 weights along the axis stored in column `o`, as the body builds it from the array `I3` of lower
    corners, the array `I4` of upper corners and the array `Fr` of fractions: each column is cut out as `[256, 1]` and
    broadcast along the 128 lanes, the lane index is compared with each corner, and the two selected weights are added. -/
def hotRow (I3 I4 : IVec S256x3 32) (Fr : FVec Ideal S256x3 .f32) (o : ℕ) (hs : S256x3.Slices ![0, o] S256x1) :
    FVec Ideal S256x128 .f32 :=
  addf
    (select (cmpi .eq (iota .tc S256x128 32 [1] iota_S256x128_d1_w32) (broadcastTo S256x128 (extractStridedSlice S256x1 ![0, o] I3 hs) broadcasts_S256x1_S256x128))
      (broadcastTo S256x128 (shapeCast S256x1 (subf (broadcast S256x1 (Scalar.ofBits .f32 0x3F800000#32)) (extractStridedSlice S256x1 ![0, o] Fr hs)) shapeCasts_S256x1_S256x1) broadcasts_S256x1_S256x128)
      (broadcast S256x128 (Scalar.ofBits .f32 0x00000000#32)))
    (select (cmpi .eq (iota .tc S256x128 32 [1] iota_S256x128_d1_w32) (broadcastTo S256x128 (extractStridedSlice S256x1 ![0, o] I4 hs) broadcasts_S256x1_S256x128))
      (broadcastTo S256x128 (shapeCast S256x1 (extractStridedSlice S256x1 ![0, o] Fr hs) shapeCasts_S256x1_S256x1) broadcasts_S256x1_S256x128)
      (broadcast S256x128 (Scalar.ofBits .f32 0x00000000#32)))

/-- The row at `(p, j)`: the two selections on lane `j`, from the entries `(p, c)` of the three arrays, `c` the column. -/
theorem hotRow_apply (I3 I4 : IVec S256x3 32) (Fr : FVec Ideal S256x3 .f32) (o : ℕ) (c : Fin 3) (hc : c.val = o)
    (hs : S256x3.Slices ![0, o] S256x1) (p : Fin 256) (j : Fin 128) :
    hotRow I3 I4 Fr o hs (ix2 p j)
      = Scalar.select (IntOp.cmpi .eq (BitVec.ofNat 32 j.val) (I3 (ix2 p c))) (w1 - Fr (ix2 p c)) w0
        + Scalar.select (IntOp.cmpi .eq (BitVec.ofNat 32 j.val) (I4 (ix2 p c))) (Fr (ix2 p c)) w0 := by
  have hsl : ∀ {α : Type} (X : S256x3.Idx → α), extractStridedSlice S256x1 ![0, o] X hs (ix2 p (0 : Fin 1)) = X (ix2 p c) :=
    fun X => slice2_axis1_apply o X hs p (0 : Fin 1) c hc
  unfold hotRow
  simp only [addf_apply, select_apply, cmpi_apply, subf_apply, broadcast_apply, shapeCast_self,
    Column.broadcastTo_a1_ab_apply, hsl]
  rw [lane_apply]
  rfl

/-- The body's row along the axis in column `c`, from the block's own corners and fractions, at `(p, j)`. -/
theorem row_apply (x0 : Vec Ideal S256x3 .f32) (o : ℕ) (c : Fin 3) (hc : c.val = o)
    (hs : S256x3.Slices ![0, o] S256x1) (p : Fin 256) (j : Fin 128) :
    hotRow (k0_pay3 (F := Ideal) x0) (k0_pay4 (F := Ideal) x0) (k0_pay5 (F := Ideal) x0) o hs (ix2 p j)
      = Cert.Trilinear.twoHot (x0 (ix2 p c)) j := by
  rw [hotRow_apply _ _ _ o c hc hs p j, pay3_apply, pay4_apply, pay5_apply]
  rfl

end Cert.Trilinear.Body

end
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.LibFlatten.lean ====
/-
  Shape casts that merge or split adjacent axes of a rank-3 array, read at indices given by coordinates. Row-major order
  puts entry `(p, n, f)` of an `[a, b, c]` array at position `(p·b + n)·c + f`, so
  • cast to `[a·b, c]` (leading axes merged) it is entry `(p·b + n, f)`, and an `[a·b, c]` matrix cast to `[a, b, c]` reads at
    `(p, n, f)` its entry `(p·b + n, f)`;
  • cast to `[a, b·c]` (trailing axes merged) it is entry `(p, n·c + f)`, and back.
  The merged extent is a literal in a printed program (`8192`, not `128·64`), so it is a separate variable `m` here and the
  merged coordinate's bound is an argument.
-/
import Idealize.ShloMosaic.Lib.Pipeline.Value
import Idealize.ShloMosaic.Lib.ValueIdx

namespace Idealize.ShloMosaic.Flatten

open Idealize.ShloMosaic Idealize.ShloMosaic.ValueIdx

variable {α : Type} {a b c m : ℕ}

/-- `[a, b, c]` cast to `[m, c]`, `m = a·b`: row `p·b + n` is the slab entry `(p, n)`. -/
theorem merge01_apply (x : (⟨3, ![a, b, c]⟩ : Shape).Idx → α) (h : (⟨3, ![a, b, c]⟩ : Shape).ShapeCasts ⟨2, ![m, c]⟩)
    (p : Fin a) (n : Fin b) (f : Fin c) (hr : p.val * b + n.val < m) :
    shapeCast ⟨2, ![m, c]⟩ x h (ix2 ⟨p.val * b + n.val, hr⟩ f) = x (ix3 p n f) :=
  shapeCast_apply x h _ _ (by rw [Shape.rowMajor_val_three, Shape.rowMajor_val_two]; rfl)

/-- `[m, c]` cast to `[a, b, c]`, `m = a·b`: entry `(p, n, f)` is the matrix entry `(p·b + n, f)`. -/
theorem split0_apply (x : (⟨2, ![m, c]⟩ : Shape).Idx → α) (h : (⟨2, ![m, c]⟩ : Shape).ShapeCasts ⟨3, ![a, b, c]⟩)
    (p : Fin a) (n : Fin b) (f : Fin c) (hr : p.val * b + n.val < m) :
    shapeCast ⟨3, ![a, b, c]⟩ x h (ix3 p n f) = x (ix2 ⟨p.val * b + n.val, hr⟩ f) :=
  shapeCast_apply x h _ _ (by rw [Shape.rowMajor_val_three, Shape.rowMajor_val_two]; rfl)

/-- `[a, b, c]` cast to `[a, m]`, `m = b·c`: column `n·c + f` of row `p` is the entry `(p, n, f)`. -/
theorem merge12_apply (x : (⟨3, ![a, b, c]⟩ : Shape).Idx → α) (h : (⟨3, ![a, b, c]⟩ : Shape).ShapeCasts ⟨2, ![a, m]⟩)
    (p : Fin a) (n : Fin b) (f : Fin c) (hr : n.val * c + f.val < m) (hm : m = b * c) :
    shapeCast ⟨2, ![a, m]⟩ x h (ix2 p ⟨n.val * c + f.val, hr⟩) = x (ix3 p n f) :=
  shapeCast_apply x h _ _ (by
    rw [Shape.rowMajor_val_three, Shape.rowMajor_val_two]
    show (p.val * b + n.val) * c + f.val = p.val * m + (n.val * c + f.val)
    rw [hm, Nat.add_mul, Nat.mul_assoc, Nat.add_assoc])

/-- `[a, m]` cast to `[a, b, c]`, `m = b·c`: entry `(p, n, f)` is the matrix entry `(p, n·c + f)`. -/
theorem split1_apply (x : (⟨2, ![a, m]⟩ : Shape).Idx → α) (h : (⟨2, ![a, m]⟩ : Shape).ShapeCasts ⟨3, ![a, b, c]⟩)
    (p : Fin a) (n : Fin b) (f : Fin c) (hr : n.val * c + f.val < m) (hm : m = b * c) :
    shapeCast ⟨3, ![a, b, c]⟩ x h (ix3 p n f) = x (ix2 p ⟨n.val * c + f.val, hr⟩) :=
  shapeCast_apply x h _ _ (by
    rw [Shape.rowMajor_val_three, Shape.rowMajor_val_two]
    show p.val * m + (n.val * c + f.val) = (p.val * b + n.val) * c + f.val
    rw [hm, Nat.add_mul, Nat.mul_assoc, Nat.add_assoc])

end Idealize.ShloMosaic.Flatten
-- ==== Proof.LibTrailingUnit.lean ====
/-
  A trailing axis of extent 1 added by a shape cast.

  A sum along the last axis that keeps that axis with extent 1 (a keepdims reduction) is printed as the reduction followed
  by a cast from [a, b] to [a, b, 1], or from [a, b, c] to [a, b, c, 1]. Multiplying a row-major position by 1 and adding 0
  leaves it unchanged, so the cast reads, at (i, j, 0) or (i, j, k, 0), the operand at (i, j) or (i, j, k). Any extents.
-/
import Idealize.ShloMosaic.Lib.ValueIdx
import Idealize.ShloMosaic.Lib.Pipeline.Value

namespace Idealize.ShloMosaic.TrailingUnit

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, c] array cast to [a, b, c, 1] reads, at (i, j, k, u), the operand at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

end Idealize.ShloMosaic.TrailingUnit
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«113492_j84670985273547_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibLastAxis.lean ====
/-
  A softmax along the LAST axis of a rank-3 array `[B, L, N]`, operation by operation, read at indices given by coordinates —
  for a kernel body (`vector.multi_reduction`, `vector.broadcast`) and for the host (`stablehlo.reduce`,
  `stablehlo.broadcast_in_dim`):
  • the maximum / the sum over the last axis at `(b, r)`: the fold of `max` from the accumulator, resp. the sum, over
    `k : Fin N` of the entries `(b, r, k)` (the host's sum adds its initial value in front);
  • the reduced `[B, L]` array kept as `[B, L, 1]` and broadcast back to `[B, L, N]` reads, at `(b, r, k)`, the entry
    `(b, r)` (kernel: a broadcast along the unit axis; host: two `broadcast_in_dim`s);
  • a rank-0 value broadcast to any shape is that value everywhere; a `[c]` vector lifted to `[1, 1, c]` and broadcast to
    `[a, b, c]` (a bias row added to every row) reads, at `(i, j, k)`, the entry `k`.
-/
import proofs.«113492_j84670985273547_2_alg».proof.Proof.LibRowReduce

namespace Idealize.ShloMosaic.LastAxis

open Idealize.ShloMosaic Idealize.ShloMosaic.ValueIdx

variable {φ : FTy} {α : Type} {B L N : ℕ}

/-- The maximum over the last axis at `(b, r)`, as a kernel's `multi_reduction <maximumf>` computes it. -/
theorem multiReduction_maximumf_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.maximumf.neutral φ hφ) (b : Fin B) (r : Fin L) :
    multiReduction .maximumf [2] ⟨2, ![B, L]⟩ src acc h hφ hacc (ix2 b r)
      = (Finset.univ : Finset (Fin N)).fold max (Ideal.ofBits φ acc) (fun k => src (ix3 b r k)) := by
  rw [Ideal.multiReduction_maximumf_single]
  exact congrArg (fun f => Finset.fold max (Ideal.ofBits φ acc) f (Finset.univ : Finset (Fin N)))
    (funext fun k => congrArg src (RowReduce.lift_last3 h b r k))

/-- The sum over the last axis at `(b, r)`, as a kernel's `multi_reduction <add>` computes it. -/
theorem multiReduction_add_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.add.neutral φ hφ) (b : Fin B) (r : Fin L) :
    multiReduction .add [2] ⟨2, ![B, L]⟩ src acc h hφ hacc (ix2 b r) = ∑ k : Fin N, src (ix3 b r k) := by
  rw [Ideal.multiReduction_add_single]
  exact Finset.sum_congr rfl fun k _ => congrArg src (RowReduce.lift_last3 h b r k)

/-- The host's float sum over the last axis at `(b, r)`: the initial value plus the sum. -/
theorem hostReduceAdd_last3 {u : Shape} (x : FVec Ideal ⟨3, ![B, L, N]⟩ φ) (init : u.Idx → Ideal φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduceAdd x init h' hu (ix2 b r) = init (Shape.Idx.first hu) + ∑ k : Fin N, x (ix3 b r k) := by
  show Ideal.hostReduceAdd h' x (init (Shape.Idx.first hu)) (ix2 b r) = _
  rw [Ideal.hostReduceAdd_single h' h]
  exact congrArg (init (Shape.Idx.first hu) + ·) (Finset.sum_congr rfl fun k _ => congrArg x (RowReduce.lift_last3 h b r k))

/-- A `[B, L, 1]` array broadcast along its unit axis to `[B, L, N]` (a kernel's `vector.broadcast`) reads, at `(b, r, k)`,
    the entry `(b, r, 0)`. -/
theorem broadcastTo_ab1_abc_apply (v : (⟨3, ![B, L, 1]⟩ : Shape).Idx → α) (h : (⟨3, ![B, L, 1]⟩ : Shape).Broadcasts ⟨3, ![B, L, N]⟩)
    (b : Fin B) (r : Fin L) (k : Fin N) : broadcastTo ⟨3, ![B, L, N]⟩ v h (ix3 b r k) = v (ix3 b r (0 : Fin 1)) := by
  refine broadcastTo_apply v h (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- The host's lift of a `[B, L]` array to `[B, L, 1]` (`broadcast_in_dim`, dims `[0, 1]`) reads, at `(b, r, u)`, the
    entry `(b, r)`. -/
theorem broadcastInDim_ab_ab1_apply (x : (⟨2, ![B, L]⟩ : Shape).Idx → α)
    (h : (⟨2, ![B, L]⟩ : Shape).BroadcastsInDim ⟨3, ![B, L, 1]⟩ (![0, 1] : Fin 2 → Fin 3)) (b : Fin B) (r : Fin L) (u : Fin 1) :
    broadcastInDim ⟨3, ![B, L, 1]⟩ ![0, 1] h x (ix3 b r u) = x (ix2 b r) := by
  refine broadcastInDim_apply _ h x (ix3 b r u) (ix2 b r) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl

/-- The host's broadcast of `[B, L, 1]` to `[B, L, N]` (`broadcast_in_dim`, dims `[0, 1, 2]`) reads, at `(b, r, k)`, the
    entry `(b, r, 0)`. -/
theorem broadcastInDim_ab1_abc_apply (x : (⟨3, ![B, L, 1]⟩ : Shape).Idx → α)
    (h : (⟨3, ![B, L, 1]⟩ : Shape).BroadcastsInDim ⟨3, ![B, L, N]⟩ (![0, 1, 2] : Fin 3 → Fin 3)) (b : Fin B) (r : Fin L) (k : Fin N) :
    broadcastInDim ⟨3, ![B, L, N]⟩ ![0, 1, 2] h x (ix3 b r k) = x (ix3 b r (0 : Fin 1)) := by
  refine broadcastInDim_apply _ h x (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- A rank-0 value broadcast to any shape (`broadcast_in_dim`, no dims) is that value at every index. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A `[c]` vector lifted to `[1, 1, c]` (`broadcast_in_dim`, dims `[2]`) reads, at `(u, w, k)`, the entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u w : Fin 1) (k : Fin c) :
    broadcastInDim ⟨3, ![1, 1, c]⟩ ![2] h x (ix3 u w k) = x (ix1 k) := by
  refine broadcastInDim_apply _ h x (ix3 u w k) (ix1 k) fun ax => ?_
  match ax with
  | ⟨0, _⟩ =>
    show k.val = if c = 1 then 0 else k.val
    split
    · have := k.isLt; omega
    · rfl

/-- A `[1, 1, c]` row broadcast to `[a, b, c]` (`broadcast_in_dim`, dims `[0, 1, 2]`) reads, at `(i, j, k)`, the entry
    `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (i : Fin a) (j : Fin b) (k : Fin c) :
    broadcastInDim ⟨3, ![a, b, c]⟩ ![0, 1, 2] h x (ix3 i j k) = x (ix3 (0 : Fin 1) (0 : Fin 1) k) := by
  refine broadcastInDim_apply _ h x (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.LastAxis
-- ==== Proof.LibMiddleUnit.lean ====
/-
  A middle axis of extent 1, read at indices given by coordinates: a matrix `[a, c]` cast to `[a, 1, c]` reads, at
  `(i, u, k)`, the operand at `(i, k)`; an `[a, 1, c]` array broadcast along its unit axis to `[a, b, c]` reads, at
  `(i, j, k)`, the operand at `(i, 0, k)`. Row-major position `(i·1 + u)·c + k` with `u = 0` is `i·c + k`. Any extents,
  any element type.
-/
import Idealize.ShloMosaic.Lib.Pipeline.Value
import Idealize.ShloMosaic.Lib.ValueIdx

namespace Idealize.ShloMosaic.MiddleUnit

open Idealize.ShloMosaic Idealize.ShloMosaic.ValueIdx

variable {α : Type}

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast along its unit axis to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Idealize.ShloMosaic.MiddleUnit
-- ==== Proof.BodyCore.lean ====
/-
  The contraction at the heart of the interpolation body, over three arbitrary weight rows, read at an index.

  Given rows `Wx`, `Wy`, `Wz : [256, 128]` and the re-laid lattice `g : [512, 16384]`, the body
  • multiplies `Wy` (as `[256, 128, 1]`) with `Wz` (as `[256, 1, 128]`), both broadcast to `[256, 128, 128]`, and
    flattens the product to `[256, 16384]`: position `k` of row `p` holds `Wy (p, k / 128) · Wz (p, k % 128)`;
  • contracts that table with `g` along the 16384 positions into a zero accumulator: `[256, 512]`;
  • regroups the 512 columns as 4 channels of 128 lanes (column `c · 128 + j` is channel `c`, lane `j`), multiplies by
    `Wx` broadcast over the channels, and sums over the lanes.
  A change of float format is the identity on the extended reals.
-/
import proofs.«113492_j84670985273547_2_alg».proof.Proof.Gen.KernelIdeal.Skeleton
import proofs.«113492_j84670985273547_2_alg».proof.Proof.KerSpec
import proofs.«113492_j84670985273547_2_alg».proof.Proof.LibDotTransposedRhs
import proofs.«113492_j84670985273547_2_alg».proof.Proof.LibFlatten
import proofs.«113492_j84670985273547_2_alg».proof.Proof.LibTrailingUnit
import proofs.«113492_j84670985273547_2_alg».proof.Proof.LibLastAxis
import proofs.«113492_j84670985273547_2_alg».proof.Proof.LibMiddleUnit
import Idealize.ShloMosaic.Lib.ValueIdx
import Idealize.ShloMosaic.Lib.ValueLayout
import Idealize.ShloMosaic.Lib.Pipeline.Value

noncomputable section

namespace Cert.Trilinear.Body

open Idealize.ShloMosaic Idealize.ShloMosaic.ValueIdx Cert.KernelIdeal Cert.KernelIdeal.Gen

/-- The y-row times the z-row as a table of 128 × 128 products per query row, laid out as one row of 16384. -/
def table (Wy Wz : FVec Ideal S256x128 .f32) : FVec Ideal S256x16384 .bf16 :=
  shapeCast S256x16384
    (mulf (broadcastTo S256x128x128 (shapeCast S256x128x1 (truncf .bf16 Wy bitsLt_bf16_f32) shapeCasts_S256x128_S256x128x1) broadcasts_S256x128x1_S256x128x128)
      (broadcastTo S256x128x128 (shapeCast S256x1x128 (truncf .bf16 Wz bitsLt_bf16_f32) shapeCasts_S256x128_S256x1x128) broadcasts_S256x1x128_S256x128x128))
    shapeCasts_S256x128x128_S256x16384

theorem table_apply (Wy Wz : FVec Ideal S256x128 .f32) (p : Fin 256) (k : Fin 16384) :
    table Wy Wz (ix2 p k) = Wy (ix2 p (kHi k)) * Wz (ix2 p (kLo k)) := by
  unfold table
  rw [shapeCast_apply _ shapeCasts_S256x128x128_S256x16384 (ix2 p k) (ix3 p (kHi k) (kLo k))
    (by rw [Shape.rowMajor_val_three, Shape.rowMajor_val_two]
        show (p.val * 128 + k.val / 128) * 128 + k.val % 128 = p.val * 16384 + k.val
        omega)]
  rw [mulf_apply, LastAxis.broadcastTo_ab1_abc_apply, TrailingUnit.shapeCast_ab_ab1_apply,
    MiddleUnit.broadcastTo_a1c_abc_apply, MiddleUnit.shapeCast_ac_a1c_apply]
  rfl

/-- The table contracted against the lattice rows: the product with the transposed lattice into a zero accumulator. -/
def contracted (Wy Wz : FVec Ideal S256x128 .f32) (g : FVec Ideal S512x16384 .bf16) : FVec Ideal S256x512 .f32 :=
  matmul dot_S256x16384_S512x16384_S256x512_1_1_0_0_n_n none (table Wy Wz)
    (shapeCast S512x16384 g shapeCasts_S512x16384_S512x16384) (constant S256x512 .f32 0x00000000#32)

theorem contracted_apply (Wy Wz : FVec Ideal S256x128 .f32) (g : FVec Ideal S512x16384 .bf16) (p : Fin 256) (m : Fin 512) :
    contracted Wy Wz g (ix2 p m) = ∑ k : Fin 16384, (Wy (ix2 p (kHi k)) * Wz (ix2 p (kLo k))) * g (ix2 m k) := by
  unfold contracted
  rw [shapeCast_self]
  refine (DotTransposedRhs.matmul_apply_ix2 (M := 256) (K := 16384) (N := 512) none (table Wy Wz) g p m).trans ?_
  exact Finset.sum_congr rfl fun k _ => by rw [table_apply]

/-- The contraction with the x-row: the lattice rows regrouped as 4 channels of 128, weighted and summed. -/
def core (Wx Wy Wz : FVec Ideal S256x128 .f32) (g : FVec Ideal S512x16384 .bf16) : FVec Ideal S256x4 .f32 :=
  multiReduction (F := Ideal) .add [2] S256x4
    (mulf (shapeCast S256x4x128 (contracted Wy Wz g) shapeCasts_S256x512_S256x4x128)
      (broadcastTo S256x4x128 (shapeCast S256x1x128 Wx shapeCasts_S256x128_S256x1x128) broadcasts_S256x1x128_S256x4x128))
    0x00000000#32 reduces_S256x4x128_S256x4 (.inl rfl) rfl

theorem core_apply (Wx Wy Wz : FVec Ideal S256x128 .f32) (g : FVec Ideal S512x16384 .bf16) (p : Fin 256) (c : Fin 4) :
    core Wx Wy Wz g (ix2 p c)
      = ∑ j : Fin 128, (∑ k : Fin 16384, (Wy (ix2 p (kHi k)) * Wz (ix2 p (kLo k))) * g (ix2 (rowOf c j) k)) * Wx (ix2 p j) := by
  unfold core
  refine (LastAxis.multiReduction_add_last3 (B := 256) (L := 4) (N := 128) _ 0x00000000#32 reduces_S256x4x128_S256x4 (.inl rfl) rfl p c).trans ?_
  refine Finset.sum_congr rfl fun j _ => ?_
  rw [mulf_apply, MiddleUnit.broadcastTo_a1c_abc_apply, MiddleUnit.shapeCast_ac_a1c_apply,
    Flatten.split1_apply _ shapeCasts_S256x512_S256x4x128 p c j (rowOf c j).isLt rfl]
  exact congrArg (· * Wx (ix2 p j)) (contracted_apply Wy Wz g p (rowOf c j))

end Cert.Trilinear.Body

end
-- ==== Proof.BodyValue.lean ====
/-
  What the interpolation body leaves in its output block, read at an index.

  The body stores once, through the whole-block rectangle, so the block it leaves is the stored array. That array is
  the contraction of the three weight rows against the re-laid lattice: the y- and z-rows multiplied into a table of
  128 × 128 products per query row, the table contracted against the 512 lattice rows, those regrouped as 4 channels of
  128 lanes, weighted by the x-row and summed over the lanes. With each row read as `twoHot` of its coordinate this is
  `blockAt` entry by entry.
-/
import proofs.«113492_j84670985273547_2_alg».proof.Proof.Gen.KernelIdeal.Frame
import proofs.«113492_j84670985273547_2_alg».proof.Proof.BodyRows
import proofs.«113492_j84670985273547_2_alg».proof.Proof.BodyCore

noncomputable section

namespace Cert.Trilinear.Body

open Idealize.ShloMosaic Idealize.ShloMosaic.ValueIdx Cert.KernelIdeal Cert.KernelIdeal.Gen

/-- The stored array is the contraction of the three weight rows built from the block's corners and fractions:
    the x-row from column 0, the y-row from column 1 (its two halves arrive separately and are added here), the z-row
    from column 2. -/
theorem pay1_eq (x0 : Vec Ideal S256x3 .f32) (g : Vec Ideal S512x16384 .bf16) :
    k0_pay1 (F := Ideal) (k0_pay3 x0) (k0_pay4 x0) (k0_pay5 x0) (iota .tc S256x128 32 [1] iota_S256x128_d1_w32)
        (k0_pay6 x0) (k0_pay7 x0) (k0_pay8 x0) (k0_pay9 x0) g
      = core (hotRow (k0_pay3 x0) (k0_pay4 x0) (k0_pay5 x0) 0 slices_S256x3_o0_0_S256x1)
          (hotRow (k0_pay3 x0) (k0_pay4 x0) (k0_pay5 x0) 1 slices_S256x3_o0_1_S256x1)
          (hotRow (k0_pay3 x0) (k0_pay4 x0) (k0_pay5 x0) 2 slices_S256x3_o0_2_S256x1) g := rfl

/-- The whole-block rectangles start at the origin. -/
theorem origin2 : (![0, 0] : Fin 2 → Nat) = fun _ => 0 := funext fun a => by fin_cases a <;> rfl

/-- THE BLOCK THE BODY LEAVES, entry by entry: `blockAt` of the block of query rows and the re-laid lattice. -/
theorem out_apply (x0 : Vec Ideal S256x3 .f32) (x1 : Vec Ideal S512x16384 .bf16) (p : Fin 256) (c : Fin 4) :
    out0_2 (F := Ideal) x0 x1 (ix2 p c) = Cert.Trilinear.blockAt x0 x1 p c := by
  unfold out0_2
  rw [View.canon_unit_zero origin2]
  simp only [View.ld_unit_zero (S := S256x3) origin2, View.ld_unit_zero (S := S512x16384) origin2]
  rw [pay1_eq]
  refine (core_apply _ _ _ x1 p c).trans ?_
  unfold Cert.Trilinear.blockAt
  refine Finset.sum_congr rfl fun j _ => ?_
  rw [row_apply x0 0 0 rfl slices_S256x3_o0_0_S256x1 p j]
  refine congrArg (· * Cert.Trilinear.twoHot (x0 (ix2 p 0)) j) (Finset.sum_congr rfl fun k _ => ?_)
  rw [row_apply x0 1 1 rfl slices_S256x3_o0_1_S256x1 p (kHi k), row_apply x0 2 2 rfl slices_S256x3_o0_2_S256x1 p (kLo k)]

end Cert.Trilinear.Body

end
-- ==== Proof.LibSelectEq.lean ====
/-
  A select whose condition is an integer equality test, read as an if-then-else on the equality itself.
-/
import Idealize.ShloMosaic.Lib.Affine
import Idealize.ShloMosaic.PureOps

namespace Idealize.ShloMosaic.SelectEq

/-- `select (cmpi eq a b) u v` is `u` when `a = b` and `v` otherwise, at any width and any value type. -/
theorem select_cmpi_eq {α : Type} {w : ℕ} (a b : BitVec w) (u v : α) :
    Scalar.select (IntOp.cmpi .eq a b) u v = if a = b then u else v := by
  unfold Scalar.select
  by_cases h : a = b
  · rw [if_pos h, if_pos (show IntOp.cmpi .eq a b = 1 from IntOp.cmpi_eq.mpr h)]
  · rw [if_neg h, if_neg (fun h' : IntOp.cmpi .eq a b = 1 => h (IntOp.cmpi_eq.mp h'))]

end Idealize.ShloMosaic.SelectEq
-- ==== Proof.CornerBits.lean ====
/-
  The corner indices of one real coordinate, as 32-bit integers in the range [0, 127].

  For a real coordinate r the clipped position p = min 127 (max 0 (128 r)) lies in [0, 127], so its integer part ⌊p⌋ is
  an integer in [0, 127]: the lower corner is the 32-bit word of that integer, the upper corner the word of
  min (⌊p⌋ + 1) 127, and the fractional part p − ⌊p⌋ is a real.  On a word in that range the wrap of a negative index and
  the clamp into [0, 127] change nothing, and the test "position j equals the word" is the equality of j with the
  clamped index.
-/
import Mathlib
import Idealize.ShloMosaic.Lib.Affine
import proofs.«113492_j84670985273547_2_alg».proof.Proof.KerSpec
import proofs.«113492_j84670985273547_2_alg».proof.Proof.LibSelectEq

noncomputable section

namespace Cert.Trilinear

open Idealize.ShloMosaic

/-- The binary32 word of zero denotes 0. -/
theorem w0_eq : w0 = 0 := by
  simp [w0, Ideal.ofBits, Ideal.ieee]

/-- The binary32 word 0x3F800000 denotes the real 1. -/
theorem w1_eq : w1 = ((1 : ℝ) : EReal) := by
  simp [w1, Ideal.ofBits, Ideal.ieee, -EReal.coe_mul]; norm_num

/-- The binary32 word 0x43000000 denotes the real 128. -/
theorem w128_eq : w128 = ((128 : ℝ) : EReal) := by
  simp [w128, Ideal.ofBits, Ideal.ieee, -EReal.coe_mul]; norm_num

/-- The clipped position of a real coordinate: 128 r cut to [0, 127]. -/
def posR (r : ℝ) : ℝ := min 127 (max 0 (r * 128))

theorem posR_nonneg (r : ℝ) : 0 ≤ posR r := le_min (by norm_num) (le_max_left _ _)

theorem posR_le (r : ℝ) : posR r ≤ 127 := min_le_left _ _

/-- The clipped position of a real coordinate is the real `posR`. -/
theorem pos_coe (r : ℝ) : pos (r : EReal) = ((posR r : ℝ) : EReal) := by
  have h127 : (((127#32 : BitVec 32).toInt : ℝ) : EReal) = ((127 : ℝ) : EReal) := by
    have h : (127#32 : BitVec 32).toInt = 127 := by decide
    rw [h]; norm_num
  rw [pos, h127, w0_eq, w128_eq, ← EReal.coe_mul, ← EReal.coe_zero,
    ← EReal.coe_strictMono.monotone.map_max, ← EReal.coe_strictMono.monotone.map_min, posR]

/-- The integer part of the clipped position, as a natural number. -/
def loN (r : ℝ) : ℕ := ⌊posR r⌋.toNat

theorem loN_le (r : ℝ) : loN r ≤ 127 := by
  have h : ⌊posR r⌋ ≤ 127 := by
    have h' := (Int.floor_le (posR r)).trans (posR_le r)
    exact_mod_cast h'
  unfold loN; omega

theorem floor_posR (r : ℝ) : ⌊posR r⌋ = (loN r : ℤ) := by
  unfold loN; rw [Int.toNat_of_nonneg (Int.floor_nonneg.mpr (posR_nonneg r))]

/-- A word of a natural number up to 128 reads, signed or unsigned, as that number. -/
theorem toNat_ofNat_small (k : ℕ) (hk : k ≤ 128) : (BitVec.ofNat 32 k).toNat = k := by
  rw [BitVec.toNat_ofNat]; omega

theorem toInt_ofNat_small (k : ℕ) (hk : k ≤ 128) : (BitVec.ofNat 32 k).toInt = (k : ℤ) := by
  rw [BitVec.toInt_eq_toNat_of_lt (by rw [toNat_ofNat_small k hk]; omega), toNat_ofNat_small k hk]

/-- The lower corner of a real coordinate is the word of `loN`. -/
theorem lo_coe (r : ℝ) : lo (r : EReal) = BitVec.ofNat 32 (loN r) := by
  have hl := loN_le r
  have hnn : (0 : ℝ) ≤ ((loN r : ℤ) : ℝ) := by positivity
  rw [lo, pos_coe, Ideal.liftRound_coe, Ideal.fptosi, Ideal.toIntClamped_coe, floor_posR, if_pos hnn,
    Int.floor_intCast]
  have h : max (-((2 ^ (32 - 1) : ℕ) : ℤ)) (min (((2 ^ (32 - 1) : ℕ) : ℤ) - 1) (loN r : ℤ)) = (loN r : ℤ) := by
    norm_num; omega
  rw [h, BitVec.ofInt_natCast]

/-- The upper corner of a real coordinate is the word of `min (loN + 1) 127`. -/
theorem hi_coe (r : ℝ) : hi (r : EReal) = BitVec.ofNat 32 (min (loN r + 1) 127) := by
  have hl := loN_le r
  have e : IntOp.addi (BitVec.ofNat 32 (loN r)) 1#32 = BitVec.ofNat 32 (loN r + 1) := by
    rw [IntOp.addi, BitVec.ofNat_add]
  have h127 : (127#32 : BitVec 32).toInt = 127 := by decide
  rw [hi, lo_coe, e, IntOp.minsi]
  by_cases h : loN r + 1 < 127
  · have hs : (BitVec.ofNat 32 (loN r + 1)).slt 127#32 = true := by
      rw [BitVec.slt_iff_toInt_lt, toInt_ofNat_small (loN r + 1) (by omega), h127]; omega
    rw [if_pos hs, min_eq_left (by omega)]
  · have hs : ¬ (BitVec.ofNat 32 (loN r + 1)).slt 127#32 = true := by
      rw [BitVec.slt_iff_toInt_lt, toInt_ofNat_small (loN r + 1) (by omega), h127]; omega
    rw [if_neg hs, min_eq_right (by omega)]

/-- The fractional part of a real coordinate is a real. -/
theorem frac_coe (r : ℝ) : frac (r : EReal) = ((posR r - (loN r : ℝ) : ℝ) : EReal) := by
  rw [frac, pos_coe, lo_coe, toInt_ofNat_small _ (le_trans (loN_le r) (by norm_num)), EReal.coe_sub]
  norm_num

/-- A 32-bit word that is the word of a natural number up to 127. -/
def InRange (b : BitVec 32) : Prop := ∃ m : ℕ, m ≤ 127 ∧ b = BitVec.ofNat 32 m

theorem lo_inRange (r : ℝ) : InRange (lo (r : EReal)) := ⟨loN r, loN_le r, lo_coe r⟩

theorem hi_inRange (r : ℝ) : InRange (hi (r : EReal)) := ⟨min (loN r + 1) 127, min_le_right _ _, hi_coe r⟩

/-- On a word in range the wrap of a negative index changes nothing. -/
theorem wrap_of_inRange {b : BitVec 32} (h : InRange b) : wrap b = b := by
  obtain ⟨m, hm, rfl⟩ := h
  have h0 : (0#32 : BitVec 32).toInt = 0 := by decide
  have hc : ¬ IntOp.cmpi .slt (BitVec.ofNat 32 m) 0#32 = 1 := by
    intro hc
    have hlt := IntOp.cmpi_slt.mp hc
    rw [toInt_ofNat_small m (by omega), h0] at hlt; omega
  rw [wrap, Scalar.select, if_neg hc]

/-- On a word in range the clamped index is the number itself. -/
theorem clampIdx_val_of_le (m : ℕ) (hm : m ≤ 127) : (clampIdx (BitVec.ofNat 32 m)).val = m := by
  show min (BitVec.ofNat 32 m).toInt.toNat 127 = m
  rw [toInt_ofNat_small m (by omega)]; omega

/-- On a word in range, position `j` carries that word exactly when `j` is the clamped index. -/
theorem ofNat_eq_iff_of_inRange {b : BitVec 32} (h : InRange b) (j : Fin 128) :
    BitVec.ofNat 32 j.val = b ↔ j = clampIdx b := by
  obtain ⟨m, hm, rfl⟩ := h
  have hj := j.isLt
  constructor
  · intro e
    have e' := congrArg BitVec.toNat e
    rw [toNat_ofNat_small _ (by omega), toNat_ofNat_small m (by omega)] at e'
    exact Fin.ext (by rw [clampIdx_val_of_le m hm]; exact e')
  · intro e
    have e' := congrArg Fin.val e
    rw [clampIdx_val_of_le m hm] at e'
    rw [e']

/-- The select on the test "position `j` carries the word `b`", for `b` in range, is an if-then-else on `j = clampIdx b`. -/
theorem select_eq_of_inRange {α : Type} {b : BitVec 32} (h : InRange b) (j : Fin 128) (u v : α) :
    Scalar.select (IntOp.cmpi .eq (BitVec.ofNat 32 j.val) b) u v = if j = clampIdx b then u else v := by
  rw [SelectEq.select_cmpi_eq]
  by_cases e : j = clampIdx b
  · rw [if_pos e, if_pos ((ofNat_eq_iff_of_inRange h j).mpr e)]
  · rw [if_neg e, if_neg (fun e' => e ((ofNat_eq_iff_of_inRange h j).mp e'))]

end Cert.Trilinear

end
-- ==== Proof.TwoHotReal.lean ====
/-
  The real algebra of the two-hot contraction.

  A two-hot row over 128 positions is W j = (if j = L then α else 0) + (if j = H then β else 0): the two weights ADDED, so
  that the row is also right when L = H.  A sum against such a row is two evaluations, Σ_j F j · W j = F L · α + F H · β,
  whatever L and H are.  A table of 128 × 128 entries laid out as one row of 16384, position k = 128 · y + z, is summed by
  summing over y and z, because k ↦ (k / 128, k % 128) is a bijection.  Together: the product of three two-hot rows
  contracted against a lattice G is the sum of the eight corner terms.
-/
import Mathlib
import proofs.«113492_j84670985273547_2_alg».proof.Proof.KerSpec

namespace Cert.Trilinear

open scoped BigOperators

/-- A two-hot row of real weights: α at L plus β at H. -/
def row (L H : Fin 128) (α β : ℝ) (j : Fin 128) : ℝ := (if j = L then α else 0) + (if j = H then β else 0)

/-- A sum against a two-hot row is two evaluations. -/
theorem sum_mul_row (L H : Fin 128) (α β : ℝ) (F : Fin 128 → ℝ) :
    ∑ j, F j * row L H α β j = F L * α + F H * β := by
  simp only [row, mul_add, mul_ite, mul_zero, Finset.sum_add_distrib, Finset.sum_ite_eq', Finset.mem_univ, if_true]

/-- The flattened table is summed by rows and columns. -/
theorem sum_kHi_kLo {M : Type*} [AddCommMonoid M] (F : Fin 128 → Fin 128 → M) :
    ∑ k : Fin 16384, F (kHi k) (kLo k) = ∑ y : Fin 128, ∑ z : Fin 128, F y z := by
  rw [← Fintype.sum_prod_type']
  exact Fintype.sum_equiv (finProdFinEquiv (m := 128) (n := 128)).symm _ _ (fun k => rfl)

/-- The product of three two-hot rows contracted against a lattice is the sum of the eight corner terms. -/
theorem sum_rows_eq_corners (Lx Hx Ly Hy Lz Hz : Fin 128) (αx βx αy βy αz βz : ℝ)
    (G : Fin 128 → Fin 128 → Fin 128 → ℝ) :
    ∑ j : Fin 128, (∑ k : Fin 16384, (row Ly Hy αy βy (kHi k) * row Lz Hz αz βz (kLo k)) * G j (kHi k) (kLo k))
        * row Lx Hx αx βx j
      = ((((((((0 + ((αx * αy) * αz) * G Lx Ly Lz) + ((αx * αy) * βz) * G Lx Ly Hz)
          + ((αx * βy) * αz) * G Lx Hy Lz) + ((αx * βy) * βz) * G Lx Hy Hz)
          + ((βx * αy) * αz) * G Hx Ly Lz) + ((βx * αy) * βz) * G Hx Ly Hz)
          + ((βx * βy) * αz) * G Hx Hy Lz) + ((βx * βy) * βz) * G Hx Hy Hz) := by
  have inner : ∀ j : Fin 128,
      (∑ k : Fin 16384, (row Ly Hy αy βy (kHi k) * row Lz Hz αz βz (kLo k)) * G j (kHi k) (kLo k))
        = (G j Ly Lz * αz + G j Ly Hz * βz) * αy + (G j Hy Lz * αz + G j Hy Hz * βz) * βy := by
    intro j
    rw [sum_kHi_kLo (fun y z => (row Ly Hy αy βy y * row Lz Hz αz βz z) * G j y z)]
    have h1 : ∀ y : Fin 128, (∑ z : Fin 128, (row Ly Hy αy βy y * row Lz Hz αz βz z) * G j y z)
        = (G j y Lz * αz + G j y Hz * βz) * row Ly Hy αy βy y := by
      intro y
      have : ∀ z : Fin 128, (row Ly Hy αy βy y * row Lz Hz αz βz z) * G j y z
          = (row Ly Hy αy βy y * G j y z) * row Lz Hz αz βz z := fun z => by ring
      rw [Finset.sum_congr rfl (fun z _ => this z), sum_mul_row]
      ring
    rw [Finset.sum_congr rfl (fun y _ => h1 y), sum_mul_row]
  rw [Finset.sum_congr rfl (fun j _ => by rw [inner j]), sum_mul_row]
  ring

end Cert.Trilinear
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.Algebra.lean ====
/-
  The two-hot sum of products is the eight-corner sum, for finite data.

  With every query coordinate and every lattice entry a real number, each two-hot weight row is the image of a real
  two-hot row (weight 1 − f at the lower corner plus weight f at the upper corner, f the fractional part), every corner
  weight and corner index of the eight-corner sum is the same real weight and the same index, and the coercion of the reals
  into the extended reals commutes with the finite sums and the products on both sides.  The identity is then the real one:
  the product of three two-hot rows contracted against the lattice is the sum of the eight corner terms.
-/
import Mathlib
import proofs.«113492_j84670985273547_2_alg».proof.Proof.CornerBits
import proofs.«113492_j84670985273547_2_alg».proof.Proof.TwoHotReal
import proofs.«113492_j84670985273547_2_alg».proof.Proof.LibERealSum

noncomputable section

namespace Cert.Trilinear

open Idealize.ShloMosaic Idealize.ShloMosaic.ValueIdx

open scoped BigOperators

/-- The fractional part of the clipped position of a real coordinate. -/
def fracR (r : ℝ) : ℝ := posR r - (loN r : ℝ)

/-- Corner `d` of a real coordinate: its real weight and its lattice index. -/
def wgtR (d : Bool) (r : ℝ) : ℝ := match d with | false => 1 - fracR r | true => fracR r
def idxR (d : Bool) (r : ℝ) : Fin 128 := match d with | false => clampIdx (lo (r : EReal)) | true => clampIdx (hi (r : EReal))

/-- The two-hot row of a real coordinate is the image of the real two-hot row of its two corners. -/
theorem twoHot_coe (r : ℝ) (j : Fin 128) :
    twoHot (r : EReal) j
      = ((row (idxR false r) (idxR true r) (wgtR false r) (wgtR true r) j : ℝ) : EReal) := by
  rw [twoHot, select_eq_of_inRange (lo_inRange r), select_eq_of_inRange (hi_inRange r), frac_coe, w1_eq, w0_eq,
    ← EReal.coe_sub, row, EReal.coe_add]
  show _ = ((if j = clampIdx (lo (r : EReal)) then 1 - fracR r else 0 : ℝ) : EReal)
      + ((if j = clampIdx (hi (r : EReal)) then fracR r else 0 : ℝ) : EReal)
  rw [apply_ite Real.toEReal, apply_ite Real.toEReal, EReal.coe_zero]
  rfl

/-- A corner's weight at a real coordinate is the image of its real weight. -/
theorem cwgt_coe (d : Bool) (r : ℝ) : cwgt d (r : EReal) = ((wgtR d r : ℝ) : EReal) := by
  cases d
  · rw [cwgt, frac_coe, w1_eq, ← EReal.coe_sub]; rfl
  · rw [cwgt, frac_coe]; rfl

/-- A corner's index at a real coordinate: the wrap changes nothing. -/
theorem cidx_coe (d : Bool) (r : ℝ) : clampIdx (wrap (cidx d (r : EReal))) = idxR d r := by
  cases d
  · rw [cidx, wrap_of_inRange (lo_inRange r)]; rfl
  · rw [cidx, wrap_of_inRange (hi_inRange r)]; rfl

section Finite

variable (x : (⟨2, ![2000000, 3]⟩ : Shape).Idx → EReal) (g : (⟨4, ![128, 128, 128, 4]⟩ : Shape).Idx → EReal)
  (n : Fin 2000000) (c : Fin 4) (r0 r1 r2 : ℝ) (gr : (⟨4, ![128, 128, 128, 4]⟩ : Shape).Idx → ℝ)
  (h0 : x (ix2 n 0) = (r0 : EReal)) (h1 : x (ix2 n 1) = (r1 : EReal)) (h2 : x (ix2 n 2) = (r2 : EReal))
  (hgr : ∀ i, g i = ((gr i : ℝ) : EReal))

include h0 h1 h2 hgr

/-- One corner's term is the image of the real term. -/
theorem term_coe (dx dy dz : Bool) :
    term x g n c dx dy dz
      = ((((wgtR dx r0 * wgtR dy r1) * wgtR dz r2) * gr (ix4 (idxR dx r0) (idxR dy r1) (idxR dz r2) c) : ℝ) : EReal) := by
  rw [term, h0, h1, h2, cwgt_coe, cwgt_coe, cwgt_coe, cidx_coe, cidx_coe, cidx_coe, hgr,
    ← EReal.coe_mul, ← EReal.coe_mul, ← EReal.coe_mul]

/-- The eight-corner sum is the image of the real eight-corner sum. -/
theorem valueAt_coe :
    valueAt x g n c
      = ((((((((((0 + ((wgtR false r0 * wgtR false r1) * wgtR false r2) * gr (ix4 (idxR false r0) (idxR false r1) (idxR false r2) c))
          + ((wgtR false r0 * wgtR false r1) * wgtR true r2) * gr (ix4 (idxR false r0) (idxR false r1) (idxR true r2) c))
          + ((wgtR false r0 * wgtR true r1) * wgtR false r2) * gr (ix4 (idxR false r0) (idxR true r1) (idxR false r2) c))
          + ((wgtR false r0 * wgtR true r1) * wgtR true r2) * gr (ix4 (idxR false r0) (idxR true r1) (idxR true r2) c))
          + ((wgtR true r0 * wgtR false r1) * wgtR false r2) * gr (ix4 (idxR true r0) (idxR false r1) (idxR false r2) c))
          + ((wgtR true r0 * wgtR false r1) * wgtR true r2) * gr (ix4 (idxR true r0) (idxR false r1) (idxR true r2) c))
          + ((wgtR true r0 * wgtR true r1) * wgtR false r2) * gr (ix4 (idxR true r0) (idxR true r1) (idxR false r2) c))
          + ((wgtR true r0 * wgtR true r1) * wgtR true r2) * gr (ix4 (idxR true r0) (idxR true r1) (idxR true r2) c)) : ℝ) : EReal) := by
  rw [valueAt, w0_eq]
  simp only [term_coe x g n c r0 r1 r2 gr h0 h1 h2 hgr]
  simp only [EReal.coe_add, EReal.coe_zero]

/-- The two-hot sum of products is the image of the real two-hot sum of products. -/
theorem sumAt_coe :
    sumAt x g n c
      = ((∑ j : Fin 128, (∑ k : Fin 16384,
            (row (idxR false r1) (idxR true r1) (wgtR false r1) (wgtR true r1) (kHi k)
              * row (idxR false r2) (idxR true r2) (wgtR false r2) (wgtR true r2) (kLo k))
              * gr (ix4 j (kHi k) (kLo k) c))
          * row (idxR false r0) (idxR true r0) (wgtR false r0) (wgtR true r0) j : ℝ) : EReal) := by
  rw [sumAt, h0, h1, h2, ERealSum.coe_finset_sum]
  refine Finset.sum_congr rfl fun j _ => ?_
  rw [EReal.coe_mul, ERealSum.coe_finset_sum, twoHot_coe]
  refine congr_arg₂ (· * ·) (Finset.sum_congr rfl fun k _ => ?_) rfl
  rw [EReal.coe_mul, EReal.coe_mul, twoHot_coe, twoHot_coe, hgr]

end Finite

/-- For real query coordinates and real lattice entries the two-hot sum of products is the eight-corner sum. -/
theorem sumAt_eq_valueAt (x : (⟨2, ![2000000, 3]⟩ : Shape).Idx → EReal) (g : (⟨4, ![128, 128, 128, 4]⟩ : Shape).Idx → EReal)
    (hx : ∀ i, ∃ r : ℝ, x i = (r : EReal)) (hg : ∀ i, ∃ r : ℝ, g i = (r : EReal)) (n : Fin 2000000) (c : Fin 4) :
    sumAt x g n c = valueAt x g n c := by
  obtain ⟨r0, h0⟩ := hx (ix2 n 0)
  obtain ⟨r1, h1⟩ := hx (ix2 n 1)
  obtain ⟨r2, h2⟩ := hx (ix2 n 2)
  choose gr hgr using hg
  rw [sumAt_coe x g n c r0 r1 r2 gr h0 h1 h2 hgr, valueAt_coe x g n c r0 r1 r2 gr h0 h1 h2 hgr]
  exact congrArg Real.toEReal
    (sum_rows_eq_corners (idxR false r0) (idxR true r0) (idxR false r1) (idxR true r1) (idxR false r2) (idxR true r2)
      (wgtR false r0) (wgtR true r0) (wgtR false r1) (wgtR true r1) (wgtR false r2) (wgtR true r2)
      (fun j y z => gr (ix4 j y z c)))

end Cert.Trilinear

end
-- ==== Proof.RefProg.lean ====
/-
  The reference program as a list of its host operations, cut into nine consecutive pieces: the
  stages every corner shares (the scaled and clipped coordinates, the two corners, the fractional
  parts, the zero accumulator), and one piece per corner, from its first column cut to the sum that
  adds its term to the accumulator.  The program is the straight line of the nine pieces in order.
-/
import proofs.«113492_j84670985273547_2_alg».proof.Proof.Gen.ReferenceIdeal
import Idealize.ShloMosaic.Lib.StableHlo.Run

noncomputable section

namespace Cert.Trilinear.Ref

open Cert.ReferenceIdeal Cert.ReferenceIdeal.Gen Idealize.ShloMosaic Idealize.ShloMosaic.TcCoe Idealize.SL.Sem Idealize.ShloMosaic.StableHlo

variable {F : FTy → Type} [FloatOps F]

/-- The shared stages: the clipped coordinates, the lower and upper corners, the fractional parts, the zero accumulator. -/
abbrev opsPre : List (HloOp τ sig (Elt F)) :=
  [ nullary main_cst (constant S_ .f32 0x43000000#32),
    unary main_cst main_v0 (broadcastInDim S2000000x3 ![] bcast_S_S2000000x3 : (⟨S_, .f32⟩ : BufTy).Contents (Elt F) → (⟨S2000000x3, .f32⟩ : BufTy).Contents (Elt F)),
    binary main_arg0 main_v0 main_v1 (mulf : (⟨S2000000x3, .f32⟩ : BufTy).Contents (Elt F) → (⟨S2000000x3, .f32⟩ : BufTy).Contents (Elt F) → (⟨S2000000x3, .f32⟩ : BufTy).Contents (Elt F)),
    nullary main_cst_0 (constant S_ .f32 0x00000000#32),
    nullary main_c (constantI S_ 32 127#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S2000000x3, .f32⟩) main_call0_v1) (broadcastInDim S2000000x3 ![] bcast_S_S2000000x3),
    TRef.binary (TRef.of (T := ⟨S2000000x3, .f32⟩) main_call0_v1) (TRef.of (T := ⟨S2000000x3, .f32⟩) main_v1) (TRef.of (T := ⟨S2000000x3, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S2000000x3, .f32⟩) main_call0_v4) (broadcastInDim S2000000x3 ![] bcast_S_S2000000x3),
    TRef.binary (TRef.of (T := ⟨S2000000x3, .f32⟩) main_call0_v4) (TRef.of (T := ⟨S2000000x3, .f32⟩) main_call0_v2) (TRef.of (T := ⟨S2000000x3, .f32⟩) main_v2) minimumf,
    unary main_v2 main_v3 (Host.floor : (⟨S2000000x3, .f32⟩ : BufTy).Contents (Elt F) → (⟨S2000000x3, .f32⟩ : BufTy).Contents (Elt F)),
    unary main_v3 main_v4 (fptosi 32 : (⟨S2000000x3, .f32⟩ : BufTy).Contents (Elt F) → (⟨S2000000x3, .i32⟩ : BufTy).Contents (Elt F)),
    nullary main_c_1 (constantI S_ 32 1#32),
    unary main_c_1 main_v5 (broadcastInDim S2000000x3 ![] bcast_S_S2000000x3 : (⟨S_, .i32⟩ : BufTy).Contents (Elt F) → (⟨S2000000x3, .i32⟩ : BufTy).Contents (Elt F)),
    binary main_v4 main_v5 main_v6 (addi : (⟨S2000000x3, .i32⟩ : BufTy).Contents (Elt F) → (⟨S2000000x3, .i32⟩ : BufTy).Contents (Elt F) → (⟨S2000000x3, .i32⟩ : BufTy).Contents (Elt F)),
    nullary main_c_2 (constantI S_ 32 127#32),
    unary main_c_2 main_v7 (broadcastInDim S2000000x3 ![] bcast_S_S2000000x3 : (⟨S_, .i32⟩ : BufTy).Contents (Elt F) → (⟨S2000000x3, .i32⟩ : BufTy).Contents (Elt F)),
    binary main_v6 main_v7 main_v8 (minsi : (⟨S2000000x3, .i32⟩ : BufTy).Contents (Elt F) → (⟨S2000000x3, .i32⟩ : BufTy).Contents (Elt F) → (⟨S2000000x3, .i32⟩ : BufTy).Contents (Elt F)),
    unary main_v4 main_v9 (sitofp .f32 : (⟨S2000000x3, .i32⟩ : BufTy).Contents (Elt F) → (⟨S2000000x3, .f32⟩ : BufTy).Contents (Elt F)),
    binary main_v2 main_v9 main_v10 (subf : (⟨S2000000x3, .f32⟩ : BufTy).Contents (Elt F) → (⟨S2000000x3, .f32⟩ : BufTy).Contents (Elt F) → (⟨S2000000x3, .f32⟩ : BufTy).Contents (Elt F)),
    nullary main_cst_3 (constant S_ .f32 0x00000000#32),
    unary main_cst_3 main_v11 (broadcastInDim S2000000x4 ![] bcast_S_S2000000x4 : (⟨S_, .f32⟩ : BufTy).Contents (Elt F) → (⟨S2000000x4, .f32⟩ : BufTy).Contents (Elt F)) ]

/-- Corner `000`: its index and weight columns, the gather, the product, and the sum into the accumulator. -/
abbrev opsC0 : List (HloOp τ sig (Elt F)) :=
  [ unary main_v4 main_v12 ((extractStridedSlice S2000000x1 ![0, 0] · slices_S2000000x3_S2000000x1_0_0) : (⟨S2000000x3, .i32⟩ : BufTy).Contents (Elt F) → (⟨S2000000x1, .i32⟩ : BufTy).Contents (Elt F)),
    reshape main_v12 main_v13 rfl shapeCasts_S2000000x1_S2000000,
    unary main_v4 main_v14 ((extractStridedSlice S2000000x1 ![0, 1] · slices_S2000000x3_S2000000x1_0_1) : (⟨S2000000x3, .i32⟩ : BufTy).Contents (Elt F) → (⟨S2000000x1, .i32⟩ : BufTy).Contents (Elt F)),
    reshape main_v14 main_v15 rfl shapeCasts_S2000000x1_S2000000,
    unary main_v4 main_v16 ((extractStridedSlice S2000000x1 ![0, 2] · slices_S2000000x3_S2000000x1_0_2) : (⟨S2000000x3, .i32⟩ : BufTy).Contents (Elt F) → (⟨S2000000x1, .i32⟩ : BufTy).Contents (Elt F)),
    reshape main_v16 main_v17 rfl shapeCasts_S2000000x1_S2000000,
    unary main_v10 main_v18 ((extractStridedSlice S2000000x1 ![0, 0] · slices_S2000000x3_S2000000x1_0_0) : (⟨S2000000x3, .f32⟩ : BufTy).Contents (Elt F) → (⟨S2000000x1, .f32⟩ : BufTy).Contents (Elt F)),
    reshape main_v18 main_v19 rfl shapeCasts_S2000000x1_S2000000,
    nullary main_cst_4 (constant S_ .f32 0x3F800000#32),
    unary main_cst_4 main_v20 (broadcastInDim S2000000 ![] bcast_S_S2000000 : (⟨S_, .f32⟩ : BufTy).Contents (Elt F) → (⟨S2000000, .f32⟩ : BufTy).Contents (Elt F)),
    binary main_v20 main_v19 main_v21 (subf : (⟨S2000000, .f32⟩ : BufTy).Contents (Elt F) → (⟨S2000000, .f32⟩ : BufTy).Contents (Elt F) → (⟨S2000000, .f32⟩ : BufTy).Contents (Elt F)),
    unary main_v10 main_v22 ((extractStridedSlice S2000000x1 ![0, 1] · slices_S2000000x3_S2000000x1_0_1) : (⟨S2000000x3, .f32⟩ : BufTy).Contents (Elt F) → (⟨S2000000x1, .f32⟩ : BufTy).Contents (Elt F)),
    reshape main_v22 main_v23 rfl shapeCasts_S2000000x1_S2000000,
    nullary main_cst_5 (constant S_ .f32 0x3F800000#32),
    unary main_cst_5 main_v24 (broadcastInDim S2000000 ![] bcast_S_S2000000 : (⟨S_, .f32⟩ : BufTy).Contents (Elt F) → (⟨S2000000, .f32⟩ : BufTy).Contents (Elt F)),
    binary main_v24 main_v23 main_v25 (subf : (⟨S2000000, .f32⟩ : BufTy).Contents (Elt F) → (⟨S2000000, .f32⟩ : BufTy).Contents (Elt F) → (⟨S2000000, .f32⟩ : BufTy).Contents (Elt F)),
    unary main_v10 main_v26 ((extractStridedSlice S2000000x1 ![0, 2] · slices_S2000000x3_S2000000x1_0_2) : (⟨S2000000x3, .f32⟩ : BufTy).Contents (Elt F) → (⟨S2000000x1, .f32⟩ : BufTy).Contents (Elt F)),
    reshape main_v26 main_v27 rfl shapeCasts_S2000000x1_S2000000,
    nullary main_cst_6 (constant S_ .f32 0x3F800000#32),
    unary main_cst_6 main_v28 (broadcastInDim S2000000 ![] bcast_S_S2000000 : (⟨S_, .f32⟩ : BufTy).Contents (Elt F) → (⟨S2000000, .f32⟩ : BufTy).Contents (Elt F)),
    binary main_v28 main_v27 main_v29 (subf : (⟨S2000000, .f32⟩ : BufTy).Contents (Elt F) → (⟨S2000000, .f32⟩ : BufTy).Contents (Elt F) → (⟨S2000000, .f32⟩ : BufTy).Contents (Elt F)),
    binary main_v21 main_v25 main_v30 (mulf : (⟨S2000000, .f32⟩ : BufTy).Contents (Elt F) → (⟨S2000000, .f32⟩ : BufTy).Contents (Elt F) → (⟨S2000000, .f32⟩ : BufTy).Contents (Elt F)),
    binary main_v30 main_v29 main_v31 (mulf : (⟨S2000000, .f32⟩ : BufTy).Contents (Elt F) → (⟨S2000000, .f32⟩ : BufTy).Contents (Elt F) → (⟨S2000000, .f32⟩ : BufTy).Contents (Elt F)),
    unary main_v31 main_v32 (broadcastInDim S2000000x1 ![0] bcast_S2000000_S2000000x1_0 : (⟨S2000000, .f32⟩ : BufTy).Contents (Elt F) → (⟨S2000000x1, .f32⟩ : BufTy).Contents (Elt F)),
    nullary main_c_7 (constantI S_ 32 0#32),
    unary main_c_7 main_v33 (broadcastInDim S2000000 ![] bcast_S_S2000000 : (⟨S_, .i32⟩ : BufTy).Contents (Elt F) → (⟨S2000000, .i32⟩ : BufTy).Contents (Elt F)),
    binary main_v13 main_v33 main_v34 (cmpi .slt : (⟨S2000000, .i32⟩ : BufTy).Contents (Elt F) → (⟨S2000000, .i32⟩ : BufTy).Contents (Elt F) → (⟨S2000000, .i1⟩ : BufTy).Contents (Elt F)),
    nullary main_c_8 (constantI S_ 32 128#32),
    unary main_c_8 main_v35 (broadcastInDim S2000000 ![] bcast_S_S2000000 : (⟨S_, .i32⟩ : BufTy).Contents (Elt F) → (⟨S2000000, .i32⟩ : BufTy).Contents (Elt F)),
    binary main_v13 main_v35 main_v36 (addi : (⟨S2000000, .i32⟩ : BufTy).Contents (Elt F) → (⟨S2000000, .i32⟩ : BufTy).Contents (Elt F) → (⟨S2000000, .i32⟩ : BufTy).Contents (Elt F)),
    ternary main_v34 main_v36 main_v13 main_v37 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_9 (constantI S_ 32 0#32),
    unary main_c_9 main_v38 (broadcastInDim S2000000 ![] bcast_S_S2000000 : (⟨S_, .i32⟩ : BufTy).Contents (Elt F) → (⟨S2000000, .i32⟩ : BufTy).Contents (Elt F)),
    binary main_v15 main_v38 main_v39 (cmpi .slt : (⟨S2000000, .i32⟩ : BufTy).Contents (Elt F) → (⟨S2000000, .i32⟩ : BufTy).Contents (Elt F) → (⟨S2000000, .i1⟩ : BufTy).Contents (Elt F)),
    nullary main_c_10 (constantI S_ 32 128#32),
    unary main_c_10 main_v40 (broadcastInDim S2000000 ![] bcast_S_S2000000 : (⟨S_, .i32⟩ : BufTy).Contents (Elt F) → (⟨S2000000, .i32⟩ : BufTy).Contents (Elt F)),
    binary main_v15 main_v40 main_v41 (addi : (⟨S2000000, .i32⟩ : BufTy).Contents (Elt F) → (⟨S2000000, .i32⟩ : BufTy).Contents (Elt F) → (⟨S2000000, .i32⟩ : BufTy).Contents (Elt F)),
    ternary main_v39 main_v41 main_v15 main_v42 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_11 (constantI S_ 32 0#32),
    unary main_c_11 main_v43 (broadcastInDim S2000000 ![] bcast_S_S2000000 : (⟨S_, .i32⟩ : BufTy).Contents (Elt F) → (⟨S2000000, .i32⟩ : BufTy).Contents (Elt F)),
    binary main_v17 main_v43 main_v44 (cmpi .slt : (⟨S2000000, .i32⟩ : BufTy).Contents (Elt F) → (⟨S2000000, .i32⟩ : BufTy).Contents (Elt F) → (⟨S2000000, .i1⟩ : BufTy).Contents (Elt F)),
    nullary main_c_12 (constantI S_ 32 128#32),
    unary main_c_12 main_v45 (broadcastInDim S2000000 ![] bcast_S_S2000000 : (⟨S_, .i32⟩ : BufTy).Contents (Elt F) → (⟨S2000000, .i32⟩ : BufTy).Contents (Elt F)),
    binary main_v17 main_v45 main_v46 (addi : (⟨S2000000, .i32⟩ : BufTy).Contents (Elt F) → (⟨S2000000, .i32⟩ : BufTy).Contents (Elt F) → (⟨S2000000, .i32⟩ : BufTy).Contents (Elt F)),
    ternary main_v44 main_v46 main_v17 main_v47 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v37 main_v48 (broadcastInDim S2000000x1 ![0] bcast_S2000000_S2000000x1_0 : (⟨S2000000, .i32⟩ : BufTy).Contents (Elt F) → (⟨S2000000x1, .i32⟩ : BufTy).Contents (Elt F)),
    unary main_v42 main_v49 (broadcastInDim S2000000x1 ![0] bcast_S2000000_S2000000x1_0 : (⟨S2000000, .i32⟩ : BufTy).Contents (Elt F) → (⟨S2000000x1, .i32⟩ : BufTy).Contents (Elt F)),
    unary main_v47 main_v50 (broadcastInDim S2000000x1 ![0] bcast_S2000000_S2000000x1_0 : (⟨S2000000, .i32⟩ : BufTy).Contents (Elt F) → (⟨S2000000x1, .i32⟩ : BufTy).Contents (Elt F)),
    nary ![main_v48, main_v49, main_v50] main_v51 (fun u => concatenate S2000000x3 1 [⟨S2000000x1, u 0⟩, ⟨S2000000x1, u 1⟩, ⟨S2000000x1, u 2⟩] concatenates_S2000000x1_S2000000x1_S2000000x1_S2000000x3_d1),
    binary main_arg1 main_v51 main_v52 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v32 main_v53 (broadcastInDim S2000000x4 ![0, 1] bcast_S2000000x1_S2000000x4_0_1 : (⟨S2000000x1, .f32⟩ : BufTy).Contents (Elt F) → (⟨S2000000x4, .f32⟩ : BufTy).Contents (Elt F)),
    binary main_v53 main_v52 main_v54 (mulf : (⟨S2000000x4, .f32⟩ : BufTy).Contents (Elt F) → (⟨S2000000x4, .f32⟩ : BufTy).Contents (Elt F) → (⟨S2000000x4, .f32⟩ : BufTy).Contents (Elt F)),
    binary main_v11 main_v54 main_v55 (addf : (⟨S2000000x4, .f32⟩ : BufTy).Contents (Elt F) → (⟨S2000000x4, .f32⟩ : BufTy).Contents (Elt F) → (⟨S2000000x4, .f32⟩ : BufTy).Contents (Elt F)) ]

/-- Corner `001`: its index and weight columns, the gather, the product, and the sum into the accumulator. -/
abbrev opsC1 : List (HloOp τ sig (Elt F)) :=
  [ unary main_v4 main_v56 ((extractStridedSlice S2000000x1 ![0, 0] · slices_S2000000x3_S2000000x1_0_0) : (⟨S2000000x3, .i32⟩ : BufTy).Contents (Elt F) → (⟨S2000000x1, .i32⟩ : BufTy).Contents (Elt F)),
    reshape main_v56 main_v57 rfl shapeCasts_S2000000x1_S2000000,
    unary main_v4 main_v58 ((extractStridedSlice S2000000x1 ![0, 1] · slices_S2000000x3_S2000000x1_0_1) : (⟨S2000000x3, .i32⟩ : BufTy).Contents (Elt F) → (⟨S2000000x1, .i32⟩ : BufTy).Contents (Elt F)),
    reshape main_v58 main_v59 rfl shapeCasts_S2000000x1_S2000000,
    unary main_v8 main_v60 ((extractStridedSlice S2000000x1 ![0, 2] · slices_S2000000x3_S2000000x1_0_2) : (⟨S2000000x3, .i32⟩ : BufTy).Contents (Elt F) → (⟨S2000000x1, .i32⟩ : BufTy).Contents (Elt F)),
    reshape main_v60 main_v61 rfl shapeCasts_S2000000x1_S2000000,
    unary main_v10 main_v62 ((extractStridedSlice S2000000x1 ![0, 0] · slices_S2000000x3_S2000000x1_0_0) : (⟨S2000000x3, .f32⟩ : BufTy).Contents (Elt F) → (⟨S2000000x1, .f32⟩ : BufTy).Contents (Elt F)),
    reshape main_v62 main_v63 rfl shapeCasts_S2000000x1_S2000000,
    nullary main_cst_13 (constant S_ .f32 0x3F800000#32),
    unary main_cst_13 main_v64 (broadcastInDim S2000000 ![] bcast_S_S2000000 : (⟨S_, .f32⟩ : BufTy).Contents (Elt F) → (⟨S2000000, .f32⟩ : BufTy).Contents (Elt F)),
    binary main_v64 main_v63 main_v65 (subf : (⟨S2000000, .f32⟩ : BufTy).Contents (Elt F) → (⟨S2000000, .f32⟩ : BufTy).Contents (Elt F) → (⟨S2000000, .f32⟩ : BufTy).Contents (Elt F)),
    unary main_v10 main_v66 ((extractStridedSlice S2000000x1 ![0, 1] · slices_S2000000x3_S2000000x1_0_1) : (⟨S2000000x3, .f32⟩ : BufTy).Contents (Elt F) → (⟨S2000000x1, .f32⟩ : BufTy).Contents (Elt F)),
    reshape main_v66 main_v67 rfl shapeCasts_S2000000x1_S2000000,
    nullary main_cst_14 (constant S_ .f32 0x3F800000#32),
    unary main_cst_14 main_v68 (broadcastInDim S2000000 ![] bcast_S_S2000000 : (⟨S_, .f32⟩ : BufTy).Contents (Elt F) → (⟨S2000000, .f32⟩ : BufTy).Contents (Elt F)),
    binary main_v68 main_v67 main_v69 (subf : (⟨S2000000, .f32⟩ : BufTy).Contents (Elt F) → (⟨S2000000, .f32⟩ : BufTy).Contents (Elt F) → (⟨S2000000, .f32⟩ : BufTy).Contents (Elt F)),
    unary main_v10 main_v70 ((extractStridedSlice S2000000x1 ![0, 2] · slices_S2000000x3_S2000000x1_0_2) : (⟨S2000000x3, .f32⟩ : BufTy).Contents (Elt F) → (⟨S2000000x1, .f32⟩ : BufTy).Contents (Elt F)),
    reshape main_v70 main_v71 rfl shapeCasts_S2000000x1_S2000000,
    binary main_v65 main_v69 main_v72 (mulf : (⟨S2000000, .f32⟩ : BufTy).Contents (Elt F) → (⟨S2000000, .f32⟩ : BufTy).Contents (Elt F) → (⟨S2000000, .f32⟩ : BufTy).Contents (Elt F)),
    binary main_v72 main_v71 main_v73 (mulf : (⟨S2000000, .f32⟩ : BufTy).Contents (Elt F) → (⟨S2000000, .f32⟩ : BufTy).Contents (Elt F) → (⟨S2000000, .f32⟩ : BufTy).Contents (Elt F)),
    unary main_v73 main_v74 (broadcastInDim S2000000x1 ![0] bcast_S2000000_S2000000x1_0 : (⟨S2000000, .f32⟩ : BufTy).Contents (Elt F) → (⟨S2000000x1, .f32⟩ : BufTy).Contents (Elt F)),
    nullary main_c_15 (constantI S_ 32 0#32),
    unary main_c_15 main_v75 (broadcastInDim S2000000 ![] bcast_S_S2000000 : (⟨S_, .i32⟩ : BufTy).Contents (Elt F) → (⟨S2000000, .i32⟩ : BufTy).Contents (Elt F)),
    binary main_v57 main_v75 main_v76 (cmpi .slt : (⟨S2000000, .i32⟩ : BufTy).Contents (Elt F) → (⟨S2000000, .i32⟩ : BufTy).Contents (Elt F) → (⟨S2000000, .i1⟩ : BufTy).Contents (Elt F)),
    nullary main_c_16 (constantI S_ 32 128#32),
    unary main_c_16 main_v77 (broadcastInDim S2000000 ![] bcast_S_S2000000 : (⟨S_, .i32⟩ : BufTy).Contents (Elt F) → (⟨S2000000, .i32⟩ : BufTy).Contents (Elt F)),
    binary main_v57 main_v77 main_v78 (addi : (⟨S2000000, .i32⟩ : BufTy).Contents (Elt F) → (⟨S2000000, .i32⟩ : BufTy).Contents (Elt F) → (⟨S2000000, .i32⟩ : BufTy).Contents (Elt F)),
    ternary main_v76 main_v78 main_v57 main_v79 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_17 (constantI S_ 32 0#32),
    unary main_c_17 main_v80 (broadcastInDim S2000000 ![] bcast_S_S2000000 : (⟨S_, .i32⟩ : BufTy).Contents (Elt F) → (⟨S2000000, .i32⟩ : BufTy).Contents (Elt F)),
    binary main_v59 main_v80 main_v81 (cmpi .slt : (⟨S2000000, .i32⟩ : BufTy).Contents (Elt F) → (⟨S2000000, .i32⟩ : BufTy).Contents (Elt F) → (⟨S2000000, .i1⟩ : BufTy).Contents (Elt F)),
    nullary main_c_18 (constantI S_ 32 128#32),
    unary main_c_18 main_v82 (broadcastInDim S2000000 ![] bcast_S_S2000000 : (⟨S_, .i32⟩ : BufTy).Contents (Elt F) → (⟨S2000000, .i32⟩ : BufTy).Contents (Elt F)),
    binary main_v59 main_v82 main_v83 (addi : (⟨S2000000, .i32⟩ : BufTy).Contents (Elt F) → (⟨S2000000, .i32⟩ : BufTy).Contents (Elt F) → (⟨S2000000, .i32⟩ : BufTy).Contents (Elt F)),
    ternary main_v81 main_v83 main_v59 main_v84 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_19 (constantI S_ 32 0#32),
    unary main_c_19 main_v85 (broadcastInDim S2000000 ![] bcast_S_S2000000 : (⟨S_, .i32⟩ : BufTy).Contents (Elt F) → (⟨S2000000, .i32⟩ : BufTy).Contents (Elt F)),
    binary main_v61 main_v85 main_v86 (cmpi .slt : (⟨S2000000, .i32⟩ : BufTy).Contents (Elt F) → (⟨S2000000, .i32⟩ : BufTy).Contents (Elt F) → (⟨S2000000, .i1⟩ : BufTy).Contents (Elt F)),
    nullary main_c_20 (constantI S_ 32 128#32),
    unary main_c_20 main_v87 (broadcastInDim S2000000 ![] bcast_S_S2000000 : (⟨S_, .i32⟩ : BufTy).Contents (Elt F) → (⟨S2000000, .i32⟩ : BufTy).Contents (Elt F)),
    binary main_v61 main_v87 main_v88 (addi : (⟨S2000000, .i32⟩ : BufTy).Contents (Elt F) → (⟨S2000000, .i32⟩ : BufTy).Contents (Elt F) → (⟨S2000000, .i32⟩ : BufTy).Contents (Elt F)),
    ternary main_v86 main_v88 main_v61 main_v89 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v79 main_v90 (broadcastInDim S2000000x1 ![0] bcast_S2000000_S2000000x1_0 : (⟨S2000000, .i32⟩ : BufTy).Contents (Elt F) → (⟨S2000000x1, .i32⟩ : BufTy).Contents (Elt F)),
    unary main_v84 main_v91 (broadcastInDim S2000000x1 ![0] bcast_S2000000_S2000000x1_0 : (⟨S2000000, .i32⟩ : BufTy).Contents (Elt F) → (⟨S2000000x1, .i32⟩ : BufTy).Contents (Elt F)),
    unary main_v89 main_v92 (broadcastInDim S2000000x1 ![0] bcast_S2000000_S2000000x1_0 : (⟨S2000000, .i32⟩ : BufTy).Contents (Elt F) → (⟨S2000000x1, .i32⟩ : BufTy).Contents (Elt F)),
    nary ![main_v90, main_v91, main_v92] main_v93 (fun u => concatenate S2000000x3 1 [⟨S2000000x1, u 0⟩, ⟨S2000000x1, u 1⟩, ⟨S2000000x1, u 2⟩] concatenates_S2000000x1_S2000000x1_S2000000x1_S2000000x3_d1),
    binary main_arg1 main_v93 main_v94 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v74 main_v95 (broadcastInDim S2000000x4 ![0, 1] bcast_S2000000x1_S2000000x4_0_1 : (⟨S2000000x1, .f32⟩ : BufTy).Contents (Elt F) → (⟨S2000000x4, .f32⟩ : BufTy).Contents (Elt F)),
    binary main_v95 main_v94 main_v96 (mulf : (⟨S2000000x4, .f32⟩ : BufTy).Contents (Elt F) → (⟨S2000000x4, .f32⟩ : BufTy).Contents (Elt F) → (⟨S2000000x4, .f32⟩ : BufTy).Contents (Elt F)),
    binary main_v55 main_v96 main_v97 (addf : (⟨S2000000x4, .f32⟩ : BufTy).Contents (Elt F) → (⟨S2000000x4, .f32⟩ : BufTy).Contents (Elt F) → (⟨S2000000x4, .f32⟩ : BufTy).Contents (Elt F)) ]

/-- Corner `010`: its index and weight columns, the gather, the product, and the sum into the accumulator. -/
abbrev opsC2 : List (HloOp τ sig (Elt F)) :=
  [ unary main_v4 main_v98 ((extractStridedSlice S2000000x1 ![0, 0] · slices_S2000000x3_S2000000x1_0_0) : (⟨S2000000x3, .i32⟩ : BufTy).Contents (Elt F) → (⟨S2000000x1, .i32⟩ : BufTy).Contents (Elt F)),
    reshape main_v98 main_v99 rfl shapeCasts_S2000000x1_S2000000,
    unary main_v8 main_v100 ((extractStridedSlice S2000000x1 ![0, 1] · slices_S2000000x3_S2000000x1_0_1) : (⟨S2000000x3, .i32⟩ : BufTy).Contents (Elt F) → (⟨S2000000x1, .i32⟩ : BufTy).Contents (Elt F)),
    reshape main_v100 main_v101 rfl shapeCasts_S2000000x1_S2000000,
    unary main_v4 main_v102 ((extractStridedSlice S2000000x1 ![0, 2] · slices_S2000000x3_S2000000x1_0_2) : (⟨S2000000x3, .i32⟩ : BufTy).Contents (Elt F) → (⟨S2000000x1, .i32⟩ : BufTy).Contents (Elt F)),
    reshape main_v102 main_v103 rfl shapeCasts_S2000000x1_S2000000,
    unary main_v10 main_v104 ((extractStridedSlice S2000000x1 ![0, 0] · slices_S2000000x3_S2000000x1_0_0) : (⟨S2000000x3, .f32⟩ : BufTy).Contents (Elt F) → (⟨S2000000x1, .f32⟩ : BufTy).Contents (Elt F)),
    reshape main_v104 main_v105 rfl shapeCasts_S2000000x1_S2000000,
    nullary main_cst_21 (constant S_ .f32 0x3F800000#32),
    unary main_cst_21 main_v106 (broadcastInDim S2000000 ![] bcast_S_S2000000 : (⟨S_, .f32⟩ : BufTy).Contents (Elt F) → (⟨S2000000, .f32⟩ : BufTy).Contents (Elt F)),
    binary main_v106 main_v105 main_v107 (subf : (⟨S2000000, .f32⟩ : BufTy).Contents (Elt F) → (⟨S2000000, .f32⟩ : BufTy).Contents (Elt F) → (⟨S2000000, .f32⟩ : BufTy).Contents (Elt F)),
    unary main_v10 main_v108 ((extractStridedSlice S2000000x1 ![0, 1] · slices_S2000000x3_S2000000x1_0_1) : (⟨S2000000x3, .f32⟩ : BufTy).Contents (Elt F) → (⟨S2000000x1, .f32⟩ : BufTy).Contents (Elt F)),
    reshape main_v108 main_v109 rfl shapeCasts_S2000000x1_S2000000,
    unary main_v10 main_v110 ((extractStridedSlice S2000000x1 ![0, 2] · slices_S2000000x3_S2000000x1_0_2) : (⟨S2000000x3, .f32⟩ : BufTy).Contents (Elt F) → (⟨S2000000x1, .f32⟩ : BufTy).Contents (Elt F)),
    reshape main_v110 main_v111 rfl shapeCasts_S2000000x1_S2000000,
    nullary main_cst_22 (constant S_ .f32 0x3F800000#32),
    unary main_cst_22 main_v112 (broadcastInDim S2000000 ![] bcast_S_S2000000 : (⟨S_, .f32⟩ : BufTy).Contents (Elt F) → (⟨S2000000, .f32⟩ : BufTy).Contents (Elt F)),
    binary main_v112 main_v111 main_v113 (subf : (⟨S2000000, .f32⟩ : BufTy).Contents (Elt F) → (⟨S2000000, .f32⟩ : BufTy).Contents (Elt F) → (⟨S2000000, .f32⟩ : BufTy).Contents (Elt F)),
    binary main_v107 main_v109 main_v114 (mulf : (⟨S2000000, .f32⟩ : BufTy).Contents (Elt F) → (⟨S2000000, .f32⟩ : BufTy).Contents (Elt F) → (⟨S2000000, .f32⟩ : BufTy).Contents (Elt F)),
    binary main_v114 main_v113 main_v115 (mulf : (⟨S2000000, .f32⟩ : BufTy).Contents (Elt F) → (⟨S2000000, .f32⟩ : BufTy).Contents (Elt F) → (⟨S2000000, .f32⟩ : BufTy).Contents (Elt F)),
    unary main_v115 main_v116 (broadcastInDim S2000000x1 ![0] bcast_S2000000_S2000000x1_0 : (⟨S2000000, .f32⟩ : BufTy).Contents (Elt F) → (⟨S2000000x1, .f32⟩ : BufTy).Contents (Elt F)),
    nullary main_c_23 (constantI S_ 32 0#32),
    unary main_c_23 main_v117 (broadcastInDim S2000000 ![] bcast_S_S2000000 : (⟨S_, .i32⟩ : BufTy).Contents (Elt F) → (⟨S2000000, .i32⟩ : BufTy).Contents (Elt F)),
    binary main_v99 main_v117 main_v118 (cmpi .slt : (⟨S2000000, .i32⟩ : BufTy).Contents (Elt F) → (⟨S2000000, .i32⟩ : BufTy).Contents (Elt F) → (⟨S2000000, .i1⟩ : BufTy).Contents (Elt F)),
    nullary main_c_24 (constantI S_ 32 128#32),
    unary main_c_24 main_v119 (broadcastInDim S2000000 ![] bcast_S_S2000000 : (⟨S_, .i32⟩ : BufTy).Contents (Elt F) → (⟨S2000000, .i32⟩ : BufTy).Contents (Elt F)),
    binary main_v99 main_v119 main_v120 (addi : (⟨S2000000, .i32⟩ : BufTy).Contents (Elt F) → (⟨S2000000, .i32⟩ : BufTy).Contents (Elt F) → (⟨S2000000, .i32⟩ : BufTy).Contents (Elt F)),
    ternary main_v118 main_v120 main_v99 main_v121 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_25 (constantI S_ 32 0#32),
    unary main_c_25 main_v122 (broadcastInDim S2000000 ![] bcast_S_S2000000 : (⟨S_, .i32⟩ : BufTy).Contents (Elt F) → (⟨S2000000, .i32⟩ : BufTy).Contents (Elt F)),
    binary main_v101 main_v122 main_v123 (cmpi .slt : (⟨S2000000, .i32⟩ : BufTy).Contents (Elt F) → (⟨S2000000, .i32⟩ : BufTy).Contents (Elt F) → (⟨S2000000, .i1⟩ : BufTy).Contents (Elt F)),
    nullary main_c_26 (constantI S_ 32 128#32),
    unary main_c_26 main_v124 (broadcastInDim S2000000 ![] bcast_S_S2000000 : (⟨S_, .i32⟩ : BufTy).Contents (Elt F) → (⟨S2000000, .i32⟩ : BufTy).Contents (Elt F)),
    binary main_v101 main_v124 main_v125 (addi : (⟨S2000000, .i32⟩ : BufTy).Contents (Elt F) → (⟨S2000000, .i32⟩ : BufTy).Contents (Elt F) → (⟨S2000000, .i32⟩ : BufTy).Contents (Elt F)),
    ternary main_v123 main_v125 main_v101 main_v126 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_27 (constantI S_ 32 0#32),
    unary main_c_27 main_v127 (broadcastInDim S2000000 ![] bcast_S_S2000000 : (⟨S_, .i32⟩ : BufTy).Contents (Elt F) → (⟨S2000000, .i32⟩ : BufTy).Contents (Elt F)),
    binary main_v103 main_v127 main_v128 (cmpi .slt : (⟨S2000000, .i32⟩ : BufTy).Contents (Elt F) → (⟨S2000000, .i32⟩ : BufTy).Contents (Elt F) → (⟨S2000000, .i1⟩ : BufTy).Contents (Elt F)),
    nullary main_c_28 (constantI S_ 32 128#32),
    unary main_c_28 main_v129 (broadcastInDim S2000000 ![] bcast_S_S2000000 : (⟨S_, .i32⟩ : BufTy).Contents (Elt F) → (⟨S2000000, .i32⟩ : BufTy).Contents (Elt F)),
    binary main_v103 main_v129 main_v130 (addi : (⟨S2000000, .i32⟩ : BufTy).Contents (Elt F) → (⟨S2000000, .i32⟩ : BufTy).Contents (Elt F) → (⟨S2000000, .i32⟩ : BufTy).Contents (Elt F)),
    ternary main_v128 main_v130 main_v103 main_v131 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v121 main_v132 (broadcastInDim S2000000x1 ![0] bcast_S2000000_S2000000x1_0 : (⟨S2000000, .i32⟩ : BufTy).Contents (Elt F) → (⟨S2000000x1, .i32⟩ : BufTy).Contents (Elt F)),
    unary main_v126 main_v133 (broadcastInDim S2000000x1 ![0] bcast_S2000000_S2000000x1_0 : (⟨S2000000, .i32⟩ : BufTy).Contents (Elt F) → (⟨S2000000x1, .i32⟩ : BufTy).Contents (Elt F)),
    unary main_v131 main_v134 (broadcastInDim S2000000x1 ![0] bcast_S2000000_S2000000x1_0 : (⟨S2000000, .i32⟩ : BufTy).Contents (Elt F) → (⟨S2000000x1, .i32⟩ : BufTy).Contents (Elt F)),
    nary ![main_v132, main_v133, main_v134] main_v135 (fun u => concatenate S2000000x3 1 [⟨S2000000x1, u 0⟩, ⟨S2000000x1, u 1⟩, ⟨S2000000x1, u 2⟩] concatenates_S2000000x1_S2000000x1_S2000000x1_S2000000x3_d1),
    binary main_arg1 main_v135 main_v136 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v116 main_v137 (broadcastInDim S2000000x4 ![0, 1] bcast_S2000000x1_S2000000x4_0_1 : (⟨S2000000x1, .f32⟩ : BufTy).Contents (Elt F) → (⟨S2000000x4, .f32⟩ : BufTy).Contents (Elt F)),
    binary main_v137 main_v136 main_v138 (mulf : (⟨S2000000x4, .f32⟩ : BufTy).Contents (Elt F) → (⟨S2000000x4, .f32⟩ : BufTy).Contents (Elt F) → (⟨S2000000x4, .f32⟩ : BufTy).Contents (Elt F)),
    binary main_v97 main_v138 main_v139 (addf : (⟨S2000000x4, .f32⟩ : BufTy).Contents (Elt F) → (⟨S2000000x4, .f32⟩ : BufTy).Contents (Elt F) → (⟨S2000000x4, .f32⟩ : BufTy).Contents (Elt F)) ]

/-- Corner `011`: its index and weight columns, the gather, the product, and the sum into the accumulator. -/
abbrev opsC3 : List (HloOp τ sig (Elt F)) :=
  [ unary main_v4 main_v140 ((extractStridedSlice S2000000x1 ![0, 0] · slices_S2000000x3_S2000000x1_0_0) : (⟨S2000000x3, .i32⟩ : BufTy).Contents (Elt F) → (⟨S2000000x1, .i32⟩ : BufTy).Contents (Elt F)),
    reshape main_v140 main_v141 rfl shapeCasts_S2000000x1_S2000000,
    unary main_v8 main_v142 ((extractStridedSlice S2000000x1 ![0, 1] · slices_S2000000x3_S2000000x1_0_1) : (⟨S2000000x3, .i32⟩ : BufTy).Contents (Elt F) → (⟨S2000000x1, .i32⟩ : BufTy).Contents (Elt F)),
    reshape main_v142 main_v143 rfl shapeCasts_S2000000x1_S2000000,
    unary main_v8 main_v144 ((extractStridedSlice S2000000x1 ![0, 2] · slices_S2000000x3_S2000000x1_0_2) : (⟨S2000000x3, .i32⟩ : BufTy).Contents (Elt F) → (⟨S2000000x1, .i32⟩ : BufTy).Contents (Elt F)),
    reshape main_v144 main_v145 rfl shapeCasts_S2000000x1_S2000000,
    unary main_v10 main_v146 ((extractStridedSlice S2000000x1 ![0, 0] · slices_S2000000x3_S2000000x1_0_0) : (⟨S2000000x3, .f32⟩ : BufTy).Contents (Elt F) → (⟨S2000000x1, .f32⟩ : BufTy).Contents (Elt F)),
    reshape main_v146 main_v147 rfl shapeCasts_S2000000x1_S2000000,
    nullary main_cst_29 (constant S_ .f32 0x3F800000#32),
    unary main_cst_29 main_v148 (broadcastInDim S2000000 ![] bcast_S_S2000000 : (⟨S_, .f32⟩ : BufTy).Contents (Elt F) → (⟨S2000000, .f32⟩ : BufTy).Contents (Elt F)),
    binary main_v148 main_v147 main_v149 (subf : (⟨S2000000, .f32⟩ : BufTy).Contents (Elt F) → (⟨S2000000, .f32⟩ : BufTy).Contents (Elt F) → (⟨S2000000, .f32⟩ : BufTy).Contents (Elt F)),
    unary main_v10 main_v150 ((extractStridedSlice S2000000x1 ![0, 1] · slices_S2000000x3_S2000000x1_0_1) : (⟨S2000000x3, .f32⟩ : BufTy).Contents (Elt F) → (⟨S2000000x1, .f32⟩ : BufTy).Contents (Elt F)),
    reshape main_v150 main_v151 rfl shapeCasts_S2000000x1_S2000000,
    unary main_v10 main_v152 ((extractStridedSlice S2000000x1 ![0, 2] · slices_S2000000x3_S2000000x1_0_2) : (⟨S2000000x3, .f32⟩ : BufTy).Contents (Elt F) → (⟨S2000000x1, .f32⟩ : BufTy).Contents (Elt F)),
    reshape main_v152 main_v153 rfl shapeCasts_S2000000x1_S2000000,
    binary main_v149 main_v151 main_v154 (mulf : (⟨S2000000, .f32⟩ : BufTy).Contents (Elt F) → (⟨S2000000, .f32⟩ : BufTy).Contents (Elt F) → (⟨S2000000, .f32⟩ : BufTy).Contents (Elt F)),
    binary main_v154 main_v153 main_v155 (mulf : (⟨S2000000, .f32⟩ : BufTy).Contents (Elt F) → (⟨S2000000, .f32⟩ : BufTy).Contents (Elt F) → (⟨S2000000, .f32⟩ : BufTy).Contents (Elt F)),
    unary main_v155 main_v156 (broadcastInDim S2000000x1 ![0] bcast_S2000000_S2000000x1_0 : (⟨S2000000, .f32⟩ : BufTy).Contents (Elt F) → (⟨S2000000x1, .f32⟩ : BufTy).Contents (Elt F)),
    nullary main_c_30 (constantI S_ 32 0#32),
    unary main_c_30 main_v157 (broadcastInDim S2000000 ![] bcast_S_S2000000 : (⟨S_, .i32⟩ : BufTy).Contents (Elt F) → (⟨S2000000, .i32⟩ : BufTy).Contents (Elt F)),
    binary main_v141 main_v157 main_v158 (cmpi .slt : (⟨S2000000, .i32⟩ : BufTy).Contents (Elt F) → (⟨S2000000, .i32⟩ : BufTy).Contents (Elt F) → (⟨S2000000, .i1⟩ : BufTy).Contents (Elt F)),
    nullary main_c_31 (constantI S_ 32 128#32),
    unary main_c_31 main_v159 (broadcastInDim S2000000 ![] bcast_S_S2000000 : (⟨S_, .i32⟩ : BufTy).Contents (Elt F) → (⟨S2000000, .i32⟩ : BufTy).Contents (Elt F)),
    binary main_v141 main_v159 main_v160 (addi : (⟨S2000000, .i32⟩ : BufTy).Contents (Elt F) → (⟨S2000000, .i32⟩ : BufTy).Contents (Elt F) → (⟨S2000000, .i32⟩ : BufTy).Contents (Elt F)),
    ternary main_v158 main_v160 main_v141 main_v161 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_32 (constantI S_ 32 0#32),
    unary main_c_32 main_v162 (broadcastInDim S2000000 ![] bcast_S_S2000000 : (⟨S_, .i32⟩ : BufTy).Contents (Elt F) → (⟨S2000000, .i32⟩ : BufTy).Contents (Elt F)),
    binary main_v143 main_v162 main_v163 (cmpi .slt : (⟨S2000000, .i32⟩ : BufTy).Contents (Elt F) → (⟨S2000000, .i32⟩ : BufTy).Contents (Elt F) → (⟨S2000000, .i1⟩ : BufTy).Contents (Elt F)),
    nullary main_c_33 (constantI S_ 32 128#32),
    unary main_c_33 main_v164 (broadcastInDim S2000000 ![] bcast_S_S2000000 : (⟨S_, .i32⟩ : BufTy).Contents (Elt F) → (⟨S2000000, .i32⟩ : BufTy).Contents (Elt F)),
    binary main_v143 main_v164 main_v165 (addi : (⟨S2000000, .i32⟩ : BufTy).Contents (Elt F) → (⟨S2000000, .i32⟩ : BufTy).Contents (Elt F) → (⟨S2000000, .i32⟩ : BufTy).Contents (Elt F)),
    ternary main_v163 main_v165 main_v143 main_v166 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_34 (constantI S_ 32 0#32),
    unary main_c_34 main_v167 (broadcastInDim S2000000 ![] bcast_S_S2000000 : (⟨S_, .i32⟩ : BufTy).Contents (Elt F) → (⟨S2000000, .i32⟩ : BufTy).Contents (Elt F)),
    binary main_v145 main_v167 main_v168 (cmpi .slt : (⟨S2000000, .i32⟩ : BufTy).Contents (Elt F) → (⟨S2000000, .i32⟩ : BufTy).Contents (Elt F) → (⟨S2000000, .i1⟩ : BufTy).Contents (Elt F)),
    nullary main_c_35 (constantI S_ 32 128#32),
    unary main_c_35 main_v169 (broadcastInDim S2000000 ![] bcast_S_S2000000 : (⟨S_, .i32⟩ : BufTy).Contents (Elt F) → (⟨S2000000, .i32⟩ : BufTy).Contents (Elt F)),
    binary main_v145 main_v169 main_v170 (addi : (⟨S2000000, .i32⟩ : BufTy).Contents (Elt F) → (⟨S2000000, .i32⟩ : BufTy).Contents (Elt F) → (⟨S2000000, .i32⟩ : BufTy).Contents (Elt F)),
    ternary main_v168 main_v170 main_v145 main_v171 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v161 main_v172 (broadcastInDim S2000000x1 ![0] bcast_S2000000_S2000000x1_0 : (⟨S2000000, .i32⟩ : BufTy).Contents (Elt F) → (⟨S2000000x1, .i32⟩ : BufTy).Contents (Elt F)),
    unary main_v166 main_v173 (broadcastInDim S2000000x1 ![0] bcast_S2000000_S2000000x1_0 : (⟨S2000000, .i32⟩ : BufTy).Contents (Elt F) → (⟨S2000000x1, .i32⟩ : BufTy).Contents (Elt F)),
    unary main_v171 main_v174 (broadcastInDim S2000000x1 ![0] bcast_S2000000_S2000000x1_0 : (⟨S2000000, .i32⟩ : BufTy).Contents (Elt F) → (⟨S2000000x1, .i32⟩ : BufTy).Contents (Elt F)),
    nary ![main_v172, main_v173, main_v174] main_v175 (fun u => concatenate S2000000x3 1 [⟨S2000000x1, u 0⟩, ⟨S2000000x1, u 1⟩, ⟨S2000000x1, u 2⟩] concatenates_S2000000x1_S2000000x1_S2000000x1_S2000000x3_d1),
    binary main_arg1 main_v175 main_v176 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v156 main_v177 (broadcastInDim S2000000x4 ![0, 1] bcast_S2000000x1_S2000000x4_0_1 : (⟨S2000000x1, .f32⟩ : BufTy).Contents (Elt F) → (⟨S2000000x4, .f32⟩ : BufTy).Contents (Elt F)),
    binary main_v177 main_v176 main_v178 (mulf : (⟨S2000000x4, .f32⟩ : BufTy).Contents (Elt F) → (⟨S2000000x4, .f32⟩ : BufTy).Contents (Elt F) → (⟨S2000000x4, .f32⟩ : BufTy).Contents (Elt F)),
    binary main_v139 main_v178 main_v179 (addf : (⟨S2000000x4, .f32⟩ : BufTy).Contents (Elt F) → (⟨S2000000x4, .f32⟩ : BufTy).Contents (Elt F) → (⟨S2000000x4, .f32⟩ : BufTy).Contents (Elt F)) ]

/-- Corner `100`: its index and weight columns, the gather, the product, and the sum into the accumulator. -/
abbrev opsC4 : List (HloOp τ sig (Elt F)) :=
  [ unary main_v8 main_v180 ((extractStridedSlice S2000000x1 ![0, 0] · slices_S2000000x3_S2000000x1_0_0) : (⟨S2000000x3, .i32⟩ : BufTy).Contents (Elt F) → (⟨S2000000x1, .i32⟩ : BufTy).Contents (Elt F)),
    reshape main_v180 main_v181 rfl shapeCasts_S2000000x1_S2000000,
    unary main_v4 main_v182 ((extractStridedSlice S2000000x1 ![0, 1] · slices_S2000000x3_S2000000x1_0_1) : (⟨S2000000x3, .i32⟩ : BufTy).Contents (Elt F) → (⟨S2000000x1, .i32⟩ : BufTy).Contents (Elt F)),
    reshape main_v182 main_v183 rfl shapeCasts_S2000000x1_S2000000,
    unary main_v4 main_v184 ((extractStridedSlice S2000000x1 ![0, 2] · slices_S2000000x3_S2000000x1_0_2) : (⟨S2000000x3, .i32⟩ : BufTy).Contents (Elt F) → (⟨S2000000x1, .i32⟩ : BufTy).Contents (Elt F)),
    reshape main_v184 main_v185 rfl shapeCasts_S2000000x1_S2000000,
    unary main_v10 main_v186 ((extractStridedSlice S2000000x1 ![0, 0] · slices_S2000000x3_S2000000x1_0_0) : (⟨S2000000x3, .f32⟩ : BufTy).Contents (Elt F) → (⟨S2000000x1, .f32⟩ : BufTy).Contents (Elt F)),
    reshape main_v186 main_v187 rfl shapeCasts_S2000000x1_S2000000,
    unary main_v10 main_v188 ((extractStridedSlice S2000000x1 ![0, 1] · slices_S2000000x3_S2000000x1_0_1) : (⟨S2000000x3, .f32⟩ : BufTy).Contents (Elt F) → (⟨S2000000x1, .f32⟩ : BufTy).Contents (Elt F)),
    reshape main_v188 main_v189 rfl shapeCasts_S2000000x1_S2000000,
    nullary main_cst_36 (constant S_ .f32 0x3F800000#32),
    unary main_cst_36 main_v190 (broadcastInDim S2000000 ![] bcast_S_S2000000 : (⟨S_, .f32⟩ : BufTy).Contents (Elt F) → (⟨S2000000, .f32⟩ : BufTy).Contents (Elt F)),
    binary main_v190 main_v189 main_v191 (subf : (⟨S2000000, .f32⟩ : BufTy).Contents (Elt F) → (⟨S2000000, .f32⟩ : BufTy).Contents (Elt F) → (⟨S2000000, .f32⟩ : BufTy).Contents (Elt F)),
    unary main_v10 main_v192 ((extractStridedSlice S2000000x1 ![0, 2] · slices_S2000000x3_S2000000x1_0_2) : (⟨S2000000x3, .f32⟩ : BufTy).Contents (Elt F) → (⟨S2000000x1, .f32⟩ : BufTy).Contents (Elt F)),
    reshape main_v192 main_v193 rfl shapeCasts_S2000000x1_S2000000,
    nullary main_cst_37 (constant S_ .f32 0x3F800000#32),
    unary main_cst_37 main_v194 (broadcastInDim S2000000 ![] bcast_S_S2000000 : (⟨S_, .f32⟩ : BufTy).Contents (Elt F) → (⟨S2000000, .f32⟩ : BufTy).Contents (Elt F)),
    binary main_v194 main_v193 main_v195 (subf : (⟨S2000000, .f32⟩ : BufTy).Contents (Elt F) → (⟨S2000000, .f32⟩ : BufTy).Contents (Elt F) → (⟨S2000000, .f32⟩ : BufTy).Contents (Elt F)),
    binary main_v187 main_v191 main_v196 (mulf : (⟨S2000000, .f32⟩ : BufTy).Contents (Elt F) → (⟨S2000000, .f32⟩ : BufTy).Contents (Elt F) → (⟨S2000000, .f32⟩ : BufTy).Contents (Elt F)),
    binary main_v196 main_v195 main_v197 (mulf : (⟨S2000000, .f32⟩ : BufTy).Contents (Elt F) → (⟨S2000000, .f32⟩ : BufTy).Contents (Elt F) → (⟨S2000000, .f32⟩ : BufTy).Contents (Elt F)),
    unary main_v197 main_v198 (broadcastInDim S2000000x1 ![0] bcast_S2000000_S2000000x1_0 : (⟨S2000000, .f32⟩ : BufTy).Contents (Elt F) → (⟨S2000000x1, .f32⟩ : BufTy).Contents (Elt F)),
    nullary main_c_38 (constantI S_ 32 0#32),
    unary main_c_38 main_v199 (broadcastInDim S2000000 ![] bcast_S_S2000000 : (⟨S_, .i32⟩ : BufTy).Contents (Elt F) → (⟨S2000000, .i32⟩ : BufTy).Contents (Elt F)),
    binary main_v181 main_v199 main_v200 (cmpi .slt : (⟨S2000000, .i32⟩ : BufTy).Contents (Elt F) → (⟨S2000000, .i32⟩ : BufTy).Contents (Elt F) → (⟨S2000000, .i1⟩ : BufTy).Contents (Elt F)),
    nullary main_c_39 (constantI S_ 32 128#32),
    unary main_c_39 main_v201 (broadcastInDim S2000000 ![] bcast_S_S2000000 : (⟨S_, .i32⟩ : BufTy).Contents (Elt F) → (⟨S2000000, .i32⟩ : BufTy).Contents (Elt F)),
    binary main_v181 main_v201 main_v202 (addi : (⟨S2000000, .i32⟩ : BufTy).Contents (Elt F) → (⟨S2000000, .i32⟩ : BufTy).Contents (Elt F) → (⟨S2000000, .i32⟩ : BufTy).Contents (Elt F)),
    ternary main_v200 main_v202 main_v181 main_v203 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_40 (constantI S_ 32 0#32),
    unary main_c_40 main_v204 (broadcastInDim S2000000 ![] bcast_S_S2000000 : (⟨S_, .i32⟩ : BufTy).Contents (Elt F) → (⟨S2000000, .i32⟩ : BufTy).Contents (Elt F)),
    binary main_v183 main_v204 main_v205 (cmpi .slt : (⟨S2000000, .i32⟩ : BufTy).Contents (Elt F) → (⟨S2000000, .i32⟩ : BufTy).Contents (Elt F) → (⟨S2000000, .i1⟩ : BufTy).Contents (Elt F)),
    nullary main_c_41 (constantI S_ 32 128#32),
    unary main_c_41 main_v206 (broadcastInDim S2000000 ![] bcast_S_S2000000 : (⟨S_, .i32⟩ : BufTy).Contents (Elt F) → (⟨S2000000, .i32⟩ : BufTy).Contents (Elt F)),
    binary main_v183 main_v206 main_v207 (addi : (⟨S2000000, .i32⟩ : BufTy).Contents (Elt F) → (⟨S2000000, .i32⟩ : BufTy).Contents (Elt F) → (⟨S2000000, .i32⟩ : BufTy).Contents (Elt F)),
    ternary main_v205 main_v207 main_v183 main_v208 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_42 (constantI S_ 32 0#32),
    unary main_c_42 main_v209 (broadcastInDim S2000000 ![] bcast_S_S2000000 : (⟨S_, .i32⟩ : BufTy).Contents (Elt F) → (⟨S2000000, .i32⟩ : BufTy).Contents (Elt F)),
    binary main_v185 main_v209 main_v210 (cmpi .slt : (⟨S2000000, .i32⟩ : BufTy).Contents (Elt F) → (⟨S2000000, .i32⟩ : BufTy).Contents (Elt F) → (⟨S2000000, .i1⟩ : BufTy).Contents (Elt F)),
    nullary main_c_43 (constantI S_ 32 128#32),
    unary main_c_43 main_v211 (broadcastInDim S2000000 ![] bcast_S_S2000000 : (⟨S_, .i32⟩ : BufTy).Contents (Elt F) → (⟨S2000000, .i32⟩ : BufTy).Contents (Elt F)),
    binary main_v185 main_v211 main_v212 (addi : (⟨S2000000, .i32⟩ : BufTy).Contents (Elt F) → (⟨S2000000, .i32⟩ : BufTy).Contents (Elt F) → (⟨S2000000, .i32⟩ : BufTy).Contents (Elt F)),
    ternary main_v210 main_v212 main_v185 main_v213 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v203 main_v214 (broadcastInDim S2000000x1 ![0] bcast_S2000000_S2000000x1_0 : (⟨S2000000, .i32⟩ : BufTy).Contents (Elt F) → (⟨S2000000x1, .i32⟩ : BufTy).Contents (Elt F)),
    unary main_v208 main_v215 (broadcastInDim S2000000x1 ![0] bcast_S2000000_S2000000x1_0 : (⟨S2000000, .i32⟩ : BufTy).Contents (Elt F) → (⟨S2000000x1, .i32⟩ : BufTy).Contents (Elt F)),
    unary main_v213 main_v216 (broadcastInDim S2000000x1 ![0] bcast_S2000000_S2000000x1_0 : (⟨S2000000, .i32⟩ : BufTy).Contents (Elt F) → (⟨S2000000x1, .i32⟩ : BufTy).Contents (Elt F)),
    nary ![main_v214, main_v215, main_v216] main_v217 (fun u => concatenate S2000000x3 1 [⟨S2000000x1, u 0⟩, ⟨S2000000x1, u 1⟩, ⟨S2000000x1, u 2⟩] concatenates_S2000000x1_S2000000x1_S2000000x1_S2000000x3_d1),
    binary main_arg1 main_v217 main_v218 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v198 main_v219 (broadcastInDim S2000000x4 ![0, 1] bcast_S2000000x1_S2000000x4_0_1 : (⟨S2000000x1, .f32⟩ : BufTy).Contents (Elt F) → (⟨S2000000x4, .f32⟩ : BufTy).Contents (Elt F)),
    binary main_v219 main_v218 main_v220 (mulf : (⟨S2000000x4, .f32⟩ : BufTy).Contents (Elt F) → (⟨S2000000x4, .f32⟩ : BufTy).Contents (Elt F) → (⟨S2000000x4, .f32⟩ : BufTy).Contents (Elt F)),
    binary main_v179 main_v220 main_v221 (addf : (⟨S2000000x4, .f32⟩ : BufTy).Contents (Elt F) → (⟨S2000000x4, .f32⟩ : BufTy).Contents (Elt F) → (⟨S2000000x4, .f32⟩ : BufTy).Contents (Elt F)) ]

/-- Corner `101`: its index and weight columns, the gather, the product, and the sum into the accumulator. -/
abbrev opsC5 : List (HloOp τ sig (Elt F)) :=
  [ unary main_v8 main_v222 ((extractStridedSlice S2000000x1 ![0, 0] · slices_S2000000x3_S2000000x1_0_0) : (⟨S2000000x3, .i32⟩ : BufTy).Contents (Elt F) → (⟨S2000000x1, .i32⟩ : BufTy).Contents (Elt F)),
    reshape main_v222 main_v223 rfl shapeCasts_S2000000x1_S2000000,
    unary main_v4 main_v224 ((extractStridedSlice S2000000x1 ![0, 1] · slices_S2000000x3_S2000000x1_0_1) : (⟨S2000000x3, .i32⟩ : BufTy).Contents (Elt F) → (⟨S2000000x1, .i32⟩ : BufTy).Contents (Elt F)),
    reshape main_v224 main_v225 rfl shapeCasts_S2000000x1_S2000000,
    unary main_v8 main_v226 ((extractStridedSlice S2000000x1 ![0, 2] · slices_S2000000x3_S2000000x1_0_2) : (⟨S2000000x3, .i32⟩ : BufTy).Contents (Elt F) → (⟨S2000000x1, .i32⟩ : BufTy).Contents (Elt F)),
    reshape main_v226 main_v227 rfl shapeCasts_S2000000x1_S2000000,
    unary main_v10 main_v228 ((extractStridedSlice S2000000x1 ![0, 0] · slices_S2000000x3_S2000000x1_0_0) : (⟨S2000000x3, .f32⟩ : BufTy).Contents (Elt F) → (⟨S2000000x1, .f32⟩ : BufTy).Contents (Elt F)),
    reshape main_v228 main_v229 rfl shapeCasts_S2000000x1_S2000000,
    unary main_v10 main_v230 ((extractStridedSlice S2000000x1 ![0, 1] · slices_S2000000x3_S2000000x1_0_1) : (⟨S2000000x3, .f32⟩ : BufTy).Contents (Elt F) → (⟨S2000000x1, .f32⟩ : BufTy).Contents (Elt F)),
    reshape main_v230 main_v231 rfl shapeCasts_S2000000x1_S2000000,
    nullary main_cst_44 (constant S_ .f32 0x3F800000#32),
    unary main_cst_44 main_v232 (broadcastInDim S2000000 ![] bcast_S_S2000000 : (⟨S_, .f32⟩ : BufTy).Contents (Elt F) → (⟨S2000000, .f32⟩ : BufTy).Contents (Elt F)),
    binary main_v232 main_v231 main_v233 (subf : (⟨S2000000, .f32⟩ : BufTy).Contents (Elt F) → (⟨S2000000, .f32⟩ : BufTy).Contents (Elt F) → (⟨S2000000, .f32⟩ : BufTy).Contents (Elt F)),
    unary main_v10 main_v234 ((extractStridedSlice S2000000x1 ![0, 2] · slices_S2000000x3_S2000000x1_0_2) : (⟨S2000000x3, .f32⟩ : BufTy).Contents (Elt F) → (⟨S2000000x1, .f32⟩ : BufTy).Contents (Elt F)),
    reshape main_v234 main_v235 rfl shapeCasts_S2000000x1_S2000000,
    binary main_v229 main_v233 main_v236 (mulf : (⟨S2000000, .f32⟩ : BufTy).Contents (Elt F) → (⟨S2000000, .f32⟩ : BufTy).Contents (Elt F) → (⟨S2000000, .f32⟩ : BufTy).Contents (Elt F)),
    binary main_v236 main_v235 main_v237 (mulf : (⟨S2000000, .f32⟩ : BufTy).Contents (Elt F) → (⟨S2000000, .f32⟩ : BufTy).Contents (Elt F) → (⟨S2000000, .f32⟩ : BufTy).Contents (Elt F)),
    unary main_v237 main_v238 (broadcastInDim S2000000x1 ![0] bcast_S2000000_S2000000x1_0 : (⟨S2000000, .f32⟩ : BufTy).Contents (Elt F) → (⟨S2000000x1, .f32⟩ : BufTy).Contents (Elt F)),
    nullary main_c_45 (constantI S_ 32 0#32),
    unary main_c_45 main_v239 (broadcastInDim S2000000 ![] bcast_S_S2000000 : (⟨S_, .i32⟩ : BufTy).Contents (Elt F) → (⟨S2000000, .i32⟩ : BufTy).Contents (Elt F)),
    binary main_v223 main_v239 main_v240 (cmpi .slt : (⟨S2000000, .i32⟩ : BufTy).Contents (Elt F) → (⟨S2000000, .i32⟩ : BufTy).Contents (Elt F) → (⟨S2000000, .i1⟩ : BufTy).Contents (Elt F)),
    nullary main_c_46 (constantI S_ 32 128#32),
    unary main_c_46 main_v241 (broadcastInDim S2000000 ![] bcast_S_S2000000 : (⟨S_, .i32⟩ : BufTy).Contents (Elt F) → (⟨S2000000, .i32⟩ : BufTy).Contents (Elt F)),
    binary main_v223 main_v241 main_v242 (addi : (⟨S2000000, .i32⟩ : BufTy).Contents (Elt F) → (⟨S2000000, .i32⟩ : BufTy).Contents (Elt F) → (⟨S2000000, .i32⟩ : BufTy).Contents (Elt F)),
    ternary main_v240 main_v242 main_v223 main_v243 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_47 (constantI S_ 32 0#32),
    unary main_c_47 main_v244 (broadcastInDim S2000000 ![] bcast_S_S2000000 : (⟨S_, .i32⟩ : BufTy).Contents (Elt F) → (⟨S2000000, .i32⟩ : BufTy).Contents (Elt F)),
    binary main_v225 main_v244 main_v245 (cmpi .slt : (⟨S2000000, .i32⟩ : BufTy).Contents (Elt F) → (⟨S2000000, .i32⟩ : BufTy).Contents (Elt F) → (⟨S2000000, .i1⟩ : BufTy).Contents (Elt F)),
    nullary main_c_48 (constantI S_ 32 128#32),
    unary main_c_48 main_v246 (broadcastInDim S2000000 ![] bcast_S_S2000000 : (⟨S_, .i32⟩ : BufTy).Contents (Elt F) → (⟨S2000000, .i32⟩ : BufTy).Contents (Elt F)),
    binary main_v225 main_v246 main_v247 (addi : (⟨S2000000, .i32⟩ : BufTy).Contents (Elt F) → (⟨S2000000, .i32⟩ : BufTy).Contents (Elt F) → (⟨S2000000, .i32⟩ : BufTy).Contents (Elt F)),
    ternary main_v245 main_v247 main_v225 main_v248 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_49 (constantI S_ 32 0#32),
    unary main_c_49 main_v249 (broadcastInDim S2000000 ![] bcast_S_S2000000 : (⟨S_, .i32⟩ : BufTy).Contents (Elt F) → (⟨S2000000, .i32⟩ : BufTy).Contents (Elt F)),
    binary main_v227 main_v249 main_v250 (cmpi .slt : (⟨S2000000, .i32⟩ : BufTy).Contents (Elt F) → (⟨S2000000, .i32⟩ : BufTy).Contents (Elt F) → (⟨S2000000, .i1⟩ : BufTy).Contents (Elt F)),
    nullary main_c_50 (constantI S_ 32 128#32),
    unary main_c_50 main_v251 (broadcastInDim S2000000 ![] bcast_S_S2000000 : (⟨S_, .i32⟩ : BufTy).Contents (Elt F) → (⟨S2000000, .i32⟩ : BufTy).Contents (Elt F)),
    binary main_v227 main_v251 main_v252 (addi : (⟨S2000000, .i32⟩ : BufTy).Contents (Elt F) → (⟨S2000000, .i32⟩ : BufTy).Contents (Elt F) → (⟨S2000000, .i32⟩ : BufTy).Contents (Elt F)),
    ternary main_v250 main_v252 main_v227 main_v253 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v243 main_v254 (broadcastInDim S2000000x1 ![0] bcast_S2000000_S2000000x1_0 : (⟨S2000000, .i32⟩ : BufTy).Contents (Elt F) → (⟨S2000000x1, .i32⟩ : BufTy).Contents (Elt F)),
    unary main_v248 main_v255 (broadcastInDim S2000000x1 ![0] bcast_S2000000_S2000000x1_0 : (⟨S2000000, .i32⟩ : BufTy).Contents (Elt F) → (⟨S2000000x1, .i32⟩ : BufTy).Contents (Elt F)),
    unary main_v253 main_v256 (broadcastInDim S2000000x1 ![0] bcast_S2000000_S2000000x1_0 : (⟨S2000000, .i32⟩ : BufTy).Contents (Elt F) → (⟨S2000000x1, .i32⟩ : BufTy).Contents (Elt F)),
    nary ![main_v254, main_v255, main_v256] main_v257 (fun u => concatenate S2000000x3 1 [⟨S2000000x1, u 0⟩, ⟨S2000000x1, u 1⟩, ⟨S2000000x1, u 2⟩] concatenates_S2000000x1_S2000000x1_S2000000x1_S2000000x3_d1),
    binary main_arg1 main_v257 main_v258 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v238 main_v259 (broadcastInDim S2000000x4 ![0, 1] bcast_S2000000x1_S2000000x4_0_1 : (⟨S2000000x1, .f32⟩ : BufTy).Contents (Elt F) → (⟨S2000000x4, .f32⟩ : BufTy).Contents (Elt F)),
    binary main_v259 main_v258 main_v260 (mulf : (⟨S2000000x4, .f32⟩ : BufTy).Contents (Elt F) → (⟨S2000000x4, .f32⟩ : BufTy).Contents (Elt F) → (⟨S2000000x4, .f32⟩ : BufTy).Contents (Elt F)),
    binary main_v221 main_v260 main_v261 (addf : (⟨S2000000x4, .f32⟩ : BufTy).Contents (Elt F) → (⟨S2000000x4, .f32⟩ : BufTy).Contents (Elt F) → (⟨S2000000x4, .f32⟩ : BufTy).Contents (Elt F)) ]

/-- Corner `110`: its index and weight columns, the gather, the product, and the sum into the accumulator. -/
abbrev opsC6 : List (HloOp τ sig (Elt F)) :=
  [ unary main_v8 main_v262 ((extractStridedSlice S2000000x1 ![0, 0] · slices_S2000000x3_S2000000x1_0_0) : (⟨S2000000x3, .i32⟩ : BufTy).Contents (Elt F) → (⟨S2000000x1, .i32⟩ : BufTy).Contents (Elt F)),
    reshape main_v262 main_v263 rfl shapeCasts_S2000000x1_S2000000,
    unary main_v8 main_v264 ((extractStridedSlice S2000000x1 ![0, 1] · slices_S2000000x3_S2000000x1_0_1) : (⟨S2000000x3, .i32⟩ : BufTy).Contents (Elt F) → (⟨S2000000x1, .i32⟩ : BufTy).Contents (Elt F)),
    reshape main_v264 main_v265 rfl shapeCasts_S2000000x1_S2000000,
    unary main_v4 main_v266 ((extractStridedSlice S2000000x1 ![0, 2] · slices_S2000000x3_S2000000x1_0_2) : (⟨S2000000x3, .i32⟩ : BufTy).Contents (Elt F) → (⟨S2000000x1, .i32⟩ : BufTy).Contents (Elt F)),
    reshape main_v266 main_v267 rfl shapeCasts_S2000000x1_S2000000,
    unary main_v10 main_v268 ((extractStridedSlice S2000000x1 ![0, 0] · slices_S2000000x3_S2000000x1_0_0) : (⟨S2000000x3, .f32⟩ : BufTy).Contents (Elt F) → (⟨S2000000x1, .f32⟩ : BufTy).Contents (Elt F)),
    reshape main_v268 main_v269 rfl shapeCasts_S2000000x1_S2000000,
    unary main_v10 main_v270 ((extractStridedSlice S2000000x1 ![0, 1] · slices_S2000000x3_S2000000x1_0_1) : (⟨S2000000x3, .f32⟩ : BufTy).Contents (Elt F) → (⟨S2000000x1, .f32⟩ : BufTy).Contents (Elt F)),
    reshape main_v270 main_v271 rfl shapeCasts_S2000000x1_S2000000,
    unary main_v10 main_v272 ((extractStridedSlice S2000000x1 ![0, 2] · slices_S2000000x3_S2000000x1_0_2) : (⟨S2000000x3, .f32⟩ : BufTy).Contents (Elt F) → (⟨S2000000x1, .f32⟩ : BufTy).Contents (Elt F)),
    reshape main_v272 main_v273 rfl shapeCasts_S2000000x1_S2000000,
    nullary main_cst_51 (constant S_ .f32 0x3F800000#32),
    unary main_cst_51 main_v274 (broadcastInDim S2000000 ![] bcast_S_S2000000 : (⟨S_, .f32⟩ : BufTy).Contents (Elt F) → (⟨S2000000, .f32⟩ : BufTy).Contents (Elt F)),
    binary main_v274 main_v273 main_v275 (subf : (⟨S2000000, .f32⟩ : BufTy).Contents (Elt F) → (⟨S2000000, .f32⟩ : BufTy).Contents (Elt F) → (⟨S2000000, .f32⟩ : BufTy).Contents (Elt F)),
    binary main_v269 main_v271 main_v276 (mulf : (⟨S2000000, .f32⟩ : BufTy).Contents (Elt F) → (⟨S2000000, .f32⟩ : BufTy).Contents (Elt F) → (⟨S2000000, .f32⟩ : BufTy).Contents (Elt F)),
    binary main_v276 main_v275 main_v277 (mulf : (⟨S2000000, .f32⟩ : BufTy).Contents (Elt F) → (⟨S2000000, .f32⟩ : BufTy).Contents (Elt F) → (⟨S2000000, .f32⟩ : BufTy).Contents (Elt F)),
    unary main_v277 main_v278 (broadcastInDim S2000000x1 ![0] bcast_S2000000_S2000000x1_0 : (⟨S2000000, .f32⟩ : BufTy).Contents (Elt F) → (⟨S2000000x1, .f32⟩ : BufTy).Contents (Elt F)),
    nullary main_c_52 (constantI S_ 32 0#32),
    unary main_c_52 main_v279 (broadcastInDim S2000000 ![] bcast_S_S2000000 : (⟨S_, .i32⟩ : BufTy).Contents (Elt F) → (⟨S2000000, .i32⟩ : BufTy).Contents (Elt F)),
    binary main_v263 main_v279 main_v280 (cmpi .slt : (⟨S2000000, .i32⟩ : BufTy).Contents (Elt F) → (⟨S2000000, .i32⟩ : BufTy).Contents (Elt F) → (⟨S2000000, .i1⟩ : BufTy).Contents (Elt F)),
    nullary main_c_53 (constantI S_ 32 128#32),
    unary main_c_53 main_v281 (broadcastInDim S2000000 ![] bcast_S_S2000000 : (⟨S_, .i32⟩ : BufTy).Contents (Elt F) → (⟨S2000000, .i32⟩ : BufTy).Contents (Elt F)),
    binary main_v263 main_v281 main_v282 (addi : (⟨S2000000, .i32⟩ : BufTy).Contents (Elt F) → (⟨S2000000, .i32⟩ : BufTy).Contents (Elt F) → (⟨S2000000, .i32⟩ : BufTy).Contents (Elt F)),
    ternary main_v280 main_v282 main_v263 main_v283 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_54 (constantI S_ 32 0#32),
    unary main_c_54 main_v284 (broadcastInDim S2000000 ![] bcast_S_S2000000 : (⟨S_, .i32⟩ : BufTy).Contents (Elt F) → (⟨S2000000, .i32⟩ : BufTy).Contents (Elt F)),
    binary main_v265 main_v284 main_v285 (cmpi .slt : (⟨S2000000, .i32⟩ : BufTy).Contents (Elt F) → (⟨S2000000, .i32⟩ : BufTy).Contents (Elt F) → (⟨S2000000, .i1⟩ : BufTy).Contents (Elt F)),
    nullary main_c_55 (constantI S_ 32 128#32),
    unary main_c_55 main_v286 (broadcastInDim S2000000 ![] bcast_S_S2000000 : (⟨S_, .i32⟩ : BufTy).Contents (Elt F) → (⟨S2000000, .i32⟩ : BufTy).Contents (Elt F)),
    binary main_v265 main_v286 main_v287 (addi : (⟨S2000000, .i32⟩ : BufTy).Contents (Elt F) → (⟨S2000000, .i32⟩ : BufTy).Contents (Elt F) → (⟨S2000000, .i32⟩ : BufTy).Contents (Elt F)),
    ternary main_v285 main_v287 main_v265 main_v288 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_56 (constantI S_ 32 0#32),
    unary main_c_56 main_v289 (broadcastInDim S2000000 ![] bcast_S_S2000000 : (⟨S_, .i32⟩ : BufTy).Contents (Elt F) → (⟨S2000000, .i32⟩ : BufTy).Contents (Elt F)),
    binary main_v267 main_v289 main_v290 (cmpi .slt : (⟨S2000000, .i32⟩ : BufTy).Contents (Elt F) → (⟨S2000000, .i32⟩ : BufTy).Contents (Elt F) → (⟨S2000000, .i1⟩ : BufTy).Contents (Elt F)),
    nullary main_c_57 (constantI S_ 32 128#32),
    unary main_c_57 main_v291 (broadcastInDim S2000000 ![] bcast_S_S2000000 : (⟨S_, .i32⟩ : BufTy).Contents (Elt F) → (⟨S2000000, .i32⟩ : BufTy).Contents (Elt F)),
    binary main_v267 main_v291 main_v292 (addi : (⟨S2000000, .i32⟩ : BufTy).Contents (Elt F) → (⟨S2000000, .i32⟩ : BufTy).Contents (Elt F) → (⟨S2000000, .i32⟩ : BufTy).Contents (Elt F)),
    ternary main_v290 main_v292 main_v267 main_v293 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v283 main_v294 (broadcastInDim S2000000x1 ![0] bcast_S2000000_S2000000x1_0 : (⟨S2000000, .i32⟩ : BufTy).Contents (Elt F) → (⟨S2000000x1, .i32⟩ : BufTy).Contents (Elt F)),
    unary main_v288 main_v295 (broadcastInDim S2000000x1 ![0] bcast_S2000000_S2000000x1_0 : (⟨S2000000, .i32⟩ : BufTy).Contents (Elt F) → (⟨S2000000x1, .i32⟩ : BufTy).Contents (Elt F)),
    unary main_v293 main_v296 (broadcastInDim S2000000x1 ![0] bcast_S2000000_S2000000x1_0 : (⟨S2000000, .i32⟩ : BufTy).Contents (Elt F) → (⟨S2000000x1, .i32⟩ : BufTy).Contents (Elt F)),
    nary ![main_v294, main_v295, main_v296] main_v297 (fun u => concatenate S2000000x3 1 [⟨S2000000x1, u 0⟩, ⟨S2000000x1, u 1⟩, ⟨S2000000x1, u 2⟩] concatenates_S2000000x1_S2000000x1_S2000000x1_S2000000x3_d1),
    binary main_arg1 main_v297 main_v298 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v278 main_v299 (broadcastInDim S2000000x4 ![0, 1] bcast_S2000000x1_S2000000x4_0_1 : (⟨S2000000x1, .f32⟩ : BufTy).Contents (Elt F) → (⟨S2000000x4, .f32⟩ : BufTy).Contents (Elt F)),
    binary main_v299 main_v298 main_v300 (mulf : (⟨S2000000x4, .f32⟩ : BufTy).Contents (Elt F) → (⟨S2000000x4, .f32⟩ : BufTy).Contents (Elt F) → (⟨S2000000x4, .f32⟩ : BufTy).Contents (Elt F)),
    binary main_v261 main_v300 main_v301 (addf : (⟨S2000000x4, .f32⟩ : BufTy).Contents (Elt F) → (⟨S2000000x4, .f32⟩ : BufTy).Contents (Elt F) → (⟨S2000000x4, .f32⟩ : BufTy).Contents (Elt F)) ]

/-- Corner `111`: its index and weight columns, the gather, the product, and the sum into the accumulator. -/
abbrev opsC7 : List (HloOp τ sig (Elt F)) :=
  [ unary main_v8 main_v302 ((extractStridedSlice S2000000x1 ![0, 0] · slices_S2000000x3_S2000000x1_0_0) : (⟨S2000000x3, .i32⟩ : BufTy).Contents (Elt F) → (⟨S2000000x1, .i32⟩ : BufTy).Contents (Elt F)),
    reshape main_v302 main_v303 rfl shapeCasts_S2000000x1_S2000000,
    unary main_v8 main_v304 ((extractStridedSlice S2000000x1 ![0, 1] · slices_S2000000x3_S2000000x1_0_1) : (⟨S2000000x3, .i32⟩ : BufTy).Contents (Elt F) → (⟨S2000000x1, .i32⟩ : BufTy).Contents (Elt F)),
    reshape main_v304 main_v305 rfl shapeCasts_S2000000x1_S2000000,
    unary main_v8 main_v306 ((extractStridedSlice S2000000x1 ![0, 2] · slices_S2000000x3_S2000000x1_0_2) : (⟨S2000000x3, .i32⟩ : BufTy).Contents (Elt F) → (⟨S2000000x1, .i32⟩ : BufTy).Contents (Elt F)),
    reshape main_v306 main_v307 rfl shapeCasts_S2000000x1_S2000000,
    unary main_v10 main_v308 ((extractStridedSlice S2000000x1 ![0, 0] · slices_S2000000x3_S2000000x1_0_0) : (⟨S2000000x3, .f32⟩ : BufTy).Contents (Elt F) → (⟨S2000000x1, .f32⟩ : BufTy).Contents (Elt F)),
    reshape main_v308 main_v309 rfl shapeCasts_S2000000x1_S2000000,
    unary main_v10 main_v310 ((extractStridedSlice S2000000x1 ![0, 1] · slices_S2000000x3_S2000000x1_0_1) : (⟨S2000000x3, .f32⟩ : BufTy).Contents (Elt F) → (⟨S2000000x1, .f32⟩ : BufTy).Contents (Elt F)),
    reshape main_v310 main_v311 rfl shapeCasts_S2000000x1_S2000000,
    unary main_v10 main_v312 ((extractStridedSlice S2000000x1 ![0, 2] · slices_S2000000x3_S2000000x1_0_2) : (⟨S2000000x3, .f32⟩ : BufTy).Contents (Elt F) → (⟨S2000000x1, .f32⟩ : BufTy).Contents (Elt F)),
    reshape main_v312 main_v313 rfl shapeCasts_S2000000x1_S2000000,
    binary main_v309 main_v311 main_v314 (mulf : (⟨S2000000, .f32⟩ : BufTy).Contents (Elt F) → (⟨S2000000, .f32⟩ : BufTy).Contents (Elt F) → (⟨S2000000, .f32⟩ : BufTy).Contents (Elt F)),
    binary main_v314 main_v313 main_v315 (mulf : (⟨S2000000, .f32⟩ : BufTy).Contents (Elt F) → (⟨S2000000, .f32⟩ : BufTy).Contents (Elt F) → (⟨S2000000, .f32⟩ : BufTy).Contents (Elt F)),
    unary main_v315 main_v316 (broadcastInDim S2000000x1 ![0] bcast_S2000000_S2000000x1_0 : (⟨S2000000, .f32⟩ : BufTy).Contents (Elt F) → (⟨S2000000x1, .f32⟩ : BufTy).Contents (Elt F)),
    nullary main_c_58 (constantI S_ 32 0#32),
    unary main_c_58 main_v317 (broadcastInDim S2000000 ![] bcast_S_S2000000 : (⟨S_, .i32⟩ : BufTy).Contents (Elt F) → (⟨S2000000, .i32⟩ : BufTy).Contents (Elt F)),
    binary main_v303 main_v317 main_v318 (cmpi .slt : (⟨S2000000, .i32⟩ : BufTy).Contents (Elt F) → (⟨S2000000, .i32⟩ : BufTy).Contents (Elt F) → (⟨S2000000, .i1⟩ : BufTy).Contents (Elt F)),
    nullary main_c_59 (constantI S_ 32 128#32),
    unary main_c_59 main_v319 (broadcastInDim S2000000 ![] bcast_S_S2000000 : (⟨S_, .i32⟩ : BufTy).Contents (Elt F) → (⟨S2000000, .i32⟩ : BufTy).Contents (Elt F)),
    binary main_v303 main_v319 main_v320 (addi : (⟨S2000000, .i32⟩ : BufTy).Contents (Elt F) → (⟨S2000000, .i32⟩ : BufTy).Contents (Elt F) → (⟨S2000000, .i32⟩ : BufTy).Contents (Elt F)),
    ternary main_v318 main_v320 main_v303 main_v321 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_60 (constantI S_ 32 0#32),
    unary main_c_60 main_v322 (broadcastInDim S2000000 ![] bcast_S_S2000000 : (⟨S_, .i32⟩ : BufTy).Contents (Elt F) → (⟨S2000000, .i32⟩ : BufTy).Contents (Elt F)),
    binary main_v305 main_v322 main_v323 (cmpi .slt : (⟨S2000000, .i32⟩ : BufTy).Contents (Elt F) → (⟨S2000000, .i32⟩ : BufTy).Contents (Elt F) → (⟨S2000000, .i1⟩ : BufTy).Contents (Elt F)),
    nullary main_c_61 (constantI S_ 32 128#32),
    unary main_c_61 main_v324 (broadcastInDim S2000000 ![] bcast_S_S2000000 : (⟨S_, .i32⟩ : BufTy).Contents (Elt F) → (⟨S2000000, .i32⟩ : BufTy).Contents (Elt F)),
    binary main_v305 main_v324 main_v325 (addi : (⟨S2000000, .i32⟩ : BufTy).Contents (Elt F) → (⟨S2000000, .i32⟩ : BufTy).Contents (Elt F) → (⟨S2000000, .i32⟩ : BufTy).Contents (Elt F)),
    ternary main_v323 main_v325 main_v305 main_v326 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    nullary main_c_62 (constantI S_ 32 0#32),
    unary main_c_62 main_v327 (broadcastInDim S2000000 ![] bcast_S_S2000000 : (⟨S_, .i32⟩ : BufTy).Contents (Elt F) → (⟨S2000000, .i32⟩ : BufTy).Contents (Elt F)),
    binary main_v307 main_v327 main_v328 (cmpi .slt : (⟨S2000000, .i32⟩ : BufTy).Contents (Elt F) → (⟨S2000000, .i32⟩ : BufTy).Contents (Elt F) → (⟨S2000000, .i1⟩ : BufTy).Contents (Elt F)),
    nullary main_c_63 (constantI S_ 32 128#32),
    unary main_c_63 main_v329 (broadcastInDim S2000000 ![] bcast_S_S2000000 : (⟨S_, .i32⟩ : BufTy).Contents (Elt F) → (⟨S2000000, .i32⟩ : BufTy).Contents (Elt F)),
    binary main_v307 main_v329 main_v330 (addi : (⟨S2000000, .i32⟩ : BufTy).Contents (Elt F) → (⟨S2000000, .i32⟩ : BufTy).Contents (Elt F) → (⟨S2000000, .i32⟩ : BufTy).Contents (Elt F)),
    ternary main_v328 main_v330 main_v307 main_v331 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v321 main_v332 (broadcastInDim S2000000x1 ![0] bcast_S2000000_S2000000x1_0 : (⟨S2000000, .i32⟩ : BufTy).Contents (Elt F) → (⟨S2000000x1, .i32⟩ : BufTy).Contents (Elt F)),
    unary main_v326 main_v333 (broadcastInDim S2000000x1 ![0] bcast_S2000000_S2000000x1_0 : (⟨S2000000, .i32⟩ : BufTy).Contents (Elt F) → (⟨S2000000x1, .i32⟩ : BufTy).Contents (Elt F)),
    unary main_v331 main_v334 (broadcastInDim S2000000x1 ![0] bcast_S2000000_S2000000x1_0 : (⟨S2000000, .i32⟩ : BufTy).Contents (Elt F) → (⟨S2000000x1, .i32⟩ : BufTy).Contents (Elt F)),
    nary ![main_v332, main_v333, main_v334] main_v335 (fun u => concatenate S2000000x3 1 [⟨S2000000x1, u 0⟩, ⟨S2000000x1, u 1⟩, ⟨S2000000x1, u 2⟩] concatenates_S2000000x1_S2000000x1_S2000000x1_S2000000x3_d1),
    binary main_arg1 main_v335 main_v336 ((fun x i => Host.gather gather_S128x128x128x4_S2000000x3_S2000000x4_1_012_n_n_012_1_1114 x i) : (⟨S128x128x128x4, .f32⟩ : BufTy).Contents (Elt F) → (⟨S2000000x3, .i32⟩ : BufTy).Contents (Elt F) → (⟨S2000000x4, .f32⟩ : BufTy).Contents (Elt F)),
    unary main_v316 main_v337 (broadcastInDim S2000000x4 ![0, 1] bcast_S2000000x1_S2000000x4_0_1 : (⟨S2000000x1, .f32⟩ : BufTy).Contents (Elt F) → (⟨S2000000x4, .f32⟩ : BufTy).Contents (Elt F)),
    binary main_v337 main_v336 main_v338 (mulf : (⟨S2000000x4, .f32⟩ : BufTy).Contents (Elt F) → (⟨S2000000x4, .f32⟩ : BufTy).Contents (Elt F) → (⟨S2000000x4, .f32⟩ : BufTy).Contents (Elt F)),
    binary main_v301 main_v338 main_v339 (addf : (⟨S2000000x4, .f32⟩ : BufTy).Contents (Elt F) → (⟨S2000000x4, .f32⟩ : BufTy).Contents (Elt F) → (⟨S2000000x4, .f32⟩ : BufTy).Contents (Elt F)) ]

/-- The whole program: the nine pieces in order. -/
abbrev ops : List (HloOp τ sig (Elt F)) :=
  opsPre ++ (opsC0 ++ (opsC1 ++ (opsC2 ++ (opsC3 ++ (opsC4 ++ (opsC5 ++ (opsC6 ++ opsC7)))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

set_option maxRecDepth 8192 in
theorem opsPre_sub : (opsPre : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub ..⟩

set_option maxRecDepth 8192 in
theorem opsC0_sub : (opsC0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

set_option maxRecDepth 8192 in
theorem opsC1_sub : (opsC1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

set_option maxRecDepth 8192 in
theorem opsC2_sub : (opsC2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., reshape_bufs_sub .., unary_bufs_sub .., reshape_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

set_option maxRecDepth 8192 in
theorem opsC3_sub : (opsC3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., reshape_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

set_option maxRecDepth 8192 in
theorem opsC4_sub : (opsC4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

set_option maxRecDepth 8192 in
theorem opsC5_sub : (opsC5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

set_option maxRecDepth 8192 in
theorem opsC6_sub : (opsC6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

set_option maxRecDepth 8192 in
theorem opsC7_sub : (opsC7 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub ..⟩

/-- Every operation touches TensorCore references only. -/
theorem ops_sub : (ops : List (HloOp τ sig (Elt F))).Forall fun op => op.bufs ⊆ tcRefs τ sig :=
  forall_append opsPre_sub (forall_append opsC0_sub (forall_append opsC1_sub (forall_append opsC2_sub (forall_append opsC3_sub
    (forall_append opsC4_sub (forall_append opsC5_sub (forall_append opsC6_sub opsC7_sub)))))))

theorem opsPre_fresh : ∀ op ∈ (opsPre : List (HloOp τ sig (Elt F))), op.fresh = ∅ := by
  intro _ h; (repeat (cases h with | head => rfl | tail _ h => ?_)); exact nomatch h

theorem opsC0_fresh : ∀ op ∈ (opsC0 : List (HloOp τ sig (Elt F))), op.fresh = ∅ := by
  intro _ h; (repeat (cases h with | head => rfl | tail _ h => ?_)); exact nomatch h

theorem opsC1_fresh : ∀ op ∈ (opsC1 : List (HloOp τ sig (Elt F))), op.fresh = ∅ := by
  intro _ h; (repeat (cases h with | head => rfl | tail _ h => ?_)); exact nomatch h

theorem opsC2_fresh : ∀ op ∈ (opsC2 : List (HloOp τ sig (Elt F))), op.fresh = ∅ := by
  intro _ h; (repeat (cases h with | head => rfl | tail _ h => ?_)); exact nomatch h

theorem opsC3_fresh : ∀ op ∈ (opsC3 : List (HloOp τ sig (Elt F))), op.fresh = ∅ := by
  intro _ h; (repeat (cases h with | head => rfl | tail _ h => ?_)); exact nomatch h

theorem opsC4_fresh : ∀ op ∈ (opsC4 : List (HloOp τ sig (Elt F))), op.fresh = ∅ := by
  intro _ h; (repeat (cases h with | head => rfl | tail _ h => ?_)); exact nomatch h

theorem opsC5_fresh : ∀ op ∈ (opsC5 : List (HloOp τ sig (Elt F))), op.fresh = ∅ := by
  intro _ h; (repeat (cases h with | head => rfl | tail _ h => ?_)); exact nomatch h

theorem opsC6_fresh : ∀ op ∈ (opsC6 : List (HloOp τ sig (Elt F))), op.fresh = ∅ := by
  intro _ h; (repeat (cases h with | head => rfl | tail _ h => ?_)); exact nomatch h

theorem opsC7_fresh : ∀ op ∈ (opsC7 : List (HloOp τ sig (Elt F))), op.fresh = ∅ := by
  intro _ h; (repeat (cases h with | head => rfl | tail _ h => ?_)); exact nomatch h

/-- No operation allocates: each determines its results. -/
theorem ops_fresh : ∀ op ∈ (ops : List (HloOp τ sig (Elt F))), op.fresh = ∅ := by
  intro op h
  simp only [ops, List.mem_append] at h
  rcases h with h | h | h | h | h | h | h | h | h
  · exact opsPre_fresh op h
  · exact opsC0_fresh op h
  · exact opsC1_fresh op h
  · exact opsC2_fresh op h
  · exact opsC3_fresh op h
  · exact opsC4_fresh op h
  · exact opsC5_fresh op h
  · exact opsC6_fresh op h
  · exact opsC7_fresh op h

/-- The contents after two lines run one after the other. -/
theorem after_append {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_append l₁ l₂]

end Cert.Trilinear.Ref

end
-- ==== Proof.RefOps.lean ====
/-
  Two operations of the reference read at an index, over variables of the literal shapes:
  the join of three index columns [2000000, 1] along axis 1, and the gather of a lattice entry
  [128, 128, 128, 4] at a row of three start indices.
-/
import proofs.«113492_j84670985273547_2_alg».proof.Proof.Gen.ReferenceIdeal
import proofs.«113492_j84670985273547_2_alg».proof.Proof.Spec
import Idealize.ShloMosaic.Lib.Pipeline.Value

noncomputable section

namespace Cert.Trilinear.Ref

open Cert.ReferenceIdeal Cert.ReferenceIdeal.Facts₀ Idealize.ShloMosaic Idealize.ShloMosaic.ValueIdx

variable {α : Type}

/-- The join of three columns along axis 1 at `(n, 0)` is the first column at `(n, 0)`. -/
theorem concat_col0 (c0 c1 c2 : S2000000x1.Idx → α) (n : Fin 2000000) :
    concatenate S2000000x3 1 [⟨S2000000x1, c0⟩, ⟨S2000000x1, c1⟩, ⟨S2000000x1, c2⟩]
      concatenates_S2000000x1_S2000000x1_S2000000x1_S2000000x3_d1 (ix2 n (0 : Fin 3)) = c0 (ix2 n (0 : Fin 1)) := by
  refine concatenate_apply_piece (1 : Fin S2000000x3.rank) _ _ (ix2 n (0 : Fin 3)) 0 (by show (0 : Nat) < 3; omega) S2000000x1 c0 rfl rfl 0 rfl
    (ix2 n (0 : Fin 1)) ?_ ?_
  · intro b hb
    match b with
    | ⟨0, _⟩ => rfl
    | ⟨1, _⟩ => exact absurd rfl hb
  · rfl

/-- … at `(n, 1)` the second column … -/
theorem concat_col1 (c0 c1 c2 : S2000000x1.Idx → α) (n : Fin 2000000) :
    concatenate S2000000x3 1 [⟨S2000000x1, c0⟩, ⟨S2000000x1, c1⟩, ⟨S2000000x1, c2⟩]
      concatenates_S2000000x1_S2000000x1_S2000000x1_S2000000x3_d1 (ix2 n (1 : Fin 3)) = c1 (ix2 n (0 : Fin 1)) := by
  refine concatenate_apply_piece (1 : Fin S2000000x3.rank) _ _ (ix2 n (1 : Fin 3)) 1 (by show (1 : Nat) < 3; omega) S2000000x1 c1 rfl rfl 1 rfl
    (ix2 n (0 : Fin 1)) ?_ ?_
  · intro b hb
    match b with
    | ⟨0, _⟩ => rfl
    | ⟨1, _⟩ => exact absurd rfl hb
  · rfl

/-- … and at `(n, 2)` the third. -/
theorem concat_col2 (c0 c1 c2 : S2000000x1.Idx → α) (n : Fin 2000000) :
    concatenate S2000000x3 1 [⟨S2000000x1, c0⟩, ⟨S2000000x1, c1⟩, ⟨S2000000x1, c2⟩]
      concatenates_S2000000x1_S2000000x1_S2000000x1_S2000000x3_d1 (ix2 n (2 : Fin 3)) = c2 (ix2 n (0 : Fin 1)) := by
  refine concatenate_apply_piece (1 : Fin S2000000x3.rank) _ _ (ix2 n (2 : Fin 3)) 2 (by show (2 : Nat) < 3; omega) S2000000x1 c2 rfl rfl 2 rfl
    (ix2 n (0 : Fin 1)) ?_ ?_
  · intro b hb
    match b with
    | ⟨0, _⟩ => rfl
    | ⟨1, _⟩ => exact absurd rfl hb
  · rfl

/-- The gather's dimension numbers, under a short name. -/
abbrev GD : GatherDims S128x128x128x4 S2000000x3 S2000000x4 := gather_S128x128x128x4_S2000000x3_S2000000x4_1_012_n_n_012_1_1114

/-- The gather read at `(n, c)`: the lattice entry whose three lattice coordinates are the row's
    start indices, each read signed and clamped into `[0, 127]`, and whose last coordinate is `c`. -/
theorem gather_at (g : S128x128x128x4.Idx → α) (idx : IVec S2000000x3 32) (n : Fin 2000000) (c : Fin 4) :
    Host.gather gather_S128x128x128x4_S2000000x3_S2000000x4_1_012_n_n_012_1_1114 g idx (ix2 n c) =
      g (ix4 (clampIdx (idx (ix2 n 0))) (clampIdx (idx (ix2 n 1))) (clampIdx (idx (ix2 n 2))) c) := by
  unfold Host.gather
  congr 1
  funext a
  refine Fin.ext ?_
  have hsi : ∀ (k : Fin GD.startIndexMap.length) (a' : Fin 3), k.val = a'.val → GD.siIdx (ix2 n c) k = ix2 n a' := by
    intro k a' hk
    funext b; refine Fin.ext ?_
    match b with
    | ⟨0, _⟩ => rfl
    | ⟨1, _⟩ => exact hk
  match a with
  | ⟨0, _⟩ =>
    show GD.start (ix2 n c) idx 0 + GD.batchCoord (ix2 n c) 0 + GD.offCoord (ix2 n c) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 4) ∈ GD.startIndexMap from by decide)]
    have e : GD.siIdx (ix2 n c) ⟨List.idxOf (0 : Fin 4) GD.startIndexMap, List.idxOf_lt_length_iff.2 (by decide)⟩ = ix2 n (0 : Fin 3) :=
      hsi _ _ rfl
    rw [e]
    rfl
  | ⟨1, _⟩ =>
    show GD.start (ix2 n c) idx 1 + GD.batchCoord (ix2 n c) 1 + GD.offCoord (ix2 n c) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 4) ∈ GD.startIndexMap from by decide)]
    have e : GD.siIdx (ix2 n c) ⟨List.idxOf (1 : Fin 4) GD.startIndexMap, List.idxOf_lt_length_iff.2 (by decide)⟩ = ix2 n (1 : Fin 3) :=
      hsi _ _ rfl
    rw [e]
    rfl
  | ⟨2, _⟩ =>
    show GD.start (ix2 n c) idx 2 + GD.batchCoord (ix2 n c) 2 + GD.offCoord (ix2 n c) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 4) ∈ GD.startIndexMap from by decide)]
    have e : GD.siIdx (ix2 n c) ⟨List.idxOf (2 : Fin 4) GD.startIndexMap, List.idxOf_lt_length_iff.2 (by decide)⟩ = ix2 n (2 : Fin 3) :=
      hsi _ _ rfl
    rw [e]
    rfl
  | ⟨3, _⟩ =>
    show GD.start (ix2 n c) idx 3 + GD.batchCoord (ix2 n c) 3 + GD.offCoord (ix2 n c) 3 = c.val
    rw [GatherDims.batchCoord_eq_zero _ _ _ List.not_mem_nil]
    unfold GatherDims.start
    rw [dif_neg (show ¬ (3 : Fin 4) ∈ GD.startIndexMap from by decide)]
    unfold GatherDims.offCoord
    rw [dif_pos (show (3 : Fin 4) ∈ GD.sKept from by decide)]
    simp only [Nat.add_zero, Nat.zero_add]
    rfl

/-! ## Layout operations of the literal shapes read at an index -/

/-- A scalar spread over `[2000000, 3]` reads the scalar everywhere … -/
theorem splat3 (y : S_.Idx → α) (i : S2000000x3.Idx) : broadcastInDim S2000000x3 ![] bcast_S_S2000000x3 y i = y ix0 :=
  broadcastInDim_apply _ bcast_S_S2000000x3 y i ix0 (fun a => a.elim0)
/-- … over `[2000000, 4]` … -/
theorem splat4 (y : S_.Idx → α) (i : S2000000x4.Idx) : broadcastInDim S2000000x4 ![] bcast_S_S2000000x4 y i = y ix0 :=
  broadcastInDim_apply _ bcast_S_S2000000x4 y i ix0 (fun a => a.elim0)
/-- … and over `[2000000]`. -/
theorem splat1 (y : S_.Idx → α) (i : S2000000.Idx) : broadcastInDim S2000000 ![] bcast_S_S2000000 y i = y ix0 :=
  broadcastInDim_apply _ bcast_S_S2000000 y i ix0 (fun a => a.elim0)

/-- A vector `[2000000]` stood up as a column `[2000000, 1]` reads the vector at the row … -/
theorem asColumn (v : S2000000.Idx → α) (n : Fin 2000000) :
    broadcastInDim S2000000x1 ![0] bcast_S2000000_S2000000x1_0 v (ix2 n (0 : Fin 1)) = v (ix1 n) :=
  broadcastInDim_apply _ bcast_S2000000_S2000000x1_0 v _ (ix1 n) (fun a => match a with
    | ⟨0, _⟩ => by show n.val = if (2000000 : Nat) = 1 then 0 else n.val; rw [if_neg (by decide)])

/-- … and a column `[2000000, 1]` spread over four entries reads the column at the row. -/
theorem acrossRow (w : S2000000x1.Idx → α) (n : Fin 2000000) (c : Fin 4) :
    broadcastInDim S2000000x4 ![0, 1] bcast_S2000000x1_S2000000x4_0_1 w (ix2 n c) = w (ix2 n (0 : Fin 1)) :=
  broadcastInDim_apply _ bcast_S2000000x1_S2000000x4_0_1 w _ (ix2 n (0 : Fin 1)) (fun a => match a with
    | ⟨0, _⟩ => by show n.val = if (2000000 : Nat) = 1 then 0 else n.val; rw [if_neg (by decide)]
    | ⟨1, _⟩ => by show 0 = if (1 : Nat) = 1 then 0 else c.val; rw [if_pos rfl])

/-- A column `[2000000, 1]` flattened to `[2000000]` reads the column at the row. -/
theorem flatten (w : S2000000x1.Idx → α) (n : Fin 2000000) :
    shapeCast S2000000 w shapeCasts_S2000000x1_S2000000 (ix1 n) = w (ix2 n (0 : Fin 1)) :=
  shapeCast_apply w shapeCasts_S2000000x1_S2000000 (ix1 n) (ix2 n (0 : Fin 1))
    (by rewrite [Shape.rowMajor_val_two, Shape.rowMajor_val_one]; show n.val * 1 + 0 = n.val; omega)

/-- Column `0` of an array `[2000000, 3]`, as a vector, reads the array at `(n, 0)` … -/
theorem column0 (y : S2000000x3.Idx → α) (n : Fin 2000000) :
    shapeCast S2000000 (extractStridedSlice S2000000x1 ![0, 0] y slices_S2000000x3_S2000000x1_0_0)
      shapeCasts_S2000000x1_S2000000 (ix1 n) = y (ix2 n (0 : Fin 3)) := by
  rw [flatten]
  exact extractStridedSlice_apply ![0, 0] y slices_S2000000x3_S2000000x1_0_0 (ix2 n (0 : Fin 1)) (ix2 n (0 : Fin 3))
    (fun a => match a with
      | ⟨0, _⟩ => by show n.val = 0 + n.val; omega
      | ⟨1, _⟩ => by show (0 : Nat) = 0 + 0; rfl)
/-- … column `1` at `(n, 1)` … -/
theorem column1 (y : S2000000x3.Idx → α) (n : Fin 2000000) :
    shapeCast S2000000 (extractStridedSlice S2000000x1 ![0, 1] y slices_S2000000x3_S2000000x1_0_1)
      shapeCasts_S2000000x1_S2000000 (ix1 n) = y (ix2 n (1 : Fin 3)) := by
  rw [flatten]
  exact extractStridedSlice_apply ![0, 1] y slices_S2000000x3_S2000000x1_0_1 (ix2 n (0 : Fin 1)) (ix2 n (1 : Fin 3))
    (fun a => match a with
      | ⟨0, _⟩ => by show n.val = 0 + n.val; omega
      | ⟨1, _⟩ => by show (1 : Nat) = 1 + 0; rfl)
/-- … and column `2` at `(n, 2)`. -/
theorem column2 (y : S2000000x3.Idx → α) (n : Fin 2000000) :
    shapeCast S2000000 (extractStridedSlice S2000000x1 ![0, 2] y slices_S2000000x3_S2000000x1_0_2)
      shapeCasts_S2000000x1_S2000000 (ix1 n) = y (ix2 n (2 : Fin 3)) := by
  rw [flatten]
  exact extractStridedSlice_apply ![0, 2] y slices_S2000000x3_S2000000x1_0_2 (ix2 n (0 : Fin 1)) (ix2 n (2 : Fin 3))
    (fun a => match a with
      | ⟨0, _⟩ => by show n.val = 0 + n.val; omega
      | ⟨1, _⟩ => by show (2 : Nat) = 2 + 0; rfl)

/-! ## The reference's three recurring pieces, over variables -/

/-- An integer comparison, sum and choice of vectors read element by element. -/
theorem cmpi_at {s : Shape} {w : Nat} (p : CmpIPredicate) (a b : IVec s w) (i : s.Idx) :
    cmpi p a b i = IntOp.cmpi p (a i) (b i) := rfl
theorem addi_at {s : Shape} {w : Nat} (a b : IVec s w) (i : s.Idx) : addi a b i = IntOp.addi (a i) (b i) := rfl

/-- A column of lattice coordinates, a negative one wrapped by 128, stood up as `[2000000, 1]`: at row `n` the
    wrapped coordinate. -/
theorem wrapped (b : IVec S2000000 32) (n : Fin 2000000) :
    broadcastInDim S2000000x1 ![0] bcast_S2000000_S2000000x1_0
      (select (cmpi .slt b (broadcastInDim S2000000 ![] bcast_S_S2000000 (constantI S_ 32 0#32)))
        (addi b (broadcastInDim S2000000 ![] bcast_S_S2000000 (constantI S_ 32 128#32))) b) (ix2 n (0 : Fin 1))
      = wrap (b (ix1 n)) := by
  rw [asColumn, select_apply, cmpi_at, addi_at, splat1, splat1]
  rfl

/-- The gather of the lattice at the join of three index columns, at `(n, c)`. -/
theorem gather_concat (g : S128x128x128x4.Idx → α) (c0 c1 c2 : IVec S2000000x1 32) (n : Fin 2000000) (c : Fin 4) :
    Host.gather gather_S128x128x128x4_S2000000x3_S2000000x4_1_012_n_n_012_1_1114 g
      (concatenate S2000000x3 1 [⟨S2000000x1, c0⟩, ⟨S2000000x1, c1⟩, ⟨S2000000x1, c2⟩]
        concatenates_S2000000x1_S2000000x1_S2000000x1_S2000000x3_d1) (ix2 n c) =
      g (ix4 (clampIdx (c0 (ix2 n (0 : Fin 1)))) (clampIdx (c1 (ix2 n (0 : Fin 1)))) (clampIdx (c2 (ix2 n (0 : Fin 1)))) c) := by
  rw [gather_at, concat_col0, concat_col1, concat_col2]

/-- The lower corner's weight along an axis, `1 - f`, from the column of fractional parts. -/
theorem oneMinus (f : FVec Ideal S2000000 .f32) (n : Fin 2000000) :
    subf (broadcastInDim S2000000 ![] bcast_S_S2000000 (constant (F := Ideal) S_ .f32 0x3F800000#32)) f (ix1 n) = w1 - f (ix1 n) := by
  rw [subf_apply, splat1]
  rfl

end Cert.Trilinear.Ref

end
-- ==== Proof.RefTerm.lean ====
/-
  The reference's pieces as functions of arrays: the clipped position, the two corners and the
  fractional part of a whole query array; a column of an array `[2000000, 3]`; a column of corner
  coordinates wrapped and stood up for the gather; the lower corner's weight `1 - f`; and one corner's
  term — the product of three weight columns, spread over the four entries of a row, with the
  gather of the lattice at three wrapped coordinate columns.  Each is read at an index.
-/
import proofs.«113492_j84670985273547_2_alg».proof.Proof.RefOps

noncomputable section

namespace Cert.Trilinear.Ref

open Cert.ReferenceIdeal Cert.ReferenceIdeal.Facts₀ Idealize.ShloMosaic Idealize.ShloMosaic.ValueIdx

/-! ## The shared stages of a whole query array -/

/-- The coordinates scaled by 128 and clipped to `[0, 127]`. -/
def posV (x : FVec Ideal S2000000x3 .f32) : FVec Ideal S2000000x3 .f32 :=
  minimumf (broadcastInDim S2000000x3 ![] bcast_S_S2000000x3 (sitofp .f32 (constantI S_ 32 127#32)))
    (maximumf (broadcastInDim S2000000x3 ![] bcast_S_S2000000x3 (id (constant (F := Ideal) S_ .f32 0x00000000#32)))
      (mulf x (broadcastInDim S2000000x3 ![] bcast_S_S2000000x3 (constant (F := Ideal) S_ .f32 0x43000000#32))))

/-- The lower corners. -/
def loV (x : FVec Ideal S2000000x3 .f32) : IVec S2000000x3 32 := fptosi 32 (Host.floor (posV x))

/-- The upper corners. -/
def hiV (x : FVec Ideal S2000000x3 .f32) : IVec S2000000x3 32 :=
  minsi (addi (loV x) (broadcastInDim S2000000x3 ![] bcast_S_S2000000x3 (constantI S_ 32 1#32)))
    (broadcastInDim S2000000x3 ![] bcast_S_S2000000x3 (constantI S_ 32 127#32))

/-- The fractional parts. -/
def fracV (x : FVec Ideal S2000000x3 .f32) : FVec Ideal S2000000x3 .f32 := subf (posV x) (sitofp .f32 (loV x))

/-- The zero accumulator. -/
def zeroV : FVec Ideal S2000000x4 .f32 :=
  broadcastInDim S2000000x4 ![] bcast_S_S2000000x4 (constant (F := Ideal) S_ .f32 0x00000000#32)

theorem posV_at (x : FVec Ideal S2000000x3 .f32) (i : S2000000x3.Idx) : posV x i = pos (x i) := by
  unfold posV
  rw [minimumf_apply, maximumf_apply, mulf_apply, splat3, splat3, splat3]
  rfl

theorem loV_at (x : FVec Ideal S2000000x3 .f32) (i : S2000000x3.Idx) : loV x i = lo (x i) := by
  unfold lo
  rw [← posV_at x i]
  rfl

theorem hiV_at (x : FVec Ideal S2000000x3 .f32) (i : S2000000x3.Idx) : hiV x i = hi (x i) := by
  show IntOp.minsi (IntOp.addi (loV x i) (broadcastInDim S2000000x3 ![] bcast_S_S2000000x3 (constantI S_ 32 1#32) i))
    (broadcastInDim S2000000x3 ![] bcast_S_S2000000x3 (constantI S_ 32 127#32) i) = _
  rw [splat3, splat3, loV_at]
  rfl

theorem fracV_at (x : FVec Ideal S2000000x3 .f32) (i : S2000000x3.Idx) : fracV x i = frac (x i) := by
  unfold frac
  rw [← posV_at x i, ← loV_at x i]
  rfl

theorem zeroV_at (i : S2000000x4.Idx) : zeroV i = w0 := by
  unfold zeroV
  rw [splat4]
  rfl

/-! ## Columns, wrapped coordinates, weights -/

variable {α : Type}

/-- Column `0`, `1`, `2` of an array `[2000000, 3]`, as a vector. -/
def col0 (y : S2000000x3.Idx → α) : S2000000.Idx → α :=
  shapeCast S2000000 (extractStridedSlice S2000000x1 ![0, 0] y slices_S2000000x3_S2000000x1_0_0) shapeCasts_S2000000x1_S2000000
def col1 (y : S2000000x3.Idx → α) : S2000000.Idx → α :=
  shapeCast S2000000 (extractStridedSlice S2000000x1 ![0, 1] y slices_S2000000x3_S2000000x1_0_1) shapeCasts_S2000000x1_S2000000
def col2 (y : S2000000x3.Idx → α) : S2000000.Idx → α :=
  shapeCast S2000000 (extractStridedSlice S2000000x1 ![0, 2] y slices_S2000000x3_S2000000x1_0_2) shapeCasts_S2000000x1_S2000000

theorem col0_at (y : S2000000x3.Idx → α) (n : Fin 2000000) : col0 y (ix1 n) = y (ix2 n (0 : Fin 3)) := column0 y n
theorem col1_at (y : S2000000x3.Idx → α) (n : Fin 2000000) : col1 y (ix1 n) = y (ix2 n (1 : Fin 3)) := column1 y n
theorem col2_at (y : S2000000x3.Idx → α) (n : Fin 2000000) : col2 y (ix1 n) = y (ix2 n (2 : Fin 3)) := column2 y n

/-- A vector of corner coordinates, a negative one wrapped by 128, stood up as a column. -/
def wrapCol (b : IVec S2000000 32) : IVec S2000000x1 32 :=
  broadcastInDim S2000000x1 ![0] bcast_S2000000_S2000000x1_0
    (select (cmpi .slt b (broadcastInDim S2000000 ![] bcast_S_S2000000 (constantI S_ 32 0#32)))
      (addi b (broadcastInDim S2000000 ![] bcast_S_S2000000 (constantI S_ 32 128#32))) b)

theorem wrapCol_at (b : IVec S2000000 32) (n : Fin 2000000) : wrapCol b (ix2 n (0 : Fin 1)) = wrap (b (ix1 n)) :=
  wrapped b n

/-- The lower corner's weights `1 - f`. -/
def lower (f : FVec Ideal S2000000 .f32) : FVec Ideal S2000000 .f32 :=
  subf (broadcastInDim S2000000 ![] bcast_S_S2000000 (constant (F := Ideal) S_ .f32 0x3F800000#32)) f

theorem lower_at (f : FVec Ideal S2000000 .f32) (n : Fin 2000000) : lower f (ix1 n) = w1 - f (ix1 n) := oneMinus f n

/-! ## One corner's term -/

/-- The product of three weight vectors, spread over the rows' four entries, times the gather of the lattice at three
    wrapped coordinate vectors. -/
def cornerTerm (u0 u1 u2 : FVec Ideal S2000000 .f32) (b0 b1 b2 : IVec S2000000 32) (g : FVec Ideal S128x128x128x4 .f32) :
    FVec Ideal S2000000x4 .f32 :=
  mulf (broadcastInDim S2000000x4 ![0, 1] bcast_S2000000x1_S2000000x4_0_1
      (broadcastInDim S2000000x1 ![0] bcast_S2000000_S2000000x1_0 (mulf (mulf u0 u1) u2)))
    (Host.gather gather_S128x128x128x4_S2000000x3_S2000000x4_1_012_n_n_012_1_1114 g
      (concatenate S2000000x3 1 [⟨S2000000x1, wrapCol b0⟩, ⟨S2000000x1, wrapCol b1⟩, ⟨S2000000x1, wrapCol b2⟩]
        concatenates_S2000000x1_S2000000x1_S2000000x1_S2000000x3_d1))

theorem cornerTerm_at (u0 u1 u2 : FVec Ideal S2000000 .f32) (b0 b1 b2 : IVec S2000000 32) (g : FVec Ideal S128x128x128x4 .f32)
    (n : Fin 2000000) (c : Fin 4) :
    cornerTerm u0 u1 u2 b0 b1 b2 g (ix2 n c) =
      ((u0 (ix1 n) * u1 (ix1 n)) * u2 (ix1 n)) *
        g (ix4 (clampIdx (wrap (b0 (ix1 n)))) (clampIdx (wrap (b1 (ix1 n)))) (clampIdx (wrap (b2 (ix1 n)))) c) := by
  unfold cornerTerm
  rw [mulf_apply, acrossRow, asColumn, gather_concat, wrapCol_at, wrapCol_at, wrapCol_at, mulf_apply, mulf_apply]

end Cert.Trilinear.Ref

end
-- ==== Proof.RefPre.lean ====
/-
  The shared stages run from any contents `W`: the lower corners, the upper corners, the fractional
  parts and the zero accumulator end as the functions `loV`, `hiV`, `fracV` of the query array and
  `zeroV`, and the two arguments are not written.  `Ready x g W` collects what a corner's piece needs
  of the contents it starts from.
-/
import proofs.«113492_j84670985273547_2_alg».proof.Proof.RefProg
import proofs.«113492_j84670985273547_2_alg».proof.Proof.RefTerm

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The contents a corner's piece starts from: the two arguments, the corners and the fractional parts. -/
structure Ready (x : FVec Ideal S2000000x3 .f32) (g : FVec Ideal S128x128x128x4 .f32) (W : Valuation τ sig (Elt Ideal)) : Prop where
  arg0 : W (Proc.devRef .tc main_arg0) = x
  arg1 : W (Proc.devRef .tc main_arg1) = g
  lo : W (Proc.devRef .tc main_v4) = loV x
  hi : W (Proc.devRef .tc main_v8) = hiV x
  fr : W (Proc.devRef .tc main_v10) = fracV x

theorem pre_lo (W : Valuation τ sig (Elt Ideal)) : after (opsPre (F := Ideal)) W (Proc.devRef .tc main_v4) = loV (W (Proc.devRef .tc main_arg0)) := by
  after_results <;> rfl
theorem pre_hi (W : Valuation τ sig (Elt Ideal)) : after (opsPre (F := Ideal)) W (Proc.devRef .tc main_v8) = hiV (W (Proc.devRef .tc main_arg0)) := by
  after_results <;> rfl
theorem pre_fr (W : Valuation τ sig (Elt Ideal)) : after (opsPre (F := Ideal)) W (Proc.devRef .tc main_v10) = fracV (W (Proc.devRef .tc main_arg0)) := by
  after_results <;> rfl
theorem pre_zero (W : Valuation τ sig (Elt Ideal)) : after (opsPre (F := Ideal)) W (Proc.devRef .tc main_v11) = zeroV := by
  after_results <;> rfl
theorem pre_arg0 (W : Valuation τ sig (Elt Ideal)) : after (opsPre (F := Ideal)) W (Proc.devRef .tc main_arg0) = W (Proc.devRef .tc main_arg0) := by
  refine after_of_forall_not_mem _ _ (List.forall_iff_forall_mem.mp ?_)
  simp only [opsPre, List.Forall, nullary_writes, unary_writes, binary_writes, ternary_writes, reshape_writes, nary_writes,
    Finset.mem_singleton]
  repeat' apply And.intro
  all_goals exact devRef_ne_of_ne (by decide)
theorem pre_arg1 (W : Valuation τ sig (Elt Ideal)) : after (opsPre (F := Ideal)) W (Proc.devRef .tc main_arg1) = W (Proc.devRef .tc main_arg1) := by
  refine after_of_forall_not_mem _ _ (List.forall_iff_forall_mem.mp ?_)
  simp only [opsPre, List.Forall, nullary_writes, unary_writes, binary_writes, ternary_writes, reshape_writes, nary_writes,
    Finset.mem_singleton]
  repeat' apply And.intro
  all_goals exact devRef_ne_of_ne (by decide)

/-- After the shared stages the contents are ready for the corners, with the accumulator at zero. -/
theorem pre_ready (W : Valuation τ sig (Elt Ideal)) : Ready (W (Proc.devRef .tc main_arg0)) (W (Proc.devRef .tc main_arg1)) (after (opsPre (F := Ideal)) W) :=
  ⟨pre_arg0 W, pre_arg1 W, pre_lo W, pre_hi W, pre_fr W⟩

end Cert.Trilinear.Ref

end
-- ==== Proof.RefC0.lean ====
/-
  Corner `000`'s piece run from any contents `W`: it adds the corner's term to the accumulator and
  writes neither the arguments nor the shared stages.
-/
import proofs.«113492_j84670985273547_2_alg».proof.Proof.RefPre

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c0_acc (W : Valuation τ sig (Elt Ideal)) : after (opsC0 (F := Ideal)) W (Proc.devRef .tc main_v55) =
    addf (W (Proc.devRef .tc main_v11)) (cornerTerm (lower (col0 (W (Proc.devRef .tc main_v10)))) (lower (col1 (W (Proc.devRef .tc main_v10)))) (lower (col2 (W (Proc.devRef .tc main_v10))))
      (col0 (W (Proc.devRef .tc main_v4))) (col1 (W (Proc.devRef .tc main_v4))) (col2 (W (Proc.devRef .tc main_v4))) (W (Proc.devRef .tc main_arg1))) := by
  after_results_simp <;> rfl

theorem c0_arg0 (W : Valuation τ sig (Elt Ideal)) : after (opsC0 (F := Ideal)) W (Proc.devRef .tc main_arg0) = W (Proc.devRef .tc main_arg0) := by
  refine after_of_forall_not_mem _ _ (List.forall_iff_forall_mem.mp ?_)
  simp only [opsC0, List.Forall, nullary_writes, unary_writes, binary_writes, ternary_writes, reshape_writes, nary_writes,
    Finset.mem_singleton]
  repeat' apply And.intro
  all_goals exact devRef_ne_of_ne (by decide)
theorem c0_arg1 (W : Valuation τ sig (Elt Ideal)) : after (opsC0 (F := Ideal)) W (Proc.devRef .tc main_arg1) = W (Proc.devRef .tc main_arg1) := by
  refine after_of_forall_not_mem _ _ (List.forall_iff_forall_mem.mp ?_)
  simp only [opsC0, List.Forall, nullary_writes, unary_writes, binary_writes, ternary_writes, reshape_writes, nary_writes,
    Finset.mem_singleton]
  repeat' apply And.intro
  all_goals exact devRef_ne_of_ne (by decide)
theorem c0_lo (W : Valuation τ sig (Elt Ideal)) : after (opsC0 (F := Ideal)) W (Proc.devRef .tc main_v4) = W (Proc.devRef .tc main_v4) := by
  refine after_of_forall_not_mem _ _ (List.forall_iff_forall_mem.mp ?_)
  simp only [opsC0, List.Forall, nullary_writes, unary_writes, binary_writes, ternary_writes, reshape_writes, nary_writes,
    Finset.mem_singleton]
  repeat' apply And.intro
  all_goals exact devRef_ne_of_ne (by decide)
theorem c0_hi (W : Valuation τ sig (Elt Ideal)) : after (opsC0 (F := Ideal)) W (Proc.devRef .tc main_v8) = W (Proc.devRef .tc main_v8) := by
  refine after_of_forall_not_mem _ _ (List.forall_iff_forall_mem.mp ?_)
  simp only [opsC0, List.Forall, nullary_writes, unary_writes, binary_writes, ternary_writes, reshape_writes, nary_writes,
    Finset.mem_singleton]
  repeat' apply And.intro
  all_goals exact devRef_ne_of_ne (by decide)
theorem c0_fr (W : Valuation τ sig (Elt Ideal)) : after (opsC0 (F := Ideal)) W (Proc.devRef .tc main_v10) = W (Proc.devRef .tc main_v10) := by
  refine after_of_forall_not_mem _ _ (List.forall_iff_forall_mem.mp ?_)
  simp only [opsC0, List.Forall, nullary_writes, unary_writes, binary_writes, ternary_writes, reshape_writes, nary_writes,
    Finset.mem_singleton]
  repeat' apply And.intro
  all_goals exact devRef_ne_of_ne (by decide)

/-- The piece keeps the contents ready and adds `term x g n c false false false` at every `(n, c)`. -/
theorem c0_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v11) (ix2 n c) = s n c) :
    Ready x g (after (opsC0 (F := Ideal)) W) ∧
      ∀ n c, after (opsC0 (F := Ideal)) W (Proc.devRef .tc main_v55) (ix2 n c) = s n c + term x g n c false false false := by
  refine ⟨⟨(c0_arg0 W).trans h.arg0, (c0_arg1 W).trans h.arg1, (c0_lo W).trans h.lo, (c0_hi W).trans h.hi,
    (c0_fr W).trans h.fr⟩, fun n c => ?_⟩
  rw [c0_acc, addf_apply, hs, cornerTerm_at, h.arg1, h.lo, h.fr, lower_at, lower_at, lower_at]
  simp only [col0_at, col1_at, col2_at, loV_at, hiV_at, fracV_at]
  rfl

end Cert.Trilinear.Ref

end
-- ==== Proof.RefC1.lean ====
/-
  Corner `001`'s piece run from any contents `W`: it adds the corner's term to the accumulator and
  writes neither the arguments nor the shared stages.
-/
import proofs.«113492_j84670985273547_2_alg».proof.Proof.RefPre
import proofs.«113492_j84670985273547_2_alg».proof.Proof.RefC0

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c1_acc (W : Valuation τ sig (Elt Ideal)) : after (opsC1 (F := Ideal)) W (Proc.devRef .tc main_v97) =
    addf (W (Proc.devRef .tc main_v55)) (cornerTerm (lower (col0 (W (Proc.devRef .tc main_v10)))) (lower (col1 (W (Proc.devRef .tc main_v10)))) (col2 (W (Proc.devRef .tc main_v10)))
      (col0 (W (Proc.devRef .tc main_v4))) (col1 (W (Proc.devRef .tc main_v4))) (col2 (W (Proc.devRef .tc main_v8))) (W (Proc.devRef .tc main_arg1))) := by
  after_results_simp <;> rfl

theorem c1_arg0 (W : Valuation τ sig (Elt Ideal)) : after (opsC1 (F := Ideal)) W (Proc.devRef .tc main_arg0) = W (Proc.devRef .tc main_arg0) := by
  refine after_of_forall_not_mem _ _ (List.forall_iff_forall_mem.mp ?_)
  simp only [opsC1, List.Forall, nullary_writes, unary_writes, binary_writes, ternary_writes, reshape_writes, nary_writes,
    Finset.mem_singleton]
  repeat' apply And.intro
  all_goals exact devRef_ne_of_ne (by decide)
theorem c1_arg1 (W : Valuation τ sig (Elt Ideal)) : after (opsC1 (F := Ideal)) W (Proc.devRef .tc main_arg1) = W (Proc.devRef .tc main_arg1) := by
  refine after_of_forall_not_mem _ _ (List.forall_iff_forall_mem.mp ?_)
  simp only [opsC1, List.Forall, nullary_writes, unary_writes, binary_writes, ternary_writes, reshape_writes, nary_writes,
    Finset.mem_singleton]
  repeat' apply And.intro
  all_goals exact devRef_ne_of_ne (by decide)
theorem c1_lo (W : Valuation τ sig (Elt Ideal)) : after (opsC1 (F := Ideal)) W (Proc.devRef .tc main_v4) = W (Proc.devRef .tc main_v4) := by
  refine after_of_forall_not_mem _ _ (List.forall_iff_forall_mem.mp ?_)
  simp only [opsC1, List.Forall, nullary_writes, unary_writes, binary_writes, ternary_writes, reshape_writes, nary_writes,
    Finset.mem_singleton]
  repeat' apply And.intro
  all_goals exact devRef_ne_of_ne (by decide)
theorem c1_hi (W : Valuation τ sig (Elt Ideal)) : after (opsC1 (F := Ideal)) W (Proc.devRef .tc main_v8) = W (Proc.devRef .tc main_v8) := by
  refine after_of_forall_not_mem _ _ (List.forall_iff_forall_mem.mp ?_)
  simp only [opsC1, List.Forall, nullary_writes, unary_writes, binary_writes, ternary_writes, reshape_writes, nary_writes,
    Finset.mem_singleton]
  repeat' apply And.intro
  all_goals exact devRef_ne_of_ne (by decide)
theorem c1_fr (W : Valuation τ sig (Elt Ideal)) : after (opsC1 (F := Ideal)) W (Proc.devRef .tc main_v10) = W (Proc.devRef .tc main_v10) := by
  refine after_of_forall_not_mem _ _ (List.forall_iff_forall_mem.mp ?_)
  simp only [opsC1, List.Forall, nullary_writes, unary_writes, binary_writes, ternary_writes, reshape_writes, nary_writes,
    Finset.mem_singleton]
  repeat' apply And.intro
  all_goals exact devRef_ne_of_ne (by decide)

/-- The piece keeps the contents ready and adds `term x g n c false false true` at every `(n, c)`. -/
theorem c1_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v55) (ix2 n c) = s n c) :
    Ready x g (after (opsC1 (F := Ideal)) W) ∧
      ∀ n c, after (opsC1 (F := Ideal)) W (Proc.devRef .tc main_v97) (ix2 n c) = s n c + term x g n c false false true := by
  refine ⟨⟨(c1_arg0 W).trans h.arg0, (c1_arg1 W).trans h.arg1, (c1_lo W).trans h.lo, (c1_hi W).trans h.hi,
    (c1_fr W).trans h.fr⟩, fun n c => ?_⟩
  rw [c1_acc, addf_apply, hs, cornerTerm_at, h.arg1, h.lo, h.hi, h.fr, lower_at, lower_at]
  simp only [col0_at, col1_at, col2_at, loV_at, hiV_at, fracV_at]
  rfl

end Cert.Trilinear.Ref

end
-- ==== Proof.RefC2.lean ====
/-
  Corner `010`'s piece run from any contents `W`: it adds the corner's term to the accumulator and
  writes neither the arguments nor the shared stages.
-/
import proofs.«113492_j84670985273547_2_alg».proof.Proof.RefPre
import proofs.«113492_j84670985273547_2_alg».proof.Proof.RefC1

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c2_acc (W : Valuation τ sig (Elt Ideal)) : after (opsC2 (F := Ideal)) W (Proc.devRef .tc main_v139) =
    addf (W (Proc.devRef .tc main_v97)) (cornerTerm (lower (col0 (W (Proc.devRef .tc main_v10)))) (col1 (W (Proc.devRef .tc main_v10))) (lower (col2 (W (Proc.devRef .tc main_v10))))
      (col0 (W (Proc.devRef .tc main_v4))) (col1 (W (Proc.devRef .tc main_v8))) (col2 (W (Proc.devRef .tc main_v4))) (W (Proc.devRef .tc main_arg1))) := by
  after_results_simp <;> rfl

theorem c2_arg0 (W : Valuation τ sig (Elt Ideal)) : after (opsC2 (F := Ideal)) W (Proc.devRef .tc main_arg0) = W (Proc.devRef .tc main_arg0) := by
  refine after_of_forall_not_mem _ _ (List.forall_iff_forall_mem.mp ?_)
  simp only [opsC2, List.Forall, nullary_writes, unary_writes, binary_writes, ternary_writes, reshape_writes, nary_writes,
    Finset.mem_singleton]
  repeat' apply And.intro
  all_goals exact devRef_ne_of_ne (by decide)
theorem c2_arg1 (W : Valuation τ sig (Elt Ideal)) : after (opsC2 (F := Ideal)) W (Proc.devRef .tc main_arg1) = W (Proc.devRef .tc main_arg1) := by
  refine after_of_forall_not_mem _ _ (List.forall_iff_forall_mem.mp ?_)
  simp only [opsC2, List.Forall, nullary_writes, unary_writes, binary_writes, ternary_writes, reshape_writes, nary_writes,
    Finset.mem_singleton]
  repeat' apply And.intro
  all_goals exact devRef_ne_of_ne (by decide)
theorem c2_lo (W : Valuation τ sig (Elt Ideal)) : after (opsC2 (F := Ideal)) W (Proc.devRef .tc main_v4) = W (Proc.devRef .tc main_v4) := by
  refine after_of_forall_not_mem _ _ (List.forall_iff_forall_mem.mp ?_)
  simp only [opsC2, List.Forall, nullary_writes, unary_writes, binary_writes, ternary_writes, reshape_writes, nary_writes,
    Finset.mem_singleton]
  repeat' apply And.intro
  all_goals exact devRef_ne_of_ne (by decide)
theorem c2_hi (W : Valuation τ sig (Elt Ideal)) : after (opsC2 (F := Ideal)) W (Proc.devRef .tc main_v8) = W (Proc.devRef .tc main_v8) := by
  refine after_of_forall_not_mem _ _ (List.forall_iff_forall_mem.mp ?_)
  simp only [opsC2, List.Forall, nullary_writes, unary_writes, binary_writes, ternary_writes, reshape_writes, nary_writes,
    Finset.mem_singleton]
  repeat' apply And.intro
  all_goals exact devRef_ne_of_ne (by decide)
theorem c2_fr (W : Valuation τ sig (Elt Ideal)) : after (opsC2 (F := Ideal)) W (Proc.devRef .tc main_v10) = W (Proc.devRef .tc main_v10) := by
  refine after_of_forall_not_mem _ _ (List.forall_iff_forall_mem.mp ?_)
  simp only [opsC2, List.Forall, nullary_writes, unary_writes, binary_writes, ternary_writes, reshape_writes, nary_writes,
    Finset.mem_singleton]
  repeat' apply And.intro
  all_goals exact devRef_ne_of_ne (by decide)

/-- The piece keeps the contents ready and adds `term x g n c false true false` at every `(n, c)`. -/
theorem c2_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v97) (ix2 n c) = s n c) :
    Ready x g (after (opsC2 (F := Ideal)) W) ∧
      ∀ n c, after (opsC2 (F := Ideal)) W (Proc.devRef .tc main_v139) (ix2 n c) = s n c + term x g n c false true false := by
  refine ⟨⟨(c2_arg0 W).trans h.arg0, (c2_arg1 W).trans h.arg1, (c2_lo W).trans h.lo, (c2_hi W).trans h.hi,
    (c2_fr W).trans h.fr⟩, fun n c => ?_⟩
  rw [c2_acc, addf_apply, hs, cornerTerm_at, h.arg1, h.lo, h.hi, h.fr, lower_at, lower_at]
  simp only [col0_at, col1_at, col2_at, loV_at, hiV_at, fracV_at]
  rfl

end Cert.Trilinear.Ref

end
-- ==== Proof.RefC3.lean ====
/-
  Corner `011`'s piece run from any contents `W`: it adds the corner's term to the accumulator and
  writes neither the arguments nor the shared stages.
-/
import proofs.«113492_j84670985273547_2_alg».proof.Proof.RefPre
import proofs.«113492_j84670985273547_2_alg».proof.Proof.RefC2

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c3_acc (W : Valuation τ sig (Elt Ideal)) : after (opsC3 (F := Ideal)) W (Proc.devRef .tc main_v179) =
    addf (W (Proc.devRef .tc main_v139)) (cornerTerm (lower (col0 (W (Proc.devRef .tc main_v10)))) (col1 (W (Proc.devRef .tc main_v10))) (col2 (W (Proc.devRef .tc main_v10)))
      (col0 (W (Proc.devRef .tc main_v4))) (col1 (W (Proc.devRef .tc main_v8))) (col2 (W (Proc.devRef .tc main_v8))) (W (Proc.devRef .tc main_arg1))) := by
  after_results_simp <;> rfl

theorem c3_arg0 (W : Valuation τ sig (Elt Ideal)) : after (opsC3 (F := Ideal)) W (Proc.devRef .tc main_arg0) = W (Proc.devRef .tc main_arg0) := by
  refine after_of_forall_not_mem _ _ (List.forall_iff_forall_mem.mp ?_)
  simp only [opsC3, List.Forall, nullary_writes, unary_writes, binary_writes, ternary_writes, reshape_writes, nary_writes,
    Finset.mem_singleton]
  repeat' apply And.intro
  all_goals exact devRef_ne_of_ne (by decide)
theorem c3_arg1 (W : Valuation τ sig (Elt Ideal)) : after (opsC3 (F := Ideal)) W (Proc.devRef .tc main_arg1) = W (Proc.devRef .tc main_arg1) := by
  refine after_of_forall_not_mem _ _ (List.forall_iff_forall_mem.mp ?_)
  simp only [opsC3, List.Forall, nullary_writes, unary_writes, binary_writes, ternary_writes, reshape_writes, nary_writes,
    Finset.mem_singleton]
  repeat' apply And.intro
  all_goals exact devRef_ne_of_ne (by decide)
theorem c3_lo (W : Valuation τ sig (Elt Ideal)) : after (opsC3 (F := Ideal)) W (Proc.devRef .tc main_v4) = W (Proc.devRef .tc main_v4) := by
  refine after_of_forall_not_mem _ _ (List.forall_iff_forall_mem.mp ?_)
  simp only [opsC3, List.Forall, nullary_writes, unary_writes, binary_writes, ternary_writes, reshape_writes, nary_writes,
    Finset.mem_singleton]
  repeat' apply And.intro
  all_goals exact devRef_ne_of_ne (by decide)
theorem c3_hi (W : Valuation τ sig (Elt Ideal)) : after (opsC3 (F := Ideal)) W (Proc.devRef .tc main_v8) = W (Proc.devRef .tc main_v8) := by
  refine after_of_forall_not_mem _ _ (List.forall_iff_forall_mem.mp ?_)
  simp only [opsC3, List.Forall, nullary_writes, unary_writes, binary_writes, ternary_writes, reshape_writes, nary_writes,
    Finset.mem_singleton]
  repeat' apply And.intro
  all_goals exact devRef_ne_of_ne (by decide)
theorem c3_fr (W : Valuation τ sig (Elt Ideal)) : after (opsC3 (F := Ideal)) W (Proc.devRef .tc main_v10) = W (Proc.devRef .tc main_v10) := by
  refine after_of_forall_not_mem _ _ (List.forall_iff_forall_mem.mp ?_)
  simp only [opsC3, List.Forall, nullary_writes, unary_writes, binary_writes, ternary_writes, reshape_writes, nary_writes,
    Finset.mem_singleton]
  repeat' apply And.intro
  all_goals exact devRef_ne_of_ne (by decide)

/-- The piece keeps the contents ready and adds `term x g n c false true true` at every `(n, c)`. -/
theorem c3_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v139) (ix2 n c) = s n c) :
    Ready x g (after (opsC3 (F := Ideal)) W) ∧
      ∀ n c, after (opsC3 (F := Ideal)) W (Proc.devRef .tc main_v179) (ix2 n c) = s n c + term x g n c false true true := by
  refine ⟨⟨(c3_arg0 W).trans h.arg0, (c3_arg1 W).trans h.arg1, (c3_lo W).trans h.lo, (c3_hi W).trans h.hi,
    (c3_fr W).trans h.fr⟩, fun n c => ?_⟩
  rw [c3_acc, addf_apply, hs, cornerTerm_at, h.arg1, h.lo, h.hi, h.fr, lower_at]
  simp only [col0_at, col1_at, col2_at, loV_at, hiV_at, fracV_at]
  rfl

end Cert.Trilinear.Ref

end
-- ==== Proof.RefC4.lean ====
/-
  Corner `100`'s piece run from any contents `W`: it adds the corner's term to the accumulator and
  writes neither the arguments nor the shared stages.
-/
import proofs.«113492_j84670985273547_2_alg».proof.Proof.RefPre
import proofs.«113492_j84670985273547_2_alg».proof.Proof.RefC3

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c4_acc (W : Valuation τ sig (Elt Ideal)) : after (opsC4 (F := Ideal)) W (Proc.devRef .tc main_v221) =
    addf (W (Proc.devRef .tc main_v179)) (cornerTerm (col0 (W (Proc.devRef .tc main_v10))) (lower (col1 (W (Proc.devRef .tc main_v10)))) (lower (col2 (W (Proc.devRef .tc main_v10))))
      (col0 (W (Proc.devRef .tc main_v8))) (col1 (W (Proc.devRef .tc main_v4))) (col2 (W (Proc.devRef .tc main_v4))) (W (Proc.devRef .tc main_arg1))) := by
  after_results_simp <;> rfl

theorem c4_arg0 (W : Valuation τ sig (Elt Ideal)) : after (opsC4 (F := Ideal)) W (Proc.devRef .tc main_arg0) = W (Proc.devRef .tc main_arg0) := by
  refine after_of_forall_not_mem _ _ (List.forall_iff_forall_mem.mp ?_)
  simp only [opsC4, List.Forall, nullary_writes, unary_writes, binary_writes, ternary_writes, reshape_writes, nary_writes,
    Finset.mem_singleton]
  repeat' apply And.intro
  all_goals exact devRef_ne_of_ne (by decide)
theorem c4_arg1 (W : Valuation τ sig (Elt Ideal)) : after (opsC4 (F := Ideal)) W (Proc.devRef .tc main_arg1) = W (Proc.devRef .tc main_arg1) := by
  refine after_of_forall_not_mem _ _ (List.forall_iff_forall_mem.mp ?_)
  simp only [opsC4, List.Forall, nullary_writes, unary_writes, binary_writes, ternary_writes, reshape_writes, nary_writes,
    Finset.mem_singleton]
  repeat' apply And.intro
  all_goals exact devRef_ne_of_ne (by decide)
theorem c4_lo (W : Valuation τ sig (Elt Ideal)) : after (opsC4 (F := Ideal)) W (Proc.devRef .tc main_v4) = W (Proc.devRef .tc main_v4) := by
  refine after_of_forall_not_mem _ _ (List.forall_iff_forall_mem.mp ?_)
  simp only [opsC4, List.Forall, nullary_writes, unary_writes, binary_writes, ternary_writes, reshape_writes, nary_writes,
    Finset.mem_singleton]
  repeat' apply And.intro
  all_goals exact devRef_ne_of_ne (by decide)
theorem c4_hi (W : Valuation τ sig (Elt Ideal)) : after (opsC4 (F := Ideal)) W (Proc.devRef .tc main_v8) = W (Proc.devRef .tc main_v8) := by
  refine after_of_forall_not_mem _ _ (List.forall_iff_forall_mem.mp ?_)
  simp only [opsC4, List.Forall, nullary_writes, unary_writes, binary_writes, ternary_writes, reshape_writes, nary_writes,
    Finset.mem_singleton]
  repeat' apply And.intro
  all_goals exact devRef_ne_of_ne (by decide)
theorem c4_fr (W : Valuation τ sig (Elt Ideal)) : after (opsC4 (F := Ideal)) W (Proc.devRef .tc main_v10) = W (Proc.devRef .tc main_v10) := by
  refine after_of_forall_not_mem _ _ (List.forall_iff_forall_mem.mp ?_)
  simp only [opsC4, List.Forall, nullary_writes, unary_writes, binary_writes, ternary_writes, reshape_writes, nary_writes,
    Finset.mem_singleton]
  repeat' apply And.intro
  all_goals exact devRef_ne_of_ne (by decide)

/-- The piece keeps the contents ready and adds `term x g n c true false false` at every `(n, c)`. -/
theorem c4_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v179) (ix2 n c) = s n c) :
    Ready x g (after (opsC4 (F := Ideal)) W) ∧
      ∀ n c, after (opsC4 (F := Ideal)) W (Proc.devRef .tc main_v221) (ix2 n c) = s n c + term x g n c true false false := by
  refine ⟨⟨(c4_arg0 W).trans h.arg0, (c4_arg1 W).trans h.arg1, (c4_lo W).trans h.lo, (c4_hi W).trans h.hi,
    (c4_fr W).trans h.fr⟩, fun n c => ?_⟩
  rw [c4_acc, addf_apply, hs, cornerTerm_at, h.arg1, h.lo, h.hi, h.fr, lower_at, lower_at]
  simp only [col0_at, col1_at, col2_at, loV_at, hiV_at, fracV_at]
  rfl

end Cert.Trilinear.Ref

end
-- ==== Proof.RefC5.lean ====
/-
  Corner `101`'s piece run from any contents `W`: it adds the corner's term to the accumulator and
  writes neither the arguments nor the shared stages.
-/
import proofs.«113492_j84670985273547_2_alg».proof.Proof.RefPre
import proofs.«113492_j84670985273547_2_alg».proof.Proof.RefC4

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c5_acc (W : Valuation τ sig (Elt Ideal)) : after (opsC5 (F := Ideal)) W (Proc.devRef .tc main_v261) =
    addf (W (Proc.devRef .tc main_v221)) (cornerTerm (col0 (W (Proc.devRef .tc main_v10))) (lower (col1 (W (Proc.devRef .tc main_v10)))) (col2 (W (Proc.devRef .tc main_v10)))
      (col0 (W (Proc.devRef .tc main_v8))) (col1 (W (Proc.devRef .tc main_v4))) (col2 (W (Proc.devRef .tc main_v8))) (W (Proc.devRef .tc main_arg1))) := by
  after_results_simp <;> rfl

theorem c5_arg0 (W : Valuation τ sig (Elt Ideal)) : after (opsC5 (F := Ideal)) W (Proc.devRef .tc main_arg0) = W (Proc.devRef .tc main_arg0) := by
  refine after_of_forall_not_mem _ _ (List.forall_iff_forall_mem.mp ?_)
  simp only [opsC5, List.Forall, nullary_writes, unary_writes, binary_writes, ternary_writes, reshape_writes, nary_writes,
    Finset.mem_singleton]
  repeat' apply And.intro
  all_goals exact devRef_ne_of_ne (by decide)
theorem c5_arg1 (W : Valuation τ sig (Elt Ideal)) : after (opsC5 (F := Ideal)) W (Proc.devRef .tc main_arg1) = W (Proc.devRef .tc main_arg1) := by
  refine after_of_forall_not_mem _ _ (List.forall_iff_forall_mem.mp ?_)
  simp only [opsC5, List.Forall, nullary_writes, unary_writes, binary_writes, ternary_writes, reshape_writes, nary_writes,
    Finset.mem_singleton]
  repeat' apply And.intro
  all_goals exact devRef_ne_of_ne (by decide)
theorem c5_lo (W : Valuation τ sig (Elt Ideal)) : after (opsC5 (F := Ideal)) W (Proc.devRef .tc main_v4) = W (Proc.devRef .tc main_v4) := by
  refine after_of_forall_not_mem _ _ (List.forall_iff_forall_mem.mp ?_)
  simp only [opsC5, List.Forall, nullary_writes, unary_writes, binary_writes, ternary_writes, reshape_writes, nary_writes,
    Finset.mem_singleton]
  repeat' apply And.intro
  all_goals exact devRef_ne_of_ne (by decide)
theorem c5_hi (W : Valuation τ sig (Elt Ideal)) : after (opsC5 (F := Ideal)) W (Proc.devRef .tc main_v8) = W (Proc.devRef .tc main_v8) := by
  refine after_of_forall_not_mem _ _ (List.forall_iff_forall_mem.mp ?_)
  simp only [opsC5, List.Forall, nullary_writes, unary_writes, binary_writes, ternary_writes, reshape_writes, nary_writes,
    Finset.mem_singleton]
  repeat' apply And.intro
  all_goals exact devRef_ne_of_ne (by decide)
theorem c5_fr (W : Valuation τ sig (Elt Ideal)) : after (opsC5 (F := Ideal)) W (Proc.devRef .tc main_v10) = W (Proc.devRef .tc main_v10) := by
  refine after_of_forall_not_mem _ _ (List.forall_iff_forall_mem.mp ?_)
  simp only [opsC5, List.Forall, nullary_writes, unary_writes, binary_writes, ternary_writes, reshape_writes, nary_writes,
    Finset.mem_singleton]
  repeat' apply And.intro
  all_goals exact devRef_ne_of_ne (by decide)

/-- The piece keeps the contents ready and adds `term x g n c true false true` at every `(n, c)`. -/
theorem c5_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v221) (ix2 n c) = s n c) :
    Ready x g (after (opsC5 (F := Ideal)) W) ∧
      ∀ n c, after (opsC5 (F := Ideal)) W (Proc.devRef .tc main_v261) (ix2 n c) = s n c + term x g n c true false true := by
  refine ⟨⟨(c5_arg0 W).trans h.arg0, (c5_arg1 W).trans h.arg1, (c5_lo W).trans h.lo, (c5_hi W).trans h.hi,
    (c5_fr W).trans h.fr⟩, fun n c => ?_⟩
  rw [c5_acc, addf_apply, hs, cornerTerm_at, h.arg1, h.lo, h.hi, h.fr, lower_at]
  simp only [col0_at, col1_at, col2_at, loV_at, hiV_at, fracV_at]
  rfl

end Cert.Trilinear.Ref

end
-- ==== Proof.RefC6.lean ====
/-
  Corner `110`'s piece run from any contents `W`: it adds the corner's term to the accumulator and
  writes neither the arguments nor the shared stages.
-/
import proofs.«113492_j84670985273547_2_alg».proof.Proof.RefPre
import proofs.«113492_j84670985273547_2_alg».proof.Proof.RefC5

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c6_acc (W : Valuation τ sig (Elt Ideal)) : after (opsC6 (F := Ideal)) W (Proc.devRef .tc main_v301) =
    addf (W (Proc.devRef .tc main_v261)) (cornerTerm (col0 (W (Proc.devRef .tc main_v10))) (col1 (W (Proc.devRef .tc main_v10))) (lower (col2 (W (Proc.devRef .tc main_v10))))
      (col0 (W (Proc.devRef .tc main_v8))) (col1 (W (Proc.devRef .tc main_v8))) (col2 (W (Proc.devRef .tc main_v4))) (W (Proc.devRef .tc main_arg1))) := by
  after_results_simp <;> rfl

theorem c6_arg0 (W : Valuation τ sig (Elt Ideal)) : after (opsC6 (F := Ideal)) W (Proc.devRef .tc main_arg0) = W (Proc.devRef .tc main_arg0) := by
  refine after_of_forall_not_mem _ _ (List.forall_iff_forall_mem.mp ?_)
  simp only [opsC6, List.Forall, nullary_writes, unary_writes, binary_writes, ternary_writes, reshape_writes, nary_writes,
    Finset.mem_singleton]
  repeat' apply And.intro
  all_goals exact devRef_ne_of_ne (by decide)
theorem c6_arg1 (W : Valuation τ sig (Elt Ideal)) : after (opsC6 (F := Ideal)) W (Proc.devRef .tc main_arg1) = W (Proc.devRef .tc main_arg1) := by
  refine after_of_forall_not_mem _ _ (List.forall_iff_forall_mem.mp ?_)
  simp only [opsC6, List.Forall, nullary_writes, unary_writes, binary_writes, ternary_writes, reshape_writes, nary_writes,
    Finset.mem_singleton]
  repeat' apply And.intro
  all_goals exact devRef_ne_of_ne (by decide)
theorem c6_lo (W : Valuation τ sig (Elt Ideal)) : after (opsC6 (F := Ideal)) W (Proc.devRef .tc main_v4) = W (Proc.devRef .tc main_v4) := by
  refine after_of_forall_not_mem _ _ (List.forall_iff_forall_mem.mp ?_)
  simp only [opsC6, List.Forall, nullary_writes, unary_writes, binary_writes, ternary_writes, reshape_writes, nary_writes,
    Finset.mem_singleton]
  repeat' apply And.intro
  all_goals exact devRef_ne_of_ne (by decide)
theorem c6_hi (W : Valuation τ sig (Elt Ideal)) : after (opsC6 (F := Ideal)) W (Proc.devRef .tc main_v8) = W (Proc.devRef .tc main_v8) := by
  refine after_of_forall_not_mem _ _ (List.forall_iff_forall_mem.mp ?_)
  simp only [opsC6, List.Forall, nullary_writes, unary_writes, binary_writes, ternary_writes, reshape_writes, nary_writes,
    Finset.mem_singleton]
  repeat' apply And.intro
  all_goals exact devRef_ne_of_ne (by decide)
theorem c6_fr (W : Valuation τ sig (Elt Ideal)) : after (opsC6 (F := Ideal)) W (Proc.devRef .tc main_v10) = W (Proc.devRef .tc main_v10) := by
  refine after_of_forall_not_mem _ _ (List.forall_iff_forall_mem.mp ?_)
  simp only [opsC6, List.Forall, nullary_writes, unary_writes, binary_writes, ternary_writes, reshape_writes, nary_writes,
    Finset.mem_singleton]
  repeat' apply And.intro
  all_goals exact devRef_ne_of_ne (by decide)

/-- The piece keeps the contents ready and adds `term x g n c true true false` at every `(n, c)`. -/
theorem c6_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v261) (ix2 n c) = s n c) :
    Ready x g (after (opsC6 (F := Ideal)) W) ∧
      ∀ n c, after (opsC6 (F := Ideal)) W (Proc.devRef .tc main_v301) (ix2 n c) = s n c + term x g n c true true false := by
  refine ⟨⟨(c6_arg0 W).trans h.arg0, (c6_arg1 W).trans h.arg1, (c6_lo W).trans h.lo, (c6_hi W).trans h.hi,
    (c6_fr W).trans h.fr⟩, fun n c => ?_⟩
  rw [c6_acc, addf_apply, hs, cornerTerm_at, h.arg1, h.lo, h.hi, h.fr, lower_at]
  simp only [col0_at, col1_at, col2_at, loV_at, hiV_at, fracV_at]
  rfl

end Cert.Trilinear.Ref

end
-- ==== Proof.RefC7.lean ====
/-
  Corner `111`'s piece run from any contents `W`: it adds the corner's term to the accumulator and
  writes neither the arguments nor the shared stages.
-/
import proofs.«113492_j84670985273547_2_alg».proof.Proof.RefPre
import proofs.«113492_j84670985273547_2_alg».proof.Proof.RefC6

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- The new accumulator is the old one plus the corner's term of the contents the piece starts from. -/
theorem c7_acc (W : Valuation τ sig (Elt Ideal)) : after (opsC7 (F := Ideal)) W (Proc.devRef .tc main_v339) =
    addf (W (Proc.devRef .tc main_v301)) (cornerTerm (col0 (W (Proc.devRef .tc main_v10))) (col1 (W (Proc.devRef .tc main_v10))) (col2 (W (Proc.devRef .tc main_v10)))
      (col0 (W (Proc.devRef .tc main_v8))) (col1 (W (Proc.devRef .tc main_v8))) (col2 (W (Proc.devRef .tc main_v8))) (W (Proc.devRef .tc main_arg1))) := by
  after_results_simp <;> rfl

theorem c7_arg0 (W : Valuation τ sig (Elt Ideal)) : after (opsC7 (F := Ideal)) W (Proc.devRef .tc main_arg0) = W (Proc.devRef .tc main_arg0) := by
  refine after_of_forall_not_mem _ _ (List.forall_iff_forall_mem.mp ?_)
  simp only [opsC7, List.Forall, nullary_writes, unary_writes, binary_writes, ternary_writes, reshape_writes, nary_writes,
    Finset.mem_singleton]
  repeat' apply And.intro
  all_goals exact devRef_ne_of_ne (by decide)
theorem c7_arg1 (W : Valuation τ sig (Elt Ideal)) : after (opsC7 (F := Ideal)) W (Proc.devRef .tc main_arg1) = W (Proc.devRef .tc main_arg1) := by
  refine after_of_forall_not_mem _ _ (List.forall_iff_forall_mem.mp ?_)
  simp only [opsC7, List.Forall, nullary_writes, unary_writes, binary_writes, ternary_writes, reshape_writes, nary_writes,
    Finset.mem_singleton]
  repeat' apply And.intro
  all_goals exact devRef_ne_of_ne (by decide)
theorem c7_lo (W : Valuation τ sig (Elt Ideal)) : after (opsC7 (F := Ideal)) W (Proc.devRef .tc main_v4) = W (Proc.devRef .tc main_v4) := by
  refine after_of_forall_not_mem _ _ (List.forall_iff_forall_mem.mp ?_)
  simp only [opsC7, List.Forall, nullary_writes, unary_writes, binary_writes, ternary_writes, reshape_writes, nary_writes,
    Finset.mem_singleton]
  repeat' apply And.intro
  all_goals exact devRef_ne_of_ne (by decide)
theorem c7_hi (W : Valuation τ sig (Elt Ideal)) : after (opsC7 (F := Ideal)) W (Proc.devRef .tc main_v8) = W (Proc.devRef .tc main_v8) := by
  refine after_of_forall_not_mem _ _ (List.forall_iff_forall_mem.mp ?_)
  simp only [opsC7, List.Forall, nullary_writes, unary_writes, binary_writes, ternary_writes, reshape_writes, nary_writes,
    Finset.mem_singleton]
  repeat' apply And.intro
  all_goals exact devRef_ne_of_ne (by decide)
theorem c7_fr (W : Valuation τ sig (Elt Ideal)) : after (opsC7 (F := Ideal)) W (Proc.devRef .tc main_v10) = W (Proc.devRef .tc main_v10) := by
  refine after_of_forall_not_mem _ _ (List.forall_iff_forall_mem.mp ?_)
  simp only [opsC7, List.Forall, nullary_writes, unary_writes, binary_writes, ternary_writes, reshape_writes, nary_writes,
    Finset.mem_singleton]
  repeat' apply And.intro
  all_goals exact devRef_ne_of_ne (by decide)

/-- The piece keeps the contents ready and adds `term x g n c true true true` at every `(n, c)`. -/
theorem c7_step (x : FVec Ideal S2000000x3 .f32) (g : FVec Ideal S128x128x128x4 .f32) (W : Valuation τ sig (Elt Ideal)) (h : Ready x g W)
    (s : Fin 2000000 → Fin 4 → EReal) (hs : ∀ n c, W (Proc.devRef .tc main_v301) (ix2 n c) = s n c) :
    Ready x g (after (opsC7 (F := Ideal)) W) ∧
      ∀ n c, after (opsC7 (F := Ideal)) W (Proc.devRef .tc main_v339) (ix2 n c) = s n c + term x g n c true true true := by
  refine ⟨⟨(c7_arg0 W).trans h.arg0, (c7_arg1 W).trans h.arg1, (c7_lo W).trans h.lo, (c7_hi W).trans h.hi,
    (c7_fr W).trans h.fr⟩, fun n c => ?_⟩
  rw [c7_acc, addf_apply, hs, cornerTerm_at, h.arg1, h.hi, h.fr]
  simp only [col0_at, col1_at, col2_at, loV_at, hiV_at, fracV_at]
  rfl

end Cert.Trilinear.Ref

end
-- ==== Proof.RefHand.lean ====
/-
  The reference program computes the trilinear interpolation `Cert.Trilinear.value`, read off the
  program's own operations.  The program is nine pieces run in order.  From any contents `V` the shared
  stages leave the corners and fractional parts of the query array and a zero accumulator; each
  corner's piece then adds its term and leaves those stages and the arguments as they were; so the
  last accumulator holds, at every `(n, c)`, the eight terms added to zero in the order `000 … 111`,
  which is `valueAt`.  The run of the straight line then puts the result buffer at `value` of the two
  arguments and leaves the arguments unchanged.
-/
import proofs.«113492_j84670985273547_2_alg».proof.Proof.RefC0
import proofs.«113492_j84670985273547_2_alg».proof.Proof.RefC1
import proofs.«113492_j84670985273547_2_alg».proof.Proof.RefC2
import proofs.«113492_j84670985273547_2_alg».proof.Proof.RefC3
import proofs.«113492_j84670985273547_2_alg».proof.Proof.RefC4
import proofs.«113492_j84670985273547_2_alg».proof.Proof.RefC5
import proofs.«113492_j84670985273547_2_alg».proof.Proof.RefC6
import proofs.«113492_j84670985273547_2_alg».proof.Proof.RefC7

noncomputable section

namespace Cert.Trilinear.Ref

open Cert.ReferenceIdeal Cert.ReferenceIdeal.Gen Idealize.ShloMosaic Idealize.ShloMosaic.TcCoe Idealize.SL.Sem Idealize.ShloMosaic.StableHlo
  Idealize.ShloMosaic.ValueIdx

/-- From any contents, after the whole program: the arguments and shared stages in place, and the last accumulator at
    the interpolated value. -/
theorem chain (V : Valuation τ sig (Elt Ideal)) :
    Ready (V (Proc.devRef .tc main_arg0)) (V (Proc.devRef .tc main_arg1)) (after (ops (F := Ideal)) V) ∧
      ∀ n c, after (ops (F := Ideal)) V (Proc.devRef .tc main_v339) (ix2 n c) = valueAt (V (Proc.devRef .tc main_arg0)) (V (Proc.devRef .tc main_arg1)) n c := by
  have e : after (ops (F := Ideal)) V = after opsC7 (after opsC6 (after opsC5 (after opsC4 (after opsC3 (after opsC2
      (after opsC1 (after opsC0 (after opsPre V)))))))) := by
    simp only [ops, after_append]
  rw [e]
  have h0 := pre_ready V
  have a0 : ∀ (n : Fin 2000000) (c : Fin 4), after (opsPre (F := Ideal)) V (Proc.devRef .tc main_v11) (ix2 n c) = w0 :=
    fun n c => by rw [pre_zero, zeroV_at]
  generalize after (opsPre (F := Ideal)) V = W0 at h0 a0 ⊢
  obtain ⟨h1, a1⟩ := c0_step _ _ W0 h0 _ a0
  generalize after (opsC0 (F := Ideal)) W0 = W1 at h1 a1 ⊢
  obtain ⟨h2, a2⟩ := c1_step _ _ W1 h1 _ a1
  generalize after (opsC1 (F := Ideal)) W1 = W2 at h2 a2 ⊢
  obtain ⟨h3, a3⟩ := c2_step _ _ W2 h2 _ a2
  generalize after (opsC2 (F := Ideal)) W2 = W3 at h3 a3 ⊢
  obtain ⟨h4, a4⟩ := c3_step _ _ W3 h3 _ a3
  generalize after (opsC3 (F := Ideal)) W3 = W4 at h4 a4 ⊢
  obtain ⟨h5, a5⟩ := c4_step _ _ W4 h4 _ a4
  generalize after (opsC4 (F := Ideal)) W4 = W5 at h5 a5 ⊢
  obtain ⟨h6, a6⟩ := c5_step _ _ W5 h5 _ a5
  generalize after (opsC5 (F := Ideal)) W5 = W6 at h6 a6 ⊢
  obtain ⟨h7, a7⟩ := c6_step _ _ W6 h6 _ a6
  generalize after (opsC6 (F := Ideal)) W6 = W7 at h7 a7 ⊢
  obtain ⟨h8, a8⟩ := c7_step _ _ W7 h7 _ a7
  generalize after (opsC7 (F := Ideal)) W7 = W8 at h8 a8 ⊢
  exact ⟨h8, a8⟩

/-- On every device every weakly fair execution of the reference ends with the interpolation of its two
    arguments in the result buffer and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v339)
            = Cert.Trilinear.value (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono
    (fun _ h c => ⟨(h c main_v339).trans (by
        funext i
        obtain ⟨n, c', rfl⟩ : ∃ (n : Fin 2000000) (c' : Fin 4), i = ix2 n c' := ⟨i 0, i 1, eq_ix2 i⟩
        exact (chain (launchContents m c)).2 n c'),
      (h c main_arg0).trans (chain (launchContents m c)).1.arg0,
      (h c main_arg1).trans (chain (launchContents m c)).1.arg1⟩)
    (run_seq scopedRefs_eq scopedSems_eq defs main (fun _ => ops) main_eq (fun _ => ops_sub) m ρ (fun _ => ops_fresh))

end Cert.Trilinear.Ref

end
-- ==== Proof.lean ====
/-
  Trilinear interpolation of 2000000 query points on a 128 × 128 × 128 lattice of 4-vectors: a tiled program that
  replaces the eight-corner gather by two-hot weight rows and matrix products, against the program that gathers.

  Both programs scale and clip each coordinate to `[0, 127]`, take its integer part as the lower corner, the next lattice
  point (clamped) as the upper corner and the fractional part `f` as the upper corner's weight. The gathering program
  adds, from zero, the eight products `(wx · wy) · wz · g[ix, iy, iz, c]`. The tiled program builds per axis a row of
  128 weights `[j = lower] (1 − f) + [j = upper] f`, multiplies the y- and z-rows into a `128 × 128` table, contracts
  it against the lattice re-laid as `[4 · 128, 128 · 128]`, and contracts the x-row last; it pads the queries to a
  multiple of the tile height 256 and cuts the padding off the result. Under the precondition all data are real
  numbers, a sum against a two-hot row is the two evaluations at its corners, and distributing the three of them gives
  the eight products: the two results agree entry by entry. No operation was rewritten by the idealization, so that
  conjunct is trivial; the kernels' frames are the generated ones, and the reference's is its run with the result dropped.
-/
import proofs.«113492_j84670985273547_2_alg».proof.Defs
import proofs.«113492_j84670985273547_2_alg».proof.Proof.Gen.Kernel
import proofs.«113492_j84670985273547_2_alg».proof.Proof.Gen.Kernel.Skeleton
import proofs.«113492_j84670985273547_2_alg».proof.Proof.Gen.Kernel.Launch
import proofs.«113492_j84670985273547_2_alg».proof.Proof.Gen.Kernel.Points
import proofs.«113492_j84670985273547_2_alg».proof.Proof.Gen.Kernel.Frame
import proofs.«113492_j84670985273547_2_alg».proof.Proof.Gen.KernelIdeal
import proofs.«113492_j84670985273547_2_alg».proof.Proof.Gen.KernelIdeal.Skeleton
import proofs.«113492_j84670985273547_2_alg».proof.Proof.Gen.KernelIdeal.Launch
import proofs.«113492_j84670985273547_2_alg».proof.Proof.Gen.KernelIdeal.Points
import proofs.«113492_j84670985273547_2_alg».proof.Proof.Gen.KernelIdeal.Frame
import proofs.«113492_j84670985273547_2_alg».proof.Proof.Gen.ReferenceIdeal
import proofs.«113492_j84670985273547_2_alg».proof.Proof.Gen.Pre_finite_inputs
import proofs.«113492_j84670985273547_2_alg».proof.Proof.KernelClaim
import proofs.«113492_j84670985273547_2_alg».proof.Proof.BodyValue
import proofs.«113492_j84670985273547_2_alg».proof.Proof.Algebra
import proofs.«113492_j84670985273547_2_alg».proof.Proof.RefHand
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.Trilinear.Ref.run m ρ)

/-- Both programs end with the interpolation of the (agreeing) argument arrays. -/
theorem algebraic : Cert.algebraic_KernelIdeal_ReferenceIdeal := by
  intro m ρ m' ρ' hpre hagree
  refine ⟨fun c => Cert.Trilinear.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Trilinear.Ker.run_value Cert.Trilinear.Body.out_apply Cert.Trilinear.sumAt_eq_valueAt m ρ hpre, ?_⟩
  refine (θ_run Cert.ReferenceIdeal.defs _ _).mono (fun r h c => ⟨(h c).1.trans ?_, (h c).2⟩)
    (Cert.Trilinear.Ref.run m' ρ')
  rw [(hagree c).1, (hagree c).2]

end

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
